-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v15) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v103) = v1 c
          ∧ r.2.mem ((c.tc : Thread Cert.ReferenceIdeal.nD Cert.ReferenceIdeal.τ).loc Cert.ReferenceIdeal.main_v116) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S512x768 : Shape := ⟨2, ![512, 768]⟩
abbrev S32x256x16 : Shape := ⟨3, ![32, 256, 16]⟩
abbrev S768x2048 : Shape := ⟨2, ![768, 2048]⟩
abbrev S2048 : Shape := ⟨1, ![2048]⟩
abbrev S2048x2048 : Shape := ⟨2, ![2048, 2048]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S512x768 : S_.BroadcastsInDim S512x768 (![] : Fin 0 → Fin S512x768.rank)
  reducesTo_S512x768_S_d0_1 : S512x768.ReducesTo [0, 1] S_
  bcast_S_S32x256x16 : S_.BroadcastsInDim S32x256x16 (![] : Fin 0 → Fin S32x256x16.rank)
  reducesTo_S32x256x16_S_d0_1_2 : S32x256x16.ReducesTo [0, 1, 2] S_
  bcast_S_S768x2048 : S_.BroadcastsInDim S768x2048 (![] : Fin 0 → Fin S768x2048.rank)
  reducesTo_S768x2048_S_d0_1 : S768x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_

variable [Facts]

def fn_part3 {F : FTy → Type} [FloatOps F] (main_arg11 : FVec F S2048x2048 .f32) (main_arg12 : FVec F S2048 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  main_v63

def fn_part2 {F : FTy → Type} [FloatOps F] (main_arg7 : FVec F S2048x2048 .f32) (main_arg8 : FVec F S2048 .f32) (main_arg9 : FVec F S2048 .f32) (main_arg10 : FVec F S2048 .f32) (main_arg11 : FVec F S2048x2048 .f32) (main_arg12 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_v48 main_v49 main_v50

def fn_part1 {F : FTy → Type} [FloatOps F] (main_arg4 : FVec F S2048 .f32) (main_arg5 : FVec F S2048 .f32) (main_arg6 : FVec F S2048 .f32) (main_arg7 : FVec F S2048x2048 .f32) (main_arg8 : FVec F S2048 .f32) (main_arg9 : FVec F S2048 .f32) (main_arg10 : FVec F S2048 .f32) (main_arg11 : FVec F S2048x2048 .f32) (main_arg12 : FVec F S2048 .f32) (main_v13 : IVec S_ 1) (main_v16 : IVec S768x2048 1) : IVec S_ 1 :=
  let main_c_5 : IVec S_ 1 := constantI S_ 1 1#1
  let main_v17 : IVec S_ 1 := (fun x v => Host.reduce IntOp.andi x v reducesTo_S768x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x768 .f32) (main_arg1 : FVec F S512x768 .f32) (main_arg2 : FVec F S32x256x16 .f32) (main_arg3 : FVec F S768x2048 .f32) (main_arg4 : FVec F S2048 .f32) (main_arg5 : FVec F S2048 .f32) (main_arg6 : FVec F S2048 .f32) (main_arg7 : FVec F S2048x2048 .f32) (main_arg8 : FVec F S2048 .f32) (main_arg9 : FVec F S2048 .f32) (main_arg10 : FVec F S2048 .f32) (main_arg11 : FVec F S2048x2048 .f32) (main_arg12 : FVec F S2048 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  let main_v9 : FVec F S32x256x16 .f32 := Host.absf main_arg2
  let main_cst_2 : FVec F S_ .f32 := constant S_ .f32 0x7F800000#32
  let main_v10 : FVec F S32x256x16 .f32 := broadcastInDim S32x256x16 ![] bcast_S_S32x256x16 main_cst_2
  let main_v11 : IVec S32x256x16 1 := cmpf .olt main_v9 main_v10
  let main_c_3 : IVec S_ 1 := constantI S_ 1 1#1
  let main_v12 : IVec S_ 1 := (fun x v => Host.reduce IntOp.andi x v reducesTo_S32x256x16_S_d0_1_2 h_S_) main_v11 main_c_3
  let main_v13 : IVec S_ 1 := andi main_v8 main_v12
  let main_v14 : FVec F S768x2048 .f32 := Host.absf main_arg3
  let main_cst_4 : FVec F S_ .f32 := constant S_ .f32 0x7F800000#32
  let main_v15 : FVec F S768x2048 .f32 := broadcastInDim S768x2048 ![] bcast_S_S768x2048 main_cst_4
  let main_v16 : IVec S768x2048 1 := cmpf .olt main_v14 main_v15
  fn_part1 (F := F) main_arg4 main_arg5 main_arg6 main_arg7 main_arg8 main_arg9 main_arg10 main_arg11 main_arg12 main_v13 main_v16
-- ==== Kernel.lean ====
abbrev S8192x768 : Shape := ⟨2, ![8192, 768]⟩
abbrev S512x768 : Shape := ⟨2, ![512, 768]⟩
abbrev S32x256x16 : Shape := ⟨3, ![32, 256, 16]⟩
abbrev S768x2048 : Shape := ⟨2, ![768, 2048]⟩
abbrev S2048 : Shape := ⟨1, ![2048]⟩
abbrev S2048x2048 : Shape := ⟨2, ![2048, 2048]⟩
abbrev S32x256x768 : Shape := ⟨3, ![32, 256, 768]⟩
abbrev S32x16x768 : Shape := ⟨3, ![32, 16, 768]⟩
abbrev S16x2x3 : Shape := ⟨3, ![16, 2, 3]⟩
abbrev S2x256x768 : Shape := ⟨3, ![2, 256, 768]⟩
abbrev S2x16x768 : Shape := ⟨3, ![2, 16, 768]⟩
abbrev S2x256x16 : Shape := ⟨3, ![2, 256, 16]⟩
abbrev S1x2x3 : Shape := ⟨3, ![1, 2, 3]⟩
abbrev S2x272x768 : Shape := ⟨3, ![2, 272, 768]⟩
abbrev S544x768 : Shape := ⟨2, ![544, 768]⟩
abbrev S544x2048 : Shape := ⟨2, ![544, 2048]⟩
abbrev S1x2048 : Shape := ⟨2, ![1, 2048]⟩
abbrev S2x272x2048 : Shape := ⟨3, ![2, 272, 2048]⟩
abbrev S1x1x2048 : Shape := ⟨3, ![1, 1, 2048]⟩
abbrev S2x2048 : Shape := ⟨2, ![2, 2048]⟩
abbrev S2x1x2048 : Shape := ⟨3, ![2, 1, 2048]⟩
abbrev S2x256x2048 : Shape := ⟨3, ![2, 256, 2048]⟩
abbrev S2x16x2048 : Shape := ⟨3, ![2, 16, 2048]⟩
abbrev S2x256 : Shape := ⟨2, ![2, 256]⟩
abbrev S2x256x1 : Shape := ⟨3, ![2, 256, 1]⟩
abbrev S2x16 : Shape := ⟨2, ![2, 16]⟩
abbrev S2x16x1 : Shape := ⟨3, ![2, 16, 1]⟩
abbrev S2 : Shape := ⟨1, ![2]⟩
abbrev S2x16x16 : Shape := ⟨3, ![2, 16, 16]⟩
abbrev S16x16 : Shape := ⟨2, ![16, 16]⟩
abbrev S1x16x16 : Shape := ⟨3, ![1, 16, 16]⟩
abbrev S2x1 : Shape := ⟨2, ![2, 1]⟩
abbrev S2x3 : Shape := ⟨2, ![2, 3]⟩
abbrev S32x3 : Shape := ⟨2, ![32, 3]⟩
abbrev S32x1 : Shape := ⟨2, ![32, 1]⟩
abbrev S32 : Shape := ⟨1, ![32]⟩
abbrev S_ : Shape := ⟨0, ![]⟩

abbrev nBuf : Space → Nat
  | .hbm => 35
  | .vmem => 18
  | .smem => 0
  | _ => 0

abbrev bufTy : (tb : Table) → Fin (tcTables nBuf tb) → BufTy
  | .hbm, ⟨0, _⟩ => ⟨S8192x768, .f32⟩
  | .hbm, ⟨1, _⟩ => ⟨S512x768, .f32⟩
  | .hbm, ⟨2, _⟩ => ⟨S32x256x16, .f32⟩
  | .hbm, ⟨3, _⟩ => ⟨S768x2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048x2048, .f32⟩
  | .hbm, ⟨12, _⟩ => ⟨S2048, .f32⟩
  | .hbm, ⟨13, _⟩ => ⟨S32x256x768, .f32⟩
  | .hbm, ⟨14, _⟩ => ⟨S32x16x768, .f32⟩
  | .hbm, ⟨15, _⟩ => ⟨S16x2x3, .f32⟩
  | .hbm, ⟨16, _⟩ => ⟨S32x3, .f32⟩
  | .hbm, ⟨17, _⟩ => ⟨S32x1, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S32x1, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32x1, .f32⟩
  | .hbm, ⟨30, _⟩ => ⟨S32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S2x256x768, .f32⟩
  | .local _ .vmem, ⟨1, _⟩ => ⟨S2x256x768, .f32⟩
  | .local _ .vmem, ⟨2, _⟩ => ⟨S2x16x768, .f32⟩
  | .local _ .vmem, ⟨3, _⟩ => ⟨S2x16x768, .f32⟩
  | .local _ .vmem, ⟨4, _⟩ => ⟨S2x256x16, .f32⟩
  | .local _ .vmem, ⟨5, _⟩ => ⟨S2x256x16, .f32⟩
  | .local _ .vmem, ⟨6, _⟩ => ⟨S768x2048, .f32⟩
  | .local _ .vmem, ⟨7, _⟩ => ⟨S2048, .f32⟩
  | .local _ .vmem, ⟨8, _⟩ => ⟨S2048, .f32⟩
  | .local _ .vmem, ⟨9, _⟩ => ⟨S2048, .f32⟩
  | .local _ .vmem, ⟨10, _⟩ => ⟨S2048x2048, .f32⟩
  | .local _ .vmem, ⟨11, _⟩ => ⟨S2048, .f32⟩
  | .local _ .vmem, ⟨12, _⟩ => ⟨S2048, .f32⟩
  | .local _ .vmem, ⟨13, _⟩ => ⟨S2048, .f32⟩
  | .local _ .vmem, ⟨14, _⟩ => ⟨S2048x2048, .f32⟩
  | .local _ .vmem, ⟨15, _⟩ => ⟨S2048, .f32⟩
  | .local _ .vmem, ⟨16, _⟩ => ⟨S1x2x3, .f32⟩
  | .local _ .vmem, ⟨17, _⟩ => ⟨S1x2x3, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x2x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S8192x768_S32x256x768 : S8192x768.ShapeCasts S32x256x768
  shapeCasts_S512x768_S32x16x768 : S512x768.ShapeCasts S32x16x768
  inb_S2x256x768_S2x256x768_0_0_0 : ∀ a, (![0, 0, 0] : Fin 3 → Nat) a + S2x256x768.size a ≤ S2x256x768.size a
  h_S2x256x768 : 0 < S2x256x768.numel
  shapeCasts_S2x256x768_S2x256x768 : S2x256x768.ShapeCasts S2x256x768
  inb_S2x16x768_S2x16x768_0_0_0 : ∀ a, (![0, 0, 0] : Fin 3 → Nat) a + S2x16x768.size a ≤ S2x16x768.size a
  h_S2x16x768 : 0 < S2x16x768.numel
  shapeCasts_S2x16x768_S2x16x768 : S2x16x768.ShapeCasts S2x16x768
  concatenates_S2x256x768_S2x16x768_S2x272x768_d1 : Shape.Concatenates [S2x256x768, S2x16x768] S2x272x768 1
  shapeCasts_S2x272x768_S544x768 : S2x272x768.ShapeCasts S544x768
  inb_S768x2048_S768x2048_0_0 : ∀ a, (![0, 0] : Fin 2 → Nat) a + S768x2048.size a ≤ S768x2048.size a
  h_S768x2048 : 0 < S768x2048.numel
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S544x2048 : S1x2048.Broadcasts S544x2048
  shapeCasts_S544x2048_S2x272x2048 : S544x2048.ShapeCasts S2x272x2048
  shapeCasts_S2048_S1x1x2048 : S2048.ShapeCasts S1x1x2048
  reduces_S2x272x2048_S2x2048 : S2x272x2048.Reduces [1] S2x2048
  shapeCasts_S2x2048_S2x1x2048 : S2x2048.ShapeCasts S2x1x2048
  broadcasts_S2x1x2048_S2x272x2048 : S2x1x2048.Broadcasts S2x272x2048
  broadcasts_S1x1x2048_S2x272x2048 : S1x1x2048.Broadcasts S2x272x2048
  shapeCasts_S2x272x2048_S544x2048 : S2x272x2048.ShapeCasts S544x2048
  inb_S2048x2048_S2048x2048_0_0 : ∀ a, (![0, 0] : Fin 2 → Nat) a + S2048x2048.size a ≤ S2048x2048.size a
  h_S2048x2048 : 0 < S2048x2048.numel
  slices_S2x272x2048_o0_0_0_S2x256x2048 : S2x272x2048.Slices ![0, 0, 0] S2x256x2048
  slices_S2x272x2048_o0_256_0_S2x16x2048 : S2x272x2048.Slices ![0, 256, 0] S2x16x2048
  reduces_S2x256x2048_S2x256 : S2x256x2048.Reduces [2] S2x256
  shapeCasts_S2x256_S2x256x1 : S2x256.ShapeCasts S2x256x1
  broadcasts_S2x256x1_S2x256x2048 : S2x256x1.Broadcasts S2x256x2048
  reduces_S2x16x2048_S2x16 : S2x16x2048.Reduces [2] S2x16
  shapeCasts_S2x16_S2x16x1 : S2x16.ShapeCasts S2x16x1
  broadcasts_S2x16x1_S2x16x2048 : S2x16x1.Broadcasts S2x16x2048
  inb_S2x256x16_S2x256x16_0_0_0 : ∀ a, (![0, 0, 0] : Fin 3 → Nat) a + S2x256x16.size a ≤ S2x256x16.size a
  h_S2x256x16 : 0 < S2x256x16.numel
  natLt_1_32 : 1 < 32
  reduces_S2x256x16_S2 : S2x256x16.Reduces [1, 2] S2
  iota_S16x16_d0_w32 : S16x16.Iotas .tc 32 [0]
  iota_S16x16_d1_w32 : S16x16.Iotas .tc 32 [1]
  shapeCasts_S16x16_S1x16x16 : S16x16.ShapeCasts S1x16x16
  broadcasts_S1x16x16_S2x16x16 : S1x16x16.Broadcasts S2x16x16
  reduces_S2x16x16_S2 : S2x16x16.Reduces [1, 2] S2
  shapeCasts_S2_S2x1 : S2.ShapeCasts S2x1
  concatenates_S2x1_S2x1_S2x1_S2x3_d1 : Shape.Concatenates [S2x1, S2x1, S2x1] S2x3 1
  inb_S1x2x3_S1x2x3_0_0_0 : ∀ a, (![0, 0, 0] : Fin 3 → Nat) a + S1x2x3.size a ≤ S1x2x3.size a
  h_S1x2x3 : 0 < S1x2x3.numel
  shapeCasts_S1x2x3_S2x3 : S1x2x3.ShapeCasts S2x3
  shapeCasts_S2x3_S1x2x3 : S2x3.ShapeCasts S1x2x3
  shapeCasts_S16x2x3_S32x3 : S16x2x3.ShapeCasts S32x3
  slices_S32x3_S32x1_0_0 : S32x3.Slices ![0, 0] S32x1
  shapeCasts_S32x1_S32 : S32x1.ShapeCasts S32
  reducesTo_S32_S_d0 : S32.ReducesTo [0] S_
  h_S_ : 0 < S_.numel
  slices_S32x3_S32x1_0_1 : S32x3.Slices ![0, 1] S32x1
  slices_S32x3_S32x1_0_2 : S32x3.Slices ![0, 2] S32x1
  dot_S544x768_S768x2048_S544x2048_1_0_0_1_n_n_wf : DotDims.WF S544x768 S768x2048 S544x2048 [1] [0] [0] [1] [] []
  dot_S544x2048_S2048x2048_S544x2048_1_0_0_1_n_n_wf : DotDims.WF S544x2048 S2048x2048 S544x2048 [1] [0] [0] [1] [] []
  dot_S2x256x2048_S2x16x2048_S2x256x16_2_2_1_1_0_0_wf : DotDims.WF S2x256x2048 S2x16x2048 S2x256x16 [2] [2] [1] [1] [0] [0]
  dot_S2x16x2048_S2x16x2048_S2x16x16_2_2_1_1_0_0_wf : DotDims.WF S2x16x2048 S2x16x2048 S2x16x16 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x768.size a ≤ S32x256x768.size a
  hwx0_0 : ∀ i : grid0.Coords, EltTy.bits .f32 = 32 ∨ (Rect.block (s := S32x256x768) S2x256x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16x768.size a ≤ S32x16x768.size a
  hwx0_1 : ∀ i : grid0.Coords, EltTy.bits .f32 = 32 ∨ (Rect.block (s := S32x16x768) S2x16x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x256x16.size a ≤ S32x256x16.size a
  hwx0_2 : ∀ i : grid0.Coords, EltTy.bits .f32 = 32 ∨ (Rect.block (s := S32x256x16) S2x256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x2048.size a ≤ S768x2048.size a
  hwx0_3 : ∀ i : grid0.Coords, EltTy.bits .f32 = 32 ∨ (Rect.block (s := S768x2048) S768x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048.size a ≤ S2048.size a
  hwx0_5 : ∀ i : grid0.Coords, EltTy.bits .f32 = 32 ∨ (Rect.block (s := S2048) S2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048x2048.size a ≤ S2048x2048.size a
  hwx0_7 : ∀ i : grid0.Coords, EltTy.bits .f32 = 32 ∨ (Rect.block (s := S2048x2048) S2048x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S2048.size a
  hwx0_8 : ∀ i : grid0.Coords, EltTy.bits .f32 = 32 ∨ (Rect.block (s := S2048) S2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S2048.size a
  hwx0_9 : ∀ i : grid0.Coords, EltTy.bits .f32 = 32 ∨ (Rect.block (s := S2048) S2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S2048.size a ≤ S2048.size a
  hwx0_10 : ∀ i : grid0.Coords, EltTy.bits .f32 = 32 ∨ (Rect.block (s := S2048) S2048.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S2048x2048.size a ≤ S2048x2048.size a
  hwx0_11 : ∀ i : grid0.Coords, EltTy.bits .f32 = 32 ∨ (Rect.block (s := S2048x2048) S2048x2048.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2048.size a ≤ S2048.size a
  hwx0_12 : ∀ i : grid0.Coords, EltTy.bits .f32 = 32 ∨ (Rect.block (s := S2048) S2048.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x2x3.size a ≤ S16x2x3.size a
  hwx0_13 : ∀ i : grid0.Coords, EltTy.bits .f32 = 32 ∨ (Rect.block (s := S16x2x3) S1x2x3.size (cc0_transform_13 i) (hinb0_13 i)).WholeWords (EltTy.packing .f32)

variable [Facts₀]

def dot_S544x768_S768x2048_S544x2048_1_0_0_1_n_n : DotDims S544x768 S768x2048 S544x2048 where
  lhsContracting := [1]
  rhsContracting := [0]
  lhsNonContracting := [0]
  rhsNonContracting := [1]
  lhsBatch := []
  rhsBatch := []
  wf := dot_S544x768_S768x2048_S544x2048_1_0_0_1_n_n_wf
def dot_S544x2048_S2048x2048_S544x2048_1_0_0_1_n_n : DotDims S544x2048 S2048x2048 S544x2048 where
  lhsContracting := [1]
  rhsContracting := [0]
  lhsNonContracting := [0]
  rhsNonContracting := [1]
  lhsBatch := []
  rhsBatch := []
  wf := dot_S544x2048_S2048x2048_S544x2048_1_0_0_1_n_n_wf
def dot_S2x256x2048_S2x16x2048_S2x256x16_2_2_1_1_0_0 : DotDims S2x256x2048 S2x16x2048 S2x256x16 where
  lhsContracting := [2]
  rhsContracting := [2]
  lhsNonContracting := [1]
  rhsNonContracting := [1]
  lhsBatch := [0]
  rhsBatch := [0]
  wf := dot_S2x256x2048_S2x16x2048_S2x256x16_2_2_1_1_0_0_wf
def dot_S2x16x2048_S2x16x2048_S2x16x16_2_2_1_1_0_0 : DotDims S2x16x2048 S2x16x2048 S2x16x16 where
  lhsContracting := [2]
  rhsContracting := [2]
  lhsNonContracting := [1]
  rhsNonContracting := [1]
  lhsBatch := [0]
  rhsBatch := [0]
  wf := dot_S2x16x2048_S2x16x2048_S2x16x16_2_2_1_1_0_0_wf

abbrev win0_0 : Pipeline.Window sig grid0 :=
  Pipeline.Window.ofSpec (Memref.whole main_v0) S2x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x16x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2048x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S2048x2048.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S2048.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v2) S1x2x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x768 : Shape := ⟨2, ![8192, 768]⟩
abbrev S512x768 : Shape := ⟨2, ![512, 768]⟩
abbrev S32x256x16 : Shape := ⟨3, ![32, 256, 16]⟩
abbrev S768x2048 : Shape := ⟨2, ![768, 2048]⟩
abbrev S2048 : Shape := ⟨1, ![2048]⟩
abbrev S2048x2048 : Shape := ⟨2, ![2048, 2048]⟩
abbrev S32x256x768 : Shape := ⟨3, ![32, 256, 768]⟩
abbrev S32x16x768 : Shape := ⟨3, ![32, 16, 768]⟩
abbrev S32x272x768 : Shape := ⟨3, ![32, 272, 768]⟩
abbrev S32x272x2048 : Shape := ⟨3, ![32, 272, 2048]⟩
abbrev S1x1x2048 : Shape := ⟨3, ![1, 1, 2048]⟩
abbrev S_ : Shape := ⟨0, ![]⟩
abbrev S32x2048 : Shape := ⟨2, ![32, 2048]⟩
abbrev S32x1x2048 : Shape := ⟨3, ![32, 1, 2048]⟩
abbrev S32x256x2048 : Shape := ⟨3, ![32, 256, 2048]⟩
abbrev S32x16x2048 : Shape := ⟨3, ![32, 16, 2048]⟩
abbrev S32x256 : Shape := ⟨2, ![32, 256]⟩
abbrev S32x256x1 : Shape := ⟨3, ![32, 256, 1]⟩
abbrev S32x16 : Shape := ⟨2, ![32, 16]⟩
abbrev S32x16x1 : Shape := ⟨3, ![32, 16, 1]⟩
abbrev S32 : Shape := ⟨1, ![32]⟩
abbrev S32x16x16 : Shape := ⟨3, ![32, 16, 16]⟩
abbrev S16x16 : Shape := ⟨2, ![16, 16]⟩
abbrev S1x16x16 : Shape := ⟨3, ![1, 16, 16]⟩

abbrev nBuf : Space → Nat
  | .hbm => 221
  | .vmem => 0
  | .smem => 0
  | _ => 0

abbrev hbmTy0_0 (i : Nat) : BufTy := match i % 128 with
  | 0 => ⟨S8192x768, .f32⟩
  | 1 => ⟨S512x768, .f32⟩
  | 2 => ⟨S32x256x16, .f32⟩
  | 3 => ⟨S768x2048, .f32⟩
  | 4 => ⟨S2048, .f32⟩
  | 5 => ⟨S2048, .f32⟩
  | 6 => ⟨S2048, .f32⟩
  | 7 => ⟨S2048x2048, .f32⟩
  | 8 => ⟨S2048, .f32⟩
  | 9 => ⟨S2048, .f32⟩
  | 10 => ⟨S2048, .f32⟩
  | 11 => ⟨S2048x2048, .f32⟩
  | 12 => ⟨S2048, .f32⟩
  | 13 => ⟨S32x256x768, .f32⟩
  | 14 => ⟨S32x16x768, .f32⟩
  | 15 => ⟨S32x272x768, .f32⟩
  | 16 => ⟨S32x272x2048, .f32⟩
  | 17 => ⟨S1x1x2048, .f32⟩
  | 18 => ⟨S32x272x2048, .f32⟩
  | 19 => ⟨S32x272x2048, .f32⟩
  | 20 => ⟨S_, .f32⟩
  | 21 => ⟨S32x2048, .f32⟩
  | 22 => ⟨S32x1x2048, .f32⟩
  | 23 => ⟨S_, .f32⟩
  | 24 => ⟨S32x1x2048, .f32⟩
  | 25 => ⟨S32x1x2048, .f32⟩
  | 26 => ⟨S_, .i32⟩
  | 27 => ⟨S_, .f32⟩
  | 28 => ⟨S32x2048, .f32⟩
  | 29 => ⟨S32x1x2048, .f32⟩
  | 30 => ⟨S_, .f32⟩
  | 31 => ⟨S32x1x2048, .f32⟩
  | 32 => ⟨S32x1x2048, .f32⟩
  | 33 => ⟨S32x272x2048, .f32⟩
  | 34 => ⟨S32x272x2048, .f32⟩
  | 35 => ⟨S32x272x2048, .f32⟩
  | 36 => ⟨S_, .f32⟩
  | 37 => ⟨S_, .f32⟩
  | 38 => ⟨S_, .f32⟩
  | 39 => ⟨S_, .f32⟩
  | 40 => ⟨S32x2048, .f32⟩
  | 41 => ⟨S32x1x2048, .f32⟩
  | 42 => ⟨S32x1x2048, .f32⟩
  | 43 => ⟨S32x1x2048, .f32⟩
  | 44 => ⟨S_, .f32⟩
  | 45 => ⟨S_, .i1⟩
  | 46 => ⟨S_, .f32⟩
  | 47 => ⟨S_, .f32⟩
  | 48 => ⟨S32x1x2048, .f32⟩
  | 49 => ⟨S32x1x2048, .f32⟩
  | 50 => ⟨S32x272x2048, .f32⟩
  | 51 => ⟨S32x272x2048, .f32⟩
  | 52 => ⟨S_, .f32⟩
  | 53 => ⟨S32x1x2048, .f32⟩
  | 54 => ⟨S32x1x2048, .f32⟩
  | 55 => ⟨S32x1x2048, .f32⟩
  | 56 => ⟨S32x272x2048, .f32⟩
  | 57 => ⟨S32x272x2048, .f32⟩
  | 58 => ⟨S1x1x2048, .f32⟩
  | 59 => ⟨S32x272x2048, .f32⟩
  | 60 => ⟨S32x272x2048, .f32⟩
  | 61 => ⟨S1x1x2048, .f32⟩
  | 62 => ⟨S32x272x2048, .f32⟩
  | 63 => ⟨S32x272x2048, .f32⟩
  | 64 => ⟨S_, .f32⟩
  | 65 => ⟨S32x272x2048, .f32⟩
  | 66 => ⟨S32x272x2048, .f32⟩
  | 67 => ⟨S32x272x2048, .f32⟩
  | 68 => ⟨S1x1x2048, .f32⟩
  | 69 => ⟨S32x272x2048, .f32⟩
  | 70 => ⟨S32x272x2048, .f32⟩
  | 71 => ⟨S_, .f32⟩
  | 72 => ⟨S32x2048, .f32⟩
  | 73 => ⟨S32x1x2048, .f32⟩
  | 74 => ⟨S_, .f32⟩
  | 75 => ⟨S32x1x2048, .f32⟩
  | 76 => ⟨S32x1x2048, .f32⟩
  | 77 => ⟨S_, .i32⟩
  | 78 => ⟨S_, .f32⟩
  | 79 => ⟨S32x2048, .f32⟩
  | 80 => ⟨S32x1x2048, .f32⟩
  | 81 => ⟨S_, .f32⟩
  | 82 => ⟨S32x1x2048, .f32⟩
  | 83 => ⟨S32x1x2048, .f32⟩
  | 84 => ⟨S32x272x2048, .f32⟩
  | 85 => ⟨S32x272x2048, .f32⟩
  | 86 => ⟨S32x272x2048, .f32⟩
  | 87 => ⟨S_, .f32⟩
  | 88 => ⟨S_, .f32⟩
  | 89 => ⟨S_, .f32⟩
  | 90 => ⟨S_, .f32⟩
  | 91 => ⟨S32x2048, .f32⟩
  | 92 => ⟨S32x1x2048, .f32⟩
  | 93 => ⟨S32x1x2048, .f32⟩
  | 94 => ⟨S32x1x2048, .f32⟩
  | 95 => ⟨S_, .f32⟩
  | 96 => ⟨S_, .i1⟩
  | 97 => ⟨S_, .f32⟩
  | 98 => ⟨S_, .f32⟩
  | 99 => ⟨S32x1x2048, .f32⟩
  | 100 => ⟨S32x1x2048, .f32⟩
  | 101 => ⟨S32x272x2048, .f32⟩
  | 102 => ⟨S32x272x2048, .f32⟩
  | 103 => ⟨S_, .f32⟩
  | 104 => ⟨S32x1x2048, .f32⟩
  | 105 => ⟨S32x1x2048, .f32⟩
  | 106 => ⟨S32x1x2048, .f32⟩
  | 107 => ⟨S32x272x2048, .f32⟩
  | 108 => ⟨S32x272x2048, .f32⟩
  | 109 => ⟨S1x1x2048, .f32⟩
  | 110 => ⟨S32x272x2048, .f32⟩
  | 111 => ⟨S32x272x2048, .f32⟩
  | 112 => ⟨S1x1x2048, .f32⟩
  | 113 => ⟨S32x272x2048, .f32⟩
  | 114 => ⟨S32x272x2048, .f32⟩
  | 115 => ⟨S_, .f32⟩
  | 116 => ⟨S32x272x2048, .f32⟩
  | 117 => ⟨S32x272x2048, .f32⟩
  | 118 => ⟨S32x272x2048, .f32⟩
  | 119 => ⟨S1x1x2048, .f32⟩
  | 120 => ⟨S32x272x2048, .f32⟩
  | 121 => ⟨S32x272x2048, .f32⟩
  | 122 => ⟨S32x256x2048, .f32⟩
  | 123 => ⟨S32x16x2048, .f32⟩
  | 124 => ⟨S32x256x2048, .f32⟩
  | 125 => ⟨S_, .f32⟩
  | 126 => ⟨S32x256, .f32⟩
  | 127 => ⟨S32x256x1, .f32⟩
  | _ => ⟨S8192x768, .f32⟩

abbrev hbmTy0_1 (i : Nat) : BufTy := match i % 128 with
  | 0 => ⟨S32x256x1, .f32⟩
  | 1 => ⟨S_, .f32⟩
  | 2 => ⟨S32x256x1, .f32⟩
  | 3 => ⟨S32x256x1, .f32⟩
  | 4 => ⟨S32x256x2048, .f32⟩
  | 5 => ⟨S32x256x2048, .f32⟩
  | 6 => ⟨S32x16x2048, .f32⟩
  | 7 => ⟨S_, .f32⟩
  | 8 => ⟨S32x16, .f32⟩
  | 9 => ⟨S32x16x1, .f32⟩
  | 10 => ⟨S32x16x1, .f32⟩
  | 11 => ⟨S_, .f32⟩
  | 12 => ⟨S32x16x1, .f32⟩
  | 13 => ⟨S32x16x1, .f32⟩
  | 14 => ⟨S32x16x2048, .f32⟩
  | 15 => ⟨S32x16x2048, .f32⟩
  | 16 => ⟨S32x256x16, .f32⟩
  | 17 => ⟨S_, .f32⟩
  | 18 => ⟨S32x256x16, .f32⟩
  | 19 => ⟨S32x256x16, .f32⟩
  | 20 => ⟨S_, .f32⟩
  | 21 => ⟨S32x256x16, .f32⟩
  | 22 => ⟨S32x256x16, .i1⟩
  | 23 => ⟨S32x256x16, .f32⟩
  | 24 => ⟨S_, .f32⟩
  | 25 => ⟨S32x256x16, .f32⟩
  | 26 => ⟨S32x256x16, .i1⟩
  | 27 => ⟨S32x256x16, .f32⟩
  | 28 => ⟨S32x256x16, .f32⟩
  | 29 => ⟨S32x256x16, .f32⟩
  | 30 => ⟨S_, .f32⟩
  | 31 => ⟨S32x256x16, .f32⟩
  | 32 => ⟨S32x256x16, .f32⟩
  | 33 => ⟨S_, .f32⟩
  | 34 => ⟨S32x256x16, .f32⟩
  | 35 => ⟨S32x256x16, .f32⟩
  | 36 => ⟨S32x256x16, .f32⟩
  | 37 => ⟨S32x256x16, .f32⟩
  | 38 => ⟨S_, .f32⟩
  | 39 => ⟨S32, .f32⟩
  | 40 => ⟨S32, .f32⟩
  | 41 => ⟨S_, .f32⟩
  | 42 => ⟨S32, .f32⟩
  | 43 => ⟨S_, .f32⟩
  | 44 => ⟨S32, .f32⟩
  | 45 => ⟨S32, .f32⟩
  | 46 => ⟨S32, .f32⟩
  | 47 => ⟨S_, .f32⟩
  | 48 => ⟨S_, .f32⟩
  | 49 => ⟨S_, .f32⟩
  | 50 => ⟨S_, .f32⟩
  | 51 => ⟨S32x256x16, .f32⟩
  | 52 => ⟨S32x256x16, .f32⟩
  | 53 => ⟨S_, .f32⟩
  | 54 => ⟨S32, .f32⟩
  | 55 => ⟨S_, .f32⟩
  | 56 => ⟨S32, .f32⟩
  | 57 => ⟨S_, .f32⟩
  | 58 => ⟨S32, .f32⟩
  | 59 => ⟨S32, .f32⟩
  | 60 => ⟨S32, .f32⟩
  | 61 => ⟨S_, .f32⟩
  | 62 => ⟨S_, .f32⟩
  | 63 => ⟨S_, .f32⟩
  | 64 => ⟨S_, .f32⟩
  | 65 => ⟨S32x16x16, .f32⟩
  | 66 => ⟨S_, .f32⟩
  | 67 => ⟨S16x16, .f32⟩
  | 68 => ⟨S16x16, .i32⟩
  | 69 => ⟨S_, .i32⟩
  | 70 => ⟨S16x16, .i32⟩
  | 71 => ⟨S16x16, .i32⟩
  | 72 => ⟨S16x16, .i32⟩
  | 73 => ⟨S16x16, .i1⟩
  | 74 => ⟨S_, .f32⟩
  | 75 => ⟨S16x16, .f32⟩
  | 76 => ⟨S16x16, .f32⟩
  | 77 => ⟨S_, .f32⟩
  | 78 => ⟨S32x16x16, .f32⟩
  | 79 => ⟨S32x16x16, .f32⟩
  | 80 => ⟨S1x16x16, .f32⟩
  | 81 => ⟨S32x16x16, .f32⟩
  | 82 => ⟨S32x16x16, .f32⟩
  | 83 => ⟨S32x16x16, .f32⟩
  | 84 => ⟨S_, .f32⟩
  | 85 => ⟨S32, .f32⟩
  | 86 => ⟨S_, .f32⟩
  | 87 => ⟨S32, .f32⟩
  | 88 => ⟨S32, .f32⟩
  | 89 => ⟨S_, .f32⟩
  | 90 => ⟨S_, .f32⟩
  | 91 => ⟨S_, .f32⟩
  | 92 => ⟨S_, .f32⟩
  | _ => ⟨S8192x768, .f32⟩

abbrev hbmTy (i : Nat) : BufTy := match i / 128 with
  | 0 => hbmTy0_0 i
  | 1 => hbmTy0_1 i
  | _ => ⟨S8192x768, .f32⟩

abbrev bufTy : (tb : Table) → Fin (tcTables nBuf tb) → BufTy
  | .hbm, ⟨i, _⟩ => hbmTy i
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call1_cst : Ref sig .tc := ⟨.hbm, 64, rfl⟩
abbrev main_call1_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_2 : Ref sig .tc := ⟨.hbm, 71, rfl⟩
abbrev main_v30 : Ref sig .tc := ⟨.hbm, 72, rfl⟩
abbrev main_v31 : Ref sig .tc := ⟨.hbm, 73, rfl⟩
abbrev main_cst_3 : Ref sig .tc := ⟨.hbm, 74, rfl⟩
abbrev main_v32 : Ref sig .tc := ⟨.hbm, 75, rfl⟩
abbrev main_v33 : Ref sig .tc := ⟨.hbm, 76, rfl⟩
abbrev main_c_4 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_cst_3 : Ref sig .tc := ⟨.hbm, 95, rfl⟩
abbrev main_call2_v13 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_cst_5 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_call3_cst : Ref sig .tc := ⟨.hbm, 115, rfl⟩
abbrev main_call3_v0 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_6 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_cst_7 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_cst_8 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_cst_9 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_call4_cst : Ref sig .tc := ⟨.hbm, 145, rfl⟩
abbrev main_call4_v0 : Ref sig .tc := ⟨.hbm, 146, rfl⟩
abbrev main_v72 : Ref sig .tc := ⟨.hbm, 147, rfl⟩
abbrev main_cst_10 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_cst_11 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_cst_12 : Ref sig .tc := ⟨.hbm, 158, rfl⟩
abbrev main_v81 : Ref sig .tc := ⟨.hbm, 159, rfl⟩
abbrev main_v82 : Ref sig .tc := ⟨.hbm, 160, rfl⟩
abbrev main_cst_13 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev main_cst_14 : Ref sig .tc := ⟨.hbm, 166, rfl⟩
abbrev main_v87 : Ref sig .tc := ⟨.hbm, 167, rfl⟩
abbrev main_v88 : Ref sig .tc := ⟨.hbm, 168, rfl⟩
abbrev main_cst_15 : Ref sig .tc := ⟨.hbm, 169, rfl⟩
abbrev main_v89 : Ref sig .tc := ⟨.hbm, 170, rfl⟩
abbrev main_cst_16 : Ref sig .tc := ⟨.hbm, 171, rfl⟩
abbrev main_v90 : Ref sig .tc := ⟨.hbm, 172, rfl⟩
abbrev main_v91 : Ref sig .tc := ⟨.hbm, 173, rfl⟩
abbrev main_v92 : Ref sig .tc := ⟨.hbm, 174, rfl⟩
abbrev main_cst_17 : Ref sig .tc := ⟨.hbm, 175, rfl⟩
abbrev main_v93 : Ref sig .tc := ⟨.hbm, 176, rfl⟩
abbrev main_cst_18 : Ref sig .tc := ⟨.hbm, 177, rfl⟩
abbrev main_v94 : Ref sig .tc := ⟨.hbm, 178, rfl⟩
abbrev main_v95 : Ref sig .tc := ⟨.hbm, 179, rfl⟩
abbrev main_v96 : Ref sig .tc := ⟨.hbm, 180, rfl⟩
abbrev main_cst_19 : Ref sig .tc := ⟨.hbm, 181, rfl⟩
abbrev main_v97 : Ref sig .tc := ⟨.hbm, 182, rfl⟩
abbrev main_cst_20 : Ref sig .tc := ⟨.hbm, 183, rfl⟩
abbrev main_v98 : Ref sig .tc := ⟨.hbm, 184, rfl⟩
abbrev main_cst_21 : Ref sig .tc := ⟨.hbm, 185, rfl⟩
abbrev main_v99 : Ref sig .tc := ⟨.hbm, 186, rfl⟩
abbrev main_v100 : Ref sig .tc := ⟨.hbm, 187, rfl⟩
abbrev main_v101 : Ref sig .tc := ⟨.hbm, 188, rfl⟩
abbrev main_cst_22 : Ref sig .tc := ⟨.hbm, 189, rfl⟩
abbrev main_v102 : Ref sig .tc := ⟨.hbm, 190, rfl⟩
abbrev main_cst_23 : Ref sig .tc := ⟨.hbm, 191, rfl⟩
abbrev main_v103 : Ref sig .tc := ⟨.hbm, 192, rfl⟩
abbrev main_v104 : Ref sig .tc := ⟨.hbm, 193, rfl⟩
abbrev main_cst_24 : Ref sig .tc := ⟨.hbm, 194, rfl⟩
abbrev main_v105 : Ref sig .tc := ⟨.hbm, 195, rfl⟩
abbrev main_call5_v0 : Ref sig .tc := ⟨.hbm, 196, rfl⟩
abbrev main_call5_c : Ref sig .tc := ⟨.hbm, 197, rfl⟩
abbrev main_call5_v1 : Ref sig .tc := ⟨.hbm, 198, rfl⟩
abbrev main_call5_v2 : Ref sig .tc := ⟨.hbm, 199, rfl⟩
abbrev main_call5_v3 : Ref sig .tc := ⟨.hbm, 200, rfl⟩
abbrev main_call5_v4 : Ref sig .tc := ⟨.hbm, 201, rfl⟩
abbrev main_call5_cst : Ref sig .tc := ⟨.hbm, 202, rfl⟩
abbrev main_call5_v5 : Ref sig .tc := ⟨.hbm, 203, rfl⟩
abbrev main_v106 : Ref sig .tc := ⟨.hbm, 204, rfl⟩
abbrev main_call6_cst : Ref sig .tc := ⟨.hbm, 205, rfl⟩
abbrev main_call6_v0 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_cst_25 : Ref sig .tc := ⟨.hbm, 212, rfl⟩
abbrev main_v112 : Ref sig .tc := ⟨.hbm, 213, rfl⟩
abbrev main_cst_26 : Ref sig .tc := ⟨.hbm, 214, rfl⟩
abbrev main_v113 : Ref sig .tc := ⟨.hbm, 215, rfl⟩
abbrev main_v114 : Ref sig .tc := ⟨.hbm, 216, rfl⟩
abbrev main_cst_27 : Ref sig .tc := ⟨.hbm, 217, rfl⟩
abbrev main_v115 : Ref sig .tc := ⟨.hbm, 218, rfl⟩
abbrev main_cst_28 : Ref sig .tc := ⟨.hbm, 219, rfl⟩
abbrev main_v116 : Ref sig .tc := ⟨.hbm, 220, rfl⟩

abbrev nD : Nat := 1
abbrev τ : Topo := Topo.v7x

variable {F : FTy → Type} [FloatOps F]

class Facts₀ : Prop where
  shapeCasts_S8192x768_S32x256x768 : S8192x768.ShapeCasts S32x256x768
  shapeCasts_S512x768_S32x16x768 : S512x768.ShapeCasts S32x16x768
  concatenates_S32x256x768_S32x16x768_S32x272x768_d1 : Shape.Concatenates [S32x256x768, S32x16x768] S32x272x768 1
  bcast_S2048_S1x1x2048_2 : S2048.BroadcastsInDim S1x1x2048 (![2] : Fin 1 → Fin S1x1x2048.rank)
  bcast_S1x1x2048_S32x272x2048_0_1_2 : S1x1x2048.BroadcastsInDim S32x272x2048 (![0, 1, 2] : Fin 3 → Fin S32x272x2048.rank)
  reducesTo_S32x272x2048_S32x2048_d1 : S32x272x2048.ReducesTo [1] S32x2048
  h_S_ : 0 < S_.numel
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  bcast_S32x1x2048_S32x272x2048_0_1_2 : S32x1x2048.BroadcastsInDim S32x272x2048 (![0, 1, 2] : Fin 3 → Fin S32x272x2048.rank)
  bcast_S_S32x272x2048 : S_.BroadcastsInDim S32x272x2048 (![] : Fin 0 → Fin S32x272x2048.rank)
  slices_S32x272x2048_S32x256x2048_0_0_0 : S32x272x2048.Slices ![0, 0, 0] S32x256x2048
  slices_S32x272x2048_S32x16x2048_0_256_0 : S32x272x2048.Slices ![0, 256, 0] S32x16x2048
  reducesTo_S32x256x2048_S32x256_d2 : S32x256x2048.ReducesTo [2] S32x256
  bcast_S32x256_S32x256x1_0_1 : S32x256.BroadcastsInDim S32x256x1 (![0, 1] : Fin 2 → Fin S32x256x1.rank)
  bcast_S_S32x256x1 : S_.BroadcastsInDim S32x256x1 (![] : Fin 0 → Fin S32x256x1.rank)
  bcast_S32x256x1_S32x256x2048_0_1_2 : S32x256x1.BroadcastsInDim S32x256x2048 (![0, 1, 2] : Fin 3 → Fin S32x256x2048.rank)
  reducesTo_S32x16x2048_S32x16_d2 : S32x16x2048.ReducesTo [2] S32x16
  bcast_S32x16_S32x16x1_0_1 : S32x16.BroadcastsInDim S32x16x1 (![0, 1] : Fin 2 → Fin S32x16x1.rank)
  bcast_S_S32x16x1 : S_.BroadcastsInDim S32x16x1 (![] : Fin 0 → Fin S32x16x1.rank)
  bcast_S32x16x1_S32x16x2048_0_1_2 : S32x16x1.BroadcastsInDim S32x16x2048 (![0, 1, 2] : Fin 3 → Fin S32x16x2048.rank)
  bcast_S_S32x256x16 : S_.BroadcastsInDim S32x256x16 (![] : Fin 0 → Fin S32x256x16.rank)
  reducesTo_S32x256x16_S32_d1_2 : S32x256x16.ReducesTo [1, 2] S32
  bcast_S_S32 : S_.BroadcastsInDim S32 (![] : Fin 0 → Fin S32.rank)
  reducesTo_S32_S_d0 : S32.ReducesTo [0] S_
  bcast_S_S16x16 : S_.BroadcastsInDim S16x16 (![] : Fin 0 → Fin S16x16.rank)
  bcast_S_S32x16x16 : S_.BroadcastsInDim S32x16x16 (![] : Fin 0 → Fin S32x16x16.rank)
  bcast_S16x16_S1x16x16_1_2 : S16x16.BroadcastsInDim S1x16x16 (![1, 2] : Fin 2 → Fin S1x16x16.rank)
  bcast_S1x16x16_S32x16x16_0_1_2 : S1x16x16.BroadcastsInDim S32x16x16 (![0, 1, 2] : Fin 3 → Fin S32x16x16.rank)
  reducesTo_S32x16x16_S32_d1_2 : S32x16x16.ReducesTo [1, 2] S32
  dot_S32x272x768_S768x2048_S32x272x2048_2_0_01_1_n_n_wf : DotDims.WF S32x272x768 S768x2048 S32x272x2048 [2] [0] [0, 1] [1] [] []
  dot_S32x272x2048_S2048x2048_S32x272x2048_2_0_01_1_n_n_wf : DotDims.WF S32x272x2048 S2048x2048 S32x272x2048 [2] [0] [0, 1] [1] [] []
  dot_S32x256x2048_S32x16x2048_S32x256x16_2_2_1_1_0_0_wf : DotDims.WF S32x256x2048 S32x16x2048 S32x256x16 [2] [2] [1] [1] [0] [0]
  dot_S32x16x2048_S32x16x2048_S32x16x16_2_2_1_1_0_0_wf : DotDims.WF S32x16x2048 S32x16x2048 S32x16x16 [2] [2] [1] [1] [0] [0]

variable [Facts₀]

def dot_S32x272x768_S768x2048_S32x272x2048_2_0_01_1_n_n : DotDims S32x272x768 S768x2048 S32x272x2048 where
  lhsContracting := [2]
  rhsContracting := [0]
  lhsNonContracting := [0, 1]
  rhsNonContracting := [1]
  lhsBatch := []
  rhsBatch := []
  wf := dot_S32x272x768_S768x2048_S32x272x2048_2_0_01_1_n_n_wf
def dot_S32x272x2048_S2048x2048_S32x272x2048_2_0_01_1_n_n : DotDims S32x272x2048 S2048x2048 S32x272x2048 where
  lhsContracting := [2]
  rhsContracting := [0]
  lhsNonContracting := [0, 1]
  rhsNonContracting := [1]
  lhsBatch := []
  rhsBatch := []
  wf := dot_S32x272x2048_S2048x2048_S32x272x2048_2_0_01_1_n_n_wf
def dot_S32x256x2048_S32x16x2048_S32x256x16_2_2_1_1_0_0 : DotDims S32x256x2048 S32x16x2048 S32x256x16 where
  lhsContracting := [2]
  rhsContracting := [2]
  lhsNonContracting := [1]
  rhsNonContracting := [1]
  lhsBatch := [0]
  rhsBatch := [0]
  wf := dot_S32x256x2048_S32x16x2048_S32x256x16_2_2_1_1_0_0_wf
def dot_S32x16x2048_S32x16x2048_S32x16x16_2_2_1_1_0_0 : DotDims S32x16x2048 S32x16x2048 S32x16x16 where
  lhsContracting := [2]
  rhsContracting := [2]
  lhsNonContracting := [1]
  rhsNonContracting := [1]
  lhsBatch := [0]
  rhsBatch := [0]
  wf := dot_S32x16x2048_S32x16x2048_S32x16x16_2_2_1_1_0_0_wf

class Facts : Prop extends Facts₀ where

variable [Facts]
-- ==== Proof.LossSpec.lean ====
/-
  One sample's three losses as plain formulas over the extended reals.

  A sample is 256 feature rows and 16 basis rows of 768 channels.  The rows are stacked (features first), sent through
  three affine layers of width 2048 — the first two each followed by a normalisation over the 272 rows (mean and
  two-pass biased variance per column, scale and shift) and a clamp at zero —, the resulting rows are split back into
  256 + 16, each row is divided by its Euclidean length (floored at a small constant), and the clamped inner products
  of feature rows with basis rows are compared with the labels:
    pos = -(Σ [l > 0] · log(1 - |l - p| + ε)) / (Σ [l > 0] + ε),
    neg =  (Σ [l = 0] · p²) / (Σ [l = 0] + ε),
    reg =  (Σ_{i<j} max(⟨b_i, b_j⟩, 0)²) / 120.
  Every float literal stays the binary word it is printed as; sums are finite sums in the commutative monoid of the
  extended reals, so their order never matters.
-/
import Idealize.ShloMosaic.PureOps.Ideal
import Idealize.ShloMosaic.Lib.ValueIdx

noncomputable section

namespace Cert.LossSpec

open Idealize.ShloMosaic

/-- The float words the two programs share, read at the extended reals. -/
abbrev z0 : EReal := Ideal.ofBits .f32 0x00000000#32
abbrev w272 : EReal := Ideal.ofBits .f32 0x43880000#32
abbrev eps5 : EReal := Ideal.ofBits .f32 0x3727C5AC#32
abbrev eps8 : EReal := Ideal.ofBits .f32 0x322BCC77#32
abbrev eps6 : EReal := Ideal.ofBits .f32 0x358637BD#32
abbrev one : EReal := Ideal.ofBits .f32 0x3F800000#32
abbrev w120 : EReal := Ideal.ofBits .f32 0x42F00000#32

/-- The 272 rows of a sample: the 256 feature rows, then the 16 basis rows. -/
def rows (x : Fin 256 → Fin 768 → EReal) (bs : Fin 16 → Fin 768 → EReal) (n : Fin 272) (c : Fin 768) : EReal :=
  if h : n.val < 256 then x ⟨n.val, h⟩ c else bs ⟨n.val - 256, by omega⟩ c

/-- An affine layer: row `n` times the weight matrix, plus the bias. -/
def lin {K : ℕ} (a : Fin 272 → Fin K → EReal) (w : Fin K → Fin 2048 → EReal) (b : Fin 2048 → EReal)
    (n : Fin 272) (j : Fin 2048) : EReal :=
  (∑ k : Fin K, a n k * w k j) + b j

/-- Column mean over the 272 rows. -/
def mean (h : Fin 272 → Fin 2048 → EReal) (j : Fin 2048) : EReal :=
  Ideal.div (∑ n : Fin 272, h n j) w272

/-- Column variance over the 272 rows, two-pass and biased. -/
def var (h : Fin 272 → Fin 2048 → EReal) (j : Fin 2048) : EReal :=
  Ideal.div (∑ n : Fin 272, (h n j - mean h j) * (h n j - mean h j)) w272

/-- Normalise each column, scale, shift, clamp at zero. -/
def bnRelu (h : Fin 272 → Fin 2048 → EReal) (g be : Fin 2048 → EReal) (n : Fin 272) (j : Fin 2048) : EReal :=
  max ((h n j - mean h j) * Ideal.rsqrt (var h j + eps5) * g j + be j) z0

/-- The rows after the three layers. -/
def hidden (x : Fin 256 → Fin 768 → EReal) (bs : Fin 16 → Fin 768 → EReal)
    (W1 : Fin 768 → Fin 2048 → EReal) (b1 g1 be1 : Fin 2048 → EReal)
    (W2 : Fin 2048 → Fin 2048 → EReal) (b2 g2 be2 : Fin 2048 → EReal)
    (W3 : Fin 2048 → Fin 2048 → EReal) (b3 : Fin 2048 → EReal) : Fin 272 → Fin 2048 → EReal :=
  lin (bnRelu (lin (bnRelu (lin (rows x bs) W1 b1) g1 be1) W2 b2) g2 be2) W3 b3

/-- The first 256 rows. -/
def featRows (h : Fin 272 → Fin 2048 → EReal) (s : Fin 256) (j : Fin 2048) : EReal := h ⟨0 + s.val, by omega⟩ j
/-- The last 16 rows. -/
def baseRows (h : Fin 272 → Fin 2048 → EReal) (k : Fin 16) (j : Fin 2048) : EReal := h ⟨256 + k.val, by omega⟩ j

/-- A row divided by its Euclidean length, the length floored at `eps8`. -/
def unit {N : ℕ} (p : Fin N → Fin 2048 → EReal) (s : Fin N) (j : Fin 2048) : EReal :=
  Ideal.div (p s j) (max (Ideal.sqrt (∑ j' : Fin 2048, p s j' * p s j')) eps8)

/-- Inner products of unit rows, clamped at zero. -/
def cosRelu {N M : ℕ} (u : Fin N → Fin 2048 → EReal) (v : Fin M → Fin 2048 → EReal) (s : Fin N) (k : Fin M) : EReal :=
  max (∑ h : Fin 2048, u s h * v k h) z0

/-- The indicator of a float comparison with zero, as a float. -/
def ind (p : CmpFPredicate) (l : EReal) : EReal := (((Ideal.cmp p l z0).toNat : ℝ) : EReal)

/-- The positive-label loss of one sample. -/
def pos (L p : Fin 256 → Fin 16 → EReal) : EReal :=
  Ideal.div (-(∑ s : Fin 256, ∑ k : Fin 16,
      ind .ogt (L s k) * Ideal.log (one - max (L s k - p s k) (-(L s k - p s k)) + eps6)))
    ((∑ s : Fin 256, ∑ k : Fin 16, ind .ogt (L s k)) + eps6)

/-- The zero-label loss of one sample. -/
def neg (L p : Fin 256 → Fin 16 → EReal) : EReal :=
  Ideal.div (∑ s : Fin 256, ∑ k : Fin 16, ind .oeq (L s k) * (p s k * p s k))
    ((∑ s : Fin 256, ∑ k : Fin 16, ind .oeq (L s k)) + eps6)

/-- One above the diagonal, zero on and below it. -/
def upper (i j : Fin 16) : EReal := if i.val < j.val then 1 else 0

/-- The pairwise regulariser of one sample's unit basis rows. -/
def reg (v : Fin 16 → Fin 2048 → EReal) : EReal :=
  Ideal.div (∑ i : Fin 16, ∑ j : Fin 16, (cosRelu v v i j * upper i j) * (cosRelu v v i j * upper i j)) w120

/-- The three losses of one sample from its rows, its labels and the layers' parameters. -/
def losses (x : Fin 256 → Fin 768 → EReal) (bs : Fin 16 → Fin 768 → EReal) (L : Fin 256 → Fin 16 → EReal)
    (W1 : Fin 768 → Fin 2048 → EReal) (b1 g1 be1 : Fin 2048 → EReal)
    (W2 : Fin 2048 → Fin 2048 → EReal) (b2 g2 be2 : Fin 2048 → EReal)
    (W3 : Fin 2048 → Fin 2048 → EReal) (b3 : Fin 2048 → EReal) : Fin 3 → EReal :=
  let h := hidden x bs W1 b1 g1 be1 W2 b2 g2 be2 W3 b3
  let u := unit (featRows h)
  let v := unit (baseRows h)
  let p := cosRelu u v
  ![pos L p, neg L p, reg v]

end Cert.LossSpec

end
-- ==== Proof.KLayout.lean ====
/-
  Layout operations of a [2, 272, ·] block read at an index given by its coordinates: the casts between a stack of
  row blocks and the rows laid end to end, the casts that add unit axes to a vector or a matrix, the broadcasts
  along those unit axes, and two concatenations along the middle (or last) axis.
-/
import Idealize.ShloMosaic.Lib.ValueIdx
import Idealize.ShloMosaic.Lib.ValueLayout
import Idealize.ShloMosaic.Lib.Pipeline.Value

namespace Cert.KernelIdeal.KRead

open Idealize.ShloMosaic Idealize.ShloMosaic.ValueIdx

variable {α : Type}

/-! ## Shape casts -/

/-- An `[a, b, c]` array cast to `[m, c]` reads, at `(r, e)` with `r = g · b + n`, the operand at `(g, n, e)`. -/
theorem shapeCast_abc_mc_apply {a b c m : ℕ} (x : (⟨3, ![a, b, c]⟩ : Shape).Idx → α)
    (h : (⟨3, ![a, b, c]⟩ : Shape).ShapeCasts ⟨2, ![m, c]⟩) (r : Fin m) (e : Fin c) (g : Fin a) (n : Fin b)
    (hr : r.val = g.val * b + n.val) :
    shapeCast ⟨2, ![m, c]⟩ x h (ix2 r e) = x (ix3 g n e) :=
  shapeCast_apply x h _ _ (by
    rw [Shape.rowMajor_val_three, Shape.rowMajor_val_two]
    show (g.val * b + n.val) * c + e.val = r.val * c + e.val
    rw [hr])

/-- An `[m, c]` array cast to `[a, b, c]` reads, at `(g, n, e)`, the operand at `(r, e)` with `r = g · b + n`. -/
theorem shapeCast_mc_abc_apply {a b c m : ℕ} (x : (⟨2, ![m, c]⟩ : Shape).Idx → α)
    (h : (⟨2, ![m, c]⟩ : Shape).ShapeCasts ⟨3, ![a, b, c]⟩) (g : Fin a) (n : Fin b) (e : Fin c) (r : Fin m)
    (hr : r.val = g.val * b + n.val) :
    shapeCast ⟨3, ![a, b, c]⟩ x h (ix3 g n e) = x (ix2 r e) :=
  shapeCast_apply x h _ _ (by
    rw [Shape.rowMajor_val_two, Shape.rowMajor_val_three]
    show r.val * c + e.val = (g.val * b + n.val) * c + e.val
    rw [hr])

/-- An `[a]` array cast to `[1, 1, a]` reads, at `(u, v, i)`, the operand at `i`. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- An `[a, c]` array cast to `[a, 1, c]` reads, at `(g, u, e)`, the operand at `(g, e)`. -/
theorem shapeCast_ac_a1c_apply {a c : ℕ} (x : (⟨2, ![a, c]⟩ : Shape).Idx → α)
    (h : (⟨2, ![a, c]⟩ : Shape).ShapeCasts ⟨3, ![a, 1, c]⟩) (g : Fin a) (u : Fin 1) (e : Fin c) :
    shapeCast ⟨3, ![a, 1, c]⟩ x h (ix3 g u e) = x (ix2 g e) :=
  shapeCast_apply x h _ _ (by
    have hu : u.val = 0 := by omega
    rw [Shape.rowMajor_val_three, Shape.rowMajor_val_two]
    show g.val * c + e.val = (g.val * 1 + u.val) * c + e.val
    rw [hu, Nat.mul_one, Nat.add_zero])

/-- An `[a, b]` array cast to `[a, b, 1]` reads, at `(g, s, u)`, the operand at `(g, s)`. -/
theorem shapeCast_ab_ab1_apply {a b : ℕ} (x : (⟨2, ![a, b]⟩ : Shape).Idx → α)
    (h : (⟨2, ![a, b]⟩ : Shape).ShapeCasts ⟨3, ![a, b, 1]⟩) (g : Fin a) (s : Fin b) (u : Fin 1) :
    shapeCast ⟨3, ![a, b, 1]⟩ x h (ix3 g s u) = x (ix2 g s) :=
  shapeCast_apply x h _ _ (by
    have hu : u.val = 0 := by omega
    rw [Shape.rowMajor_val_three, Shape.rowMajor_val_two]
    show g.val * b + s.val = (g.val * b + s.val) * 1 + u.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Broadcasts along unit axes -/

/-- An `[a, 1, c]` array broadcast to `[a, b, c]` reads, at `(g, n, e)`, the operand at `(g, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (g : Fin a) (n : Fin b) (e : Fin c) :
    broadcastTo ⟨3, ![a, b, c]⟩ v h (ix3 g n e) = v (ix3 g (0 : Fin 1) e) := by
  refine broadcastTo_apply v h (ix3 g n e) (ix3 g (0 : Fin 1) e) fun ax => ?_
  match ax with
  | ⟨0, _⟩ =>
    show g.val = if a = 1 then 0 else g.val
    split
    · have := g.isLt; omega
    · rfl
  | ⟨1, _⟩ => rfl
  | ⟨2, _⟩ =>
    show e.val = if c = 1 then 0 else e.val
    split
    · have := e.isLt; omega
    · rfl

/-- A `[1, 1, c]` array broadcast to `[a, b, c]` reads, at `(g, n, e)`, the operand at `(0, 0, e)`. -/
theorem broadcastTo_11c_abc_apply {a b c : ℕ} (v : (⟨3, ![1, 1, c]⟩ : Shape).Idx → α)
    (h : (⟨3, ![1, 1, c]⟩ : Shape).Broadcasts ⟨3, ![a, b, c]⟩) (g : Fin a) (n : Fin b) (e : Fin c) :
    broadcastTo ⟨3, ![a, b, c]⟩ v h (ix3 g n e) = v (ix3 (0 : Fin 1) (0 : Fin 1) e) := by
  refine broadcastTo_apply v h (ix3 g n e) (ix3 (0 : Fin 1) (0 : Fin 1) e) fun ax => ?_
  match ax with
  | ⟨0, _⟩ => rfl
  | ⟨1, _⟩ => rfl
  | ⟨2, _⟩ =>
    show e.val = if c = 1 then 0 else e.val
    split
    · have := e.isLt; omega
    · rfl

/-- An `[a, b, 1]` array broadcast to `[a, b, c]` reads, at `(g, s, e)`, the operand at `(g, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (g : Fin a) (s : Fin b) (e : Fin c) :
    broadcastTo ⟨3, ![a, b, c]⟩ v h (ix3 g s e) = v (ix3 g s (0 : Fin 1)) := by
  refine broadcastTo_apply v h (ix3 g s e) (ix3 g s (0 : Fin 1)) fun ax => ?_
  match ax with
  | ⟨0, _⟩ =>
    show g.val = if a = 1 then 0 else g.val
    split
    · have := g.isLt; omega
    · rfl
  | ⟨1, _⟩ =>
    show s.val = if b = 1 then 0 else s.val
    split
    · have := s.isLt; omega
    · rfl
  | ⟨2, _⟩ => rfl

/-- A `[1, b, c]` array broadcast to `[a, b, c]` reads, at `(g, i, j)`, the operand at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (g : Fin a) (i : Fin b) (j : Fin c) :
    broadcastTo ⟨3, ![a, b, c]⟩ v h (ix3 g i j) = v (ix3 (0 : Fin 1) i j) := by
  refine broadcastTo_apply v h (ix3 g i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-! ## Concatenations -/

/-- Two blocks `[a, b₁, c]` and `[a, b₂, c]` joined along the middle axis read, at `(g, n, e)`, the first block at
    `(g, n, e)` when `n < b₁` and the second at `(g, n − b₁, e)` otherwise. -/
theorem concatenate_mid_apply {a b₁ b₂ b c : ℕ} (x₁ : (⟨3, ![a, b₁, c]⟩ : Shape).Idx → α)
    (x₂ : (⟨3, ![a, b₂, c]⟩ : Shape).Idx → α)
    (h : Shape.Concatenates [(⟨3, ![a, b₁, c]⟩ : Shape), ⟨3, ![a, b₂, c]⟩] ⟨3, ![a, b, c]⟩ 1) (hb : b = b₁ + b₂)
    (g : Fin a) (n : Fin b) (e : Fin c) :
    concatenate ⟨3, ![a, b, c]⟩ 1 [⟨⟨3, ![a, b₁, c]⟩, x₁⟩, ⟨⟨3, ![a, b₂, c]⟩, x₂⟩] h (ix3 g n e)
      = if hn : n.val < b₁ then x₁ (ix3 g ⟨n.val, hn⟩ e)
        else x₂ (ix3 g ⟨n.val - b₁, by have := n.isLt; omega⟩ e) := by
  by_cases hn : n.val < b₁
  · rw [dif_pos hn]
    refine concatenate_pair_apply_left (1 : Fin 3) x₁ x₂ h (ix3 g n e) rfl (ix3 g ⟨n.val, hn⟩ e) fun ax => ?_
    match ax with
    | ⟨0, _⟩ => rfl
    | ⟨1, _⟩ => rfl
    | ⟨2, _⟩ => rfl
  · rw [dif_neg hn]
    refine concatenate_pair_apply_right (1 : Fin 3) x₁ x₂ h (ix3 g n e) rfl rfl
      (ix3 g ⟨n.val - b₁, by have := n.isLt; omega⟩ e) (fun ax hax => ?_) ?_
    · match ax with
      | ⟨0, _⟩ => rfl
      | ⟨1, _⟩ => exact absurd rfl hax
      | ⟨2, _⟩ => rfl
    · show n.val - b₁ + b₁ = n.val
      omega

/-- Three one-column blocks `[a, 1]` joined along the last axis read, at `(g, q)`, block `q` at `(g, 0)`. -/
theorem concatenate_cols3_apply {a : ℕ} (x₀ x₁ x₂ : (⟨2, ![a, 1]⟩ : Shape).Idx → α)
    (h : Shape.Concatenates [(⟨2, ![a, 1]⟩ : Shape), ⟨2, ![a, 1]⟩, ⟨2, ![a, 1]⟩] ⟨2, ![a, 3]⟩ 1) (g : Fin a) (q : Fin 3) :
    concatenate ⟨2, ![a, 3]⟩ 1 [⟨⟨2, ![a, 1]⟩, x₀⟩, ⟨⟨2, ![a, 1]⟩, x₁⟩, ⟨⟨2, ![a, 1]⟩, x₂⟩] h (ix2 g q)
      = ![x₀ (ix2 g (0 : Fin 1)), x₁ (ix2 g (0 : Fin 1)), x₂ (ix2 g (0 : Fin 1))] q := by
  have hi : ∀ b : Fin 2, b.cast (rfl : (2 : ℕ) = 2) ≠ (1 : Fin 2) →
      ((ix2 g (0 : Fin 1)) b).val = ((ix2 g q) (b.cast rfl)).val := fun b hb => by
    match b with
    | ⟨0, _⟩ => rfl
    | ⟨1, _⟩ => exact absurd rfl hb
  match q with
  | ⟨0, _⟩ =>
    exact concatenate_apply_piece (t := ⟨2, ![a, 3]⟩) 1
      [⟨⟨2, ![a, 1]⟩, x₀⟩, ⟨⟨2, ![a, 1]⟩, x₁⟩, ⟨⟨2, ![a, 1]⟩, x₂⟩] h (ix2 g _) 0 (by simp) ⟨2, ![a, 1]⟩ x₀ rfl rfl 0 rfl
      (ix2 g (0 : Fin 1)) hi rfl
  | ⟨1, _⟩ =>
    exact concatenate_apply_piece (t := ⟨2, ![a, 3]⟩) 1
      [⟨⟨2, ![a, 1]⟩, x₀⟩, ⟨⟨2, ![a, 1]⟩, x₁⟩, ⟨⟨2, ![a, 1]⟩, x₂⟩] h (ix2 g _) 1 (by simp) ⟨2, ![a, 1]⟩ x₁ rfl rfl 1 rfl
      (ix2 g (0 : Fin 1)) hi rfl
  | ⟨2, _⟩ =>
    exact concatenate_apply_piece (t := ⟨2, ![a, 3]⟩) 1
      [⟨⟨2, ![a, 1]⟩, x₀⟩, ⟨⟨2, ![a, 1]⟩, x₁⟩, ⟨⟨2, ![a, 1]⟩, x₂⟩] h (ix2 g _) 2 (by simp) ⟨2, ![a, 1]⟩ x₂ rfl rfl 2 rfl
      (ix2 g (0 : Fin 1)) hi rfl

end Cert.KernelIdeal.KRead
-- ==== Proof.KSums.lean ====
/-
  Sums of a rank-3 array of extended reals read at an index given by its coordinates: over the middle axis, over the
  last axis, and over the last two axes together; and a rank-3 index set as the product of its three coordinate ranges.
-/
import Idealize.ShloMosaic.Lib.ValueIdx
import Idealize.ShloMosaic.PureOps.Ideal.Laws

noncomputable section

open scoped BigOperators

namespace Cert.KernelIdeal.KRead

open Idealize.ShloMosaic Idealize.ShloMosaic.ValueIdx

/-- A rank-3 index set is the product of its three coordinate ranges … -/
def idxEquiv3 {a b c : Nat} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {a b c : Nat} (f : (⟨3, ![a, b, c]⟩ : Shape).Idx → M) :
    ∑ i, f i = ∑ g : Fin a, ∑ s : Fin b, ∑ k : Fin c, f (ix3 g s k) := by
  rw [← Equiv.sum_comp (idxEquiv3 (a := a) (b := b) (c := c)).symm f, Fintype.sum_prod_type]
  refine Finset.sum_congr rfl fun g _ => ?_
  rw [Fintype.sum_prod_type]
  rfl

/-- The sum over the middle axis of an `[a, b, c]` array, at `(g, e)`, is `Σ n, x (g, n, e)`. -/
theorem reduce_mid_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (g : Fin a) (e : Fin c) :
    multiReduction .add [1] ⟨2, ![a, c]⟩ src 0x00000000#32 h hφ hacc (ix2 g e) = ∑ n : Fin b, src (ix3 g n e) := by
  refine (Ideal.multiReduction_add_single src 0x00000000#32 h hφ hacc (ix2 g e)).trans ?_
  refine Finset.sum_congr rfl fun n _ => congrArg src ?_
  funext d
  apply Fin.ext
  match d with
  | ⟨0, _⟩ => rfl
  | ⟨1, _⟩ => rfl
  | ⟨2, _⟩ => rfl

/-- The sum over the last axis of an `[a, b, c]` array, at `(g, s)`, is `Σ e, x (g, s, e)`. -/
theorem reduce_last_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (g : Fin a) (s : Fin b) :
    multiReduction .add [2] ⟨2, ![a, b]⟩ src 0x00000000#32 h hφ hacc (ix2 g s) = ∑ e : Fin c, src (ix3 g s e) := by
  refine (Ideal.multiReduction_add_single src 0x00000000#32 h hφ hacc (ix2 g s)).trans ?_
  refine Finset.sum_congr rfl fun e _ => congrArg src ?_
  funext d
  apply Fin.ext
  match d with
  | ⟨0, _⟩ => rfl
  | ⟨1, _⟩ => rfl
  | ⟨2, _⟩ => rfl

/-- The sum over the last two axes of an `[a, b, c]` array, at `g`, is `Σ s, Σ k, x (g, s, k)`. -/
theorem reduce_last2_apply {a b c : ℕ} (src : FVec Ideal ⟨3, ![a, b, c]⟩ .f32)
    (h : (⟨3, ![a, b, c]⟩ : Shape).Reduces [1, 2] ⟨1, ![a]⟩) (hφ : FKind.Formats .f32)
    (hacc : (0x00000000#32 : BitVec 32) = 0x00000000#32) (g : Fin a) :
    multiReduction .add [1, 2] ⟨1, ![a]⟩ src 0x00000000#32 h hφ hacc (ix1 g)
      = ∑ s : Fin b, ∑ k : Fin c, src (ix3 g s k) := by
  have e0 : multiReduction .add [1, 2] ⟨1, ![a]⟩ src 0x00000000#32 h hφ hacc (ix1 g)
      = ∑ i ∈ Finset.univ.filter (fun i => h.drop i = ix1 g), src i := rfl
  have hdrop : ∀ (g' : Fin a) (s : Fin b) (k : Fin c), h.drop (ix3 g' s k) = ix1 g ↔ g' = g := by
    intro g' s k
    have e1 : h.drop (ix3 g' s k) = ix1 g' := by
      funext d
      match d with
      | ⟨0, _⟩ => exact Fin.ext rfl
    rw [e1]
    constructor
    · intro e; exact congrFun e (0 : Fin 1)
    · intro e; rw [e]
  rw [e0, Finset.sum_filter, sum_idx3]
  rw [Finset.sum_eq_single g]
  · refine Finset.sum_congr rfl fun s _ => Finset.sum_congr rfl fun k _ => ?_
    rw [if_pos ((hdrop g s k).mpr rfl)]
  · intro g' _ hne
    refine Finset.sum_eq_zero fun s _ => Finset.sum_eq_zero fun k _ => ?_
    rw [if_neg (fun e => hne ((hdrop g' s k).mp e))]
  · intro hg; exact absurd (Finset.mem_univ g) hg

end Cert.KernelIdeal.KRead

end
-- ==== Proof.LibDotSum.lean ====
/-
  A matrix product's contraction as a plain sum over the shared axis, for any record of dimension numbers whose operand
  indices are known coordinate by coordinate (at a printed program's literal records those coordinate facts hold by
  computation). Two forms: rows × columns (rank 2 by rank 2), and the same with one leading batch axis shared by both
  operands and the result (rank 3 by rank 3).
-/
import Idealize.ShloMosaic.Lib.ValueIdx

noncomputable section

open scoped BigOperators

namespace Cert.LibDotSum

open Idealize.ShloMosaic Idealize.ShloMosaic.ValueIdx

/-- `M × K` by `K × N`: the sum over the record's contraction index of a function of the two operand indices is the sum
    over `k : Fin K` of it at `(row, k)` and `(k, column)`. -/
theorem plain {M K N : Nat} (d : DotDims ⟨2, ![M, K]⟩ ⟨2, ![K, N]⟩ ⟨2, ![M, N]⟩)
    (hr : d.contr.rank = 1) (hs : d.contr.size ⟨0, by omega⟩ = K)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    {α : Type} [AddCommMonoid α] (f : (⟨2, ![M, K]⟩ : Shape).Idx → (⟨2, ![K, N]⟩ : Shape).Idx → α)
    (j : (⟨2, ![M, N]⟩ : Shape).Idx) :
    ∑ k : d.contr.Idx, f (d.lhsIdx j k) (d.rhsIdx j k) = ∑ k : Fin K, f (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a; apply Fin.ext
    match a with
    | ⟨0, _⟩ => exact hl0 j _
    | ⟨1, _⟩ => exact (hl1 j _).trans (contrEquiv1_symm_val d K hr hs k)
  have e2 : d.rhsIdx j ((contrEquiv1 d K hr hs).symm k) = ix2 k (j 1) := by
    funext a; apply Fin.ext
    match a with
    | ⟨0, _⟩ => exact (hr0 j _).trans (contrEquiv1_symm_val d K hr hs k)
    | ⟨1, _⟩ => exact hr1 j _
  exact congrArg₂ f e1 e2

/-- `B × M × K` by `B × K × N` with the leading axis a batch axis: at result index `(b, row, column)` the sum over `k : Fin K`
    of the function at `(b, row, k)` and `(b, k, column)`. -/
theorem batched {B M K N : Nat} (d : DotDims ⟨3, ![B, M, K]⟩ ⟨3, ![B, K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (k ⟨0, by omega⟩).val)
    (hr2 : ∀ j k, (d.rhsIdx j k 2).val = (j 2).val)
    {α : Type} [AddCommMonoid α] (f : (⟨3, ![B, M, K]⟩ : Shape).Idx → (⟨3, ![B, K, N]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) k (j 2)) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) k (j 2) := by
    funext a; apply Fin.ext
    match a with
    | ⟨0, _⟩ => exact hr0 j _
    | ⟨1, _⟩ => exact (hr1 j _).trans (contrEquiv1_symm_val d K hr hs k)
    | ⟨2, _⟩ => exact hr2 j _
  exact congrArg₂ f e1 e2

end Cert.LibDotSum

end
-- ==== Proof.KDot.lean ====
/-
  The four matrix products of the block read at an index, each into the zero accumulator: rows by columns for the
  three layers, and, for the two tables of inner products, a leading batch axis with both operands contracted
  along their last axis.
-/
import proofs.«162502_j88974542504179_2_alg».proof.Proof.Gen.KernelIdeal
import proofs.«162502_j88974542504179_2_alg».proof.Proof.LibDotSum
import Idealize.ShloMosaic.PureOps.Ideal.Laws

noncomputable section

open scoped BigOperators

namespace Cert.KernelIdeal.KRead

open Idealize.ShloMosaic Idealize.ShloMosaic.ValueIdx Cert.KernelIdeal Cert.KernelIdeal.Gen

/-- `B × M × K` by `B × N × K`, the leading axis a batch axis and both last axes contracted: at result index
    `(b, row, column)` the sum over `k : Fin K` of the function at `(b, row, k)` and `(b, column, k)`. -/
theorem dotSum_batchedT {B M K N : Nat} (d : DotDims ⟨3, ![B, M, K]⟩ ⟨3, ![B, N, K]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (j 2).val)
    (hr2 : ∀ j k, (d.rhsIdx j k 2).val = (k ⟨0, by omega⟩).val)
    {α : Type} [AddCommMonoid α] (f : (⟨3, ![B, M, K]⟩ : Shape).Idx → (⟨3, ![B, N, K]⟩ : Shape).Idx → α)
    (j : (⟨3, ![B, M, N]⟩ : Shape).Idx) :
    ∑ k : d.contr.Idx, f (d.lhsIdx j k) (d.rhsIdx j k) = ∑ k : Fin K, f (ix3 (j 0) (j 1) k) (ix3 (j 0) (j 2) k) := by
  rw [← Equiv.sum_comp (contrEquiv1 d K hr hs).symm]
  refine Finset.sum_congr rfl fun k _ => ?_
  have e1 : d.lhsIdx j ((contrEquiv1 d K hr hs).symm k) = ix3 (j 0) (j 1) k := by
    funext a; apply Fin.ext
    match a with
    | ⟨0, _⟩ => exact hl0 j _
    | ⟨1, _⟩ => exact hl1 j _
    | ⟨2, _⟩ => exact (hl2 j _).trans (contrEquiv1_symm_val d K hr hs k)
  have e2 : d.rhsIdx j ((contrEquiv1 d K hr hs).symm k) = ix3 (j 0) (j 2) k := by
    funext a; apply Fin.ext
    match a with
    | ⟨0, _⟩ => exact hr0 j _
    | ⟨1, _⟩ => exact hr1 j _
    | ⟨2, _⟩ => exact (hr2 j _).trans (contrEquiv1_symm_val d K hr hs k)
  exact congrArg₂ f e1 e2

/-- The first layer's product: row `r` of the 544 stacked rows against column `j` of the weights. -/
theorem matmul_544x768_apply (lhs : FVec Ideal S544x768 .f32) (rhs : FVec Ideal S768x2048 .f32) (r : Fin 544) (j : Fin 2048) :
    matmul dot_S544x768_S768x2048_S544x2048_1_0_0_1_n_n (some .fp32) lhs rhs (constant S544x2048 .f32 0x00000000#32) (ix2 r j)
      = ∑ k : Fin 768, lhs (ix2 r k) * rhs (ix2 k j) :=
  (Ideal.matmul_constant_zero_apply dot_S544x768_S768x2048_S544x2048_1_0_0_1_n_n (some .fp32) lhs rhs (ix2 r j)).trans
    (Cert.LibDotSum.plain dot_S544x768_S768x2048_S544x2048_1_0_0_1_n_n rfl rfl (fun _ _ => rfl) (fun _ _ => rfl)
      (fun _ _ => rfl) (fun _ _ => rfl) (fun p q => lhs p * rhs q) (ix2 r j))

/-- The second and third layers' product: row `r` against column `j` of a 2048 × 2048 weight matrix. -/
theorem matmul_544x2048_apply (lhs : FVec Ideal S544x2048 .f32) (rhs : FVec Ideal S2048x2048 .f32) (r : Fin 544) (j : Fin 2048) :
    matmul dot_S544x2048_S2048x2048_S544x2048_1_0_0_1_n_n (some .fp32) lhs rhs (constant S544x2048 .f32 0x00000000#32) (ix2 r j)
      = ∑ k : Fin 2048, lhs (ix2 r k) * rhs (ix2 k j) :=
  (Ideal.matmul_constant_zero_apply dot_S544x2048_S2048x2048_S544x2048_1_0_0_1_n_n (some .fp32) lhs rhs (ix2 r j)).trans
    (Cert.LibDotSum.plain dot_S544x2048_S2048x2048_S544x2048_1_0_0_1_n_n rfl rfl (fun _ _ => rfl) (fun _ _ => rfl)
      (fun _ _ => rfl) (fun _ _ => rfl) (fun p q => lhs p * rhs q) (ix2 r j))

/-- The table of inner products of feature rows with basis rows, sample by sample. -/
theorem matmul_2x256x16_apply (lhs : FVec Ideal S2x256x2048 .f32) (rhs : FVec Ideal S2x16x2048 .f32)
    (g : Fin 2) (s : Fin 256) (k : Fin 16) :
    matmul dot_S2x256x2048_S2x16x2048_S2x256x16_2_2_1_1_0_0 (some .fp32) lhs rhs (constant S2x256x16 .f32 0x00000000#32) (ix3 g s k)
      = ∑ h : Fin 2048, lhs (ix3 g s h) * rhs (ix3 g k h) :=
  (Ideal.matmul_constant_zero_apply dot_S2x256x2048_S2x16x2048_S2x256x16_2_2_1_1_0_0 (some .fp32) lhs rhs (ix3 g s k)).trans
    (dotSum_batchedT dot_S2x256x2048_S2x16x2048_S2x256x16_2_2_1_1_0_0 rfl rfl (fun _ _ => rfl) (fun _ _ => rfl)
      (fun _ _ => rfl) (fun _ _ => rfl) (fun _ _ => rfl) (fun _ _ => rfl) (fun p q => lhs p * rhs q) (ix3 g s k))

/-- The table of inner products of basis rows with basis rows, sample by sample. -/
theorem matmul_2x16x16_apply (lhs : FVec Ideal S2x16x2048 .f32) (rhs : FVec Ideal S2x16x2048 .f32)
    (g : Fin 2) (i : Fin 16) (j : Fin 16) :
    matmul dot_S2x16x2048_S2x16x2048_S2x16x16_2_2_1_1_0_0 (some .fp32) lhs rhs (constant S2x16x16 .f32 0x00000000#32) (ix3 g i j)
      = ∑ h : Fin 2048, lhs (ix3 g i h) * rhs (ix3 g j h) :=
  (Ideal.matmul_constant_zero_apply dot_S2x16x2048_S2x16x2048_S2x16x16_2_2_1_1_0_0 (some .fp32) lhs rhs (ix3 g i j)).trans
    (dotSum_batchedT dot_S2x16x2048_S2x16x2048_S2x16x16_2_2_1_1_0_0 rfl rfl (fun _ _ => rfl) (fun _ _ => rfl)
      (fun _ _ => rfl) (fun _ _ => rfl) (fun _ _ => rfl) (fun _ _ => rfl) (fun p q => lhs p * rhs q) (ix3 g i j))

end Cert.KernelIdeal.KRead

end
-- ==== Proof.KBits.lean ====
/-
  One-bit words as floats: a comparison's bit, widened and converted, is its value as a natural number (the label
  indicators), and on a 16 × 16 square the bit of "row index below column index" is one strictly above the diagonal
  and zero elsewhere.
-/
import proofs.«162502_j88974542504179_2_alg».proof.Proof.Gen.KernelIdeal
import proofs.«162502_j88974542504179_2_alg».proof.Proof.LossSpec
import Idealize.ShloMosaic.Lib.ValueIdx
import Idealize.ShloMosaic.Lib.Pipeline.Value

noncomputable section

namespace Cert.KernelIdeal.KRead

open Idealize.ShloMosaic Idealize.ShloMosaic.ValueIdx Cert.KernelIdeal Cert.KernelIdeal.Gen

/-- A one-bit word widened to 32 bits, read as a signed integer and converted, is the bit as a number. -/
theorem sitofp_bit (b : BitVec 1) :
    (FloatOps.sitofp (F := Ideal) .f32 (b.setWidth 32) : EReal) = ((b.toNat : ℝ) : EReal) := by
  have h : (b.setWidth 32).toInt = (b.toNat : Int) := by
    rcases BitVec.eq_zero_or_eq_one b with h | h <;> subst h <;> decide
  show (((b.setWidth 32).toInt : ℝ) : EReal) = _
  rw [h]
  simp

/-- The float indicator of a comparison of a label with zero. -/
theorem ind_apply (p : CmpFPredicate) (l : EReal) :
    (FloatOps.sitofp (F := Ideal) .f32 ((FloatOps.cmpf (F := Ideal) (φ := .f32) p l (Scalar.ofBits (F := Ideal) .f32 0x00000000#32)).setWidth 32) : EReal)
      = Cert.LossSpec.ind p l :=
  sitofp_bit _

/-- Signed "less than" on two 32-bit words holding numbers below 16 is "less than" on the numbers. -/
theorem slt_lt16 : ∀ i j : Fin 16,
    IntOp.cmpi .slt (BitVec.ofNat 32 i.val) (BitVec.ofNat 32 j.val) = BitVec.ofBool (decide (i.val < j.val)) := by
  decide

/-- The mask of the strict upper triangle, read at `(i, j)`. -/
theorem upper_apply (h0 : S16x16.Iotas .tc 32 [0]) (h1 : S16x16.Iotas .tc 32 [1]) (hw : 1 < 32) (i j : Fin 16) :
    (sitofp (F := Ideal) .f32 (extui 32 (cmpi .slt (iota .tc S16x16 32 [0] h0) (iota .tc S16x16 32 [1] h1)) hw) (ix2 i j) : EReal)
      = Cert.LossSpec.upper i j := by
  show (FloatOps.sitofp (F := Ideal) .f32
      ((IntOp.cmpi .slt (iota .tc S16x16 32 [0] h0 (ix2 i j)) (iota .tc S16x16 32 [1] h1 (ix2 i j))).setWidth 32) : EReal) = _
  rw [iota_single_apply, iota_single_apply]
  show (FloatOps.sitofp (F := Ideal) .f32
      ((IntOp.cmpi .slt (BitVec.ofNat 32 i.val) (BitVec.ofNat 32 j.val)).setWidth 32) : EReal) = _
  rw [slt_lt16, sitofp_bit]
  unfold Cert.LossSpec.upper
  by_cases hij : i.val < j.val
  · rw [if_pos hij]; simp [hij]
  · rw [if_neg hij]; simp [hij]

end Cert.KernelIdeal.KRead

end
-- ==== Proof.KPay1.lean ====
/-
  The three quotients of a sample stacked as a [1, 2, 3] block, read at an index: the positive-label sum over the
  count of positive labels, the zero-label sum of squared inner products over the count of zero labels, and the sum
  of squared clamped inner products of distinct unit basis rows (each pair once) over the number of pairs.
-/
import proofs.«162502_j88974542504179_2_alg».proof.Proof.Gen.KernelIdeal.Skeleton
import proofs.«162502_j88974542504179_2_alg».proof.Proof.LossSpec
import proofs.«162502_j88974542504179_2_alg».proof.Proof.KLayout
import proofs.«162502_j88974542504179_2_alg».proof.Proof.KSums
import proofs.«162502_j88974542504179_2_alg».proof.Proof.KDot
import proofs.«162502_j88974542504179_2_alg».proof.Proof.KBits

noncomputable section

open scoped BigOperators

namespace Cert.KernelIdeal.KRead

open Idealize.ShloMosaic Idealize.ShloMosaic.ValueIdx Cert.KernelIdeal Cert.KernelIdeal.Gen

/-- Three-entry vectors with equal entries agree at every position. -/
theorem vec3_congr {a a' b b' c c' : EReal} (ha : a = a') (hb : b = b') (hc : c = c') (q : Fin 3) :
    ![a, b, c] q = ![a', b', c'] q := by
  subst ha hb hc; rfl

theorem mul_self_congr {a b : EReal} (h : a = b) : a * a = b * b := by subst h; rfl

theorem pay1_apply (v106 : FVec Ideal S2x16x2048 .f32) (v109 v114 v118 : FVec Ideal S2x256x16 .f32) (v129 : FVec Ideal S2 .f32)
    (g : Fin 2) (q : Fin 3) :
    Gen.k0_pay1 (F := Ideal) v106 v109 v114 v118 v129 (ix3 (0 : Fin 1) g q)
      = ![Ideal.div (v129 (ix1 g)) ((∑ s : Fin 256, ∑ k : Fin 16, v114 (ix3 g s k)) + Cert.LossSpec.eps6),
          Ideal.div (∑ s : Fin 256, ∑ k : Fin 16, v118 (ix3 g s k) * (v109 (ix3 g s k) * v109 (ix3 g s k)))
            ((∑ s : Fin 256, ∑ k : Fin 16, v118 (ix3 g s k)) + Cert.LossSpec.eps6),
          Ideal.div (∑ i : Fin 16, ∑ j : Fin 16,
              (Cert.LossSpec.cosRelu (fun i h => v106 (ix3 g i h)) (fun i h => v106 (ix3 g i h)) i j * Cert.LossSpec.upper i j)
                * (Cert.LossSpec.cosRelu (fun i h => v106 (ix3 g i h)) (fun i h => v106 (ix3 g i h)) i j * Cert.LossSpec.upper i j))
            Cert.LossSpec.w120] q := by
  unfold Gen.k0_pay1
  refine (shapeCast_ab_1ab_apply _ _ (0 : Fin 1) g q).trans ?_
  refine (concatenate_cols3_apply _ _ _ _ g q).trans ?_
  refine vec3_congr ?_ ?_ ?_ q
  · refine (shapeCast_a_a1_apply _ _ g (0 : Fin 1)).trans ?_
    refine congrArg (fun t : EReal => Ideal.div (v129 (ix1 g)) (t + Cert.LossSpec.eps6)) ?_
    exact reduce_last2_apply _ _ _ _ g
  · refine (shapeCast_a_a1_apply _ _ g (0 : Fin 1)).trans ?_
    refine congrArg₂ (fun a b : EReal => Ideal.div a (b + Cert.LossSpec.eps6)) ?_ ?_
    · exact reduce_last2_apply _ _ _ _ g
    · exact reduce_last2_apply _ _ _ _ g
  · refine (shapeCast_a_a1_apply _ _ g (0 : Fin 1)).trans ?_
    refine congrArg (fun t : EReal => Ideal.div t Cert.LossSpec.w120) ?_
    refine (reduce_last2_apply _ _ _ _ g).trans ?_
    refine Finset.sum_congr rfl fun i _ => Finset.sum_congr rfl fun j _ => ?_
    refine mul_self_congr ?_
    refine congrArg₂ (fun a b : EReal => a * b) ?_ ?_
    · refine congrArg (fun t : EReal => max t Cert.LossSpec.z0) ?_
      exact matmul_2x16x16_apply _ _ g i j
    · refine (broadcastTo_1bc_abc_apply _ _ g i j).trans ?_
      refine (shapeCast_ab_1ab_apply _ _ (0 : Fin 1) i j).trans ?_
      exact upper_apply _ _ _ i j

end Cert.KernelIdeal.KRead

end
-- ==== Proof.KNorm.lean ====
/-
  The normalisation over the 272 rows of a [2, 272, 2048] array, read at an index: the column mean kept as a
  [2, 1, 2048] array, the centred array, and the centred array times the reciprocal root of the (two-pass, biased)
  column variance plus a constant, scaled and shifted by two vectors. One statement serves both normalised layers.
-/
import proofs.«162502_j88974542504179_2_alg».proof.Proof.Gen.KernelIdeal
import proofs.«162502_j88974542504179_2_alg».proof.Proof.LossSpec
import proofs.«162502_j88974542504179_2_alg».proof.Proof.KLayout
import proofs.«162502_j88974542504179_2_alg».proof.Proof.KSums

noncomputable section

open scoped BigOperators

namespace Cert.KernelIdeal.KRead

open Idealize.ShloMosaic Idealize.ShloMosaic.ValueIdx Cert.KernelIdeal Cert.KernelIdeal.Gen

/-- Normalise each column, scale and shift — `Cert.LossSpec.bnRelu` before its clamp. -/
def bnPre (h : Fin 272 → Fin 2048 → EReal) (g be : Fin 2048 → EReal) (n : Fin 272) (j : Fin 2048) : EReal :=
  (h n j - Cert.LossSpec.mean h j) * Ideal.rsqrt (Cert.LossSpec.var h j + Cert.LossSpec.eps5) * g j + be j

theorem bnRelu_eq (h : Fin 272 → Fin 2048 → EReal) (g be : Fin 2048 → EReal) (n : Fin 272) (j : Fin 2048) :
    Cert.LossSpec.bnRelu h g be n j = max (bnPre h g be n j) Cert.LossSpec.z0 := rfl

/-- `bnPre` of pointwise equal arguments. -/
theorem bnPre_congr {h h' : Fin 272 → Fin 2048 → EReal} {g g' be be' : Fin 2048 → EReal}
    (eh : ∀ n j, h n j = h' n j) (eg : ∀ j, g j = g' j) (eb : ∀ j, be j = be' j) (n : Fin 272) (j : Fin 2048) :
    bnPre h g be n j = bnPre h' g' be' n j := by
  obtain rfl : h = h' := funext fun n => funext (eh n)
  obtain rfl : g = g' := funext eg
  obtain rfl : be = be' := funext eb
  rfl

section
variable (hred : S2x272x2048.Reduces [1] S2x2048) (hφ : FKind.Formats .f32)
  (hacc : (0x00000000#32 : BitVec 32) = 0x00000000#32)
  (hcast : S2x2048.ShapeCasts S2x1x2048) (hbc : S2x1x2048.Broadcasts S2x272x2048)
  (hbc1 : S1x1x2048.Broadcasts S2x272x2048)

/-- The column sums over the 272 rows divided by 272, kept with a unit middle axis. -/
def meanK (v : FVec Ideal S2x272x2048 .f32) : FVec Ideal S2x1x2048 .f32 :=
  divf (shapeCast S2x1x2048 (multiReduction .add [1] S2x2048 v 0x00000000#32 hred hφ hacc) hcast)
    (broadcast S2x1x2048 (Scalar.ofBits .f32 0x43880000#32))

/-- The array less its column means. -/
def centK (v : FVec Ideal S2x272x2048 .f32) : FVec Ideal S2x272x2048 .f32 :=
  subf v (broadcastTo S2x272x2048 (meanK hred hφ hacc hcast v) hbc)

/-- The centred array over the root of its mean square plus a constant, scaled and shifted. -/
def normK (v : FVec Ideal S2x272x2048 .f32) (v14 v16 : FVec Ideal S1x1x2048 .f32) : FVec Ideal S2x272x2048 .f32 :=
  addf (mulf (mulf (centK hred hφ hacc hcast hbc v)
      (broadcastTo S2x272x2048 (rsqrt (addf (meanK hred hφ hacc hcast (mulf (centK hred hφ hacc hcast hbc v) (centK hred hφ hacc hcast hbc v)))
        (broadcast S2x1x2048 (Scalar.ofBits .f32 0x3727C5AC#32)))) hbc))
      (broadcastTo S2x272x2048 v14 hbc1)) (broadcastTo S2x272x2048 v16 hbc1)

theorem meanK_apply (v : FVec Ideal S2x272x2048 .f32) (g : Fin 2) (u : Fin 1) (j : Fin 2048) :
    meanK hred hφ hacc hcast v (ix3 g u j) = Ideal.div (∑ n : Fin 272, v (ix3 g n j)) Cert.LossSpec.w272 := by
  unfold meanK
  show Ideal.div (shapeCast S2x1x2048 _ hcast (ix3 g u j)) Cert.LossSpec.w272 = _
  rw [shapeCast_ac_a1c_apply, reduce_mid_apply]

theorem centK_apply (v : FVec Ideal S2x272x2048 .f32) (g : Fin 2) (n : Fin 272) (j : Fin 2048) :
    centK hred hφ hacc hcast hbc v (ix3 g n j)
      = v (ix3 g n j) - Cert.LossSpec.mean (fun n j => v (ix3 g n j)) j := by
  unfold centK
  show v (ix3 g n j) - broadcastTo S2x272x2048 _ hbc (ix3 g n j) = _
  rw [broadcastTo_a1c_abc_apply, meanK_apply]
  rfl

theorem normK_apply (v : FVec Ideal S2x272x2048 .f32) (v14 v16 : FVec Ideal S1x1x2048 .f32) (g : Fin 2) (n : Fin 272)
    (j : Fin 2048) :
    normK hred hφ hacc hcast hbc hbc1 v v14 v16 (ix3 g n j)
      = bnPre (fun n j => v (ix3 g n j)) (fun j => v14 (ix3 (0 : Fin 1) (0 : Fin 1) j))
          (fun j => v16 (ix3 (0 : Fin 1) (0 : Fin 1) j)) n j := by
  unfold normK
  show centK hred hφ hacc hcast hbc v (ix3 g n j) * broadcastTo S2x272x2048 _ hbc (ix3 g n j)
      * broadcastTo S2x272x2048 v14 hbc1 (ix3 g n j) + broadcastTo S2x272x2048 v16 hbc1 (ix3 g n j) = _
  rw [broadcastTo_a1c_abc_apply, broadcastTo_11c_abc_apply, broadcastTo_11c_abc_apply, centK_apply]
  show _ * Ideal.rsqrt (meanK hred hφ hacc hcast _ (ix3 g (0 : Fin 1) j) + Cert.LossSpec.eps5) * _ + _ = _
  rw [meanK_apply]
  have hsq : (∑ m : Fin 272, mulf (centK hred hφ hacc hcast hbc v) (centK hred hφ hacc hcast hbc v) (ix3 g m j))
      = ∑ m : Fin 272, ((fun n j => v (ix3 g n j)) m j - Cert.LossSpec.mean (fun n j => v (ix3 g n j)) j)
          * ((fun n j => v (ix3 g n j)) m j - Cert.LossSpec.mean (fun n j => v (ix3 g n j)) j) :=
    Finset.sum_congr rfl fun m _ => by
      show centK hred hφ hacc hcast hbc v (ix3 g m j) * centK hred hφ hacc hcast hbc v (ix3 g m j) = _
      rw [centK_apply]
  rw [hsq]
  rfl

end

end Cert.KernelIdeal.KRead

end
-- ==== Proof.KPay2.lean ====
/-
  The first layer and its normalisation (before the clamp), read at an index: sample `g`'s 272 rows (its feature
  rows, then its basis rows) times the weights plus the bias, normalised over the rows, scaled and shifted.
-/
import proofs.«162502_j88974542504179_2_alg».proof.Proof.Gen.KernelIdeal.Skeleton
import proofs.«162502_j88974542504179_2_alg».proof.Proof.LossSpec
import proofs.«162502_j88974542504179_2_alg».proof.Proof.KLayout
import proofs.«162502_j88974542504179_2_alg».proof.Proof.KDot
import proofs.«162502_j88974542504179_2_alg».proof.Proof.KNorm

noncomputable section

open scoped BigOperators

namespace Cert.KernelIdeal.KRead

open Idealize.ShloMosaic Idealize.ShloMosaic.ValueIdx Cert.KernelIdeal Cert.KernelIdeal.Gen

theorem pay2_apply (v0 : Vec Ideal S2x256x768 .f32) (v2 : Vec Ideal S2x16x768 .f32) (v6 : Vec Ideal S768x2048 .f32)
    (v8 v13 v15 : Vec Ideal S2048 .f32) (g : Fin 2) (n : Fin 272) (j : Fin 2048) :
    Gen.k0_pay2 (F := Ideal) v0 v2 v6 v8 v13 v15 (ix3 g n j)
      = bnPre (Cert.LossSpec.lin (Cert.LossSpec.rows (fun s c => v0 (ix3 g s c)) (fun k c => v2 (ix3 g k c)))
            (fun k j => v6 (ix2 k j)) (fun j => v8 (ix1 j)))
          (fun j => v13 (ix1 j)) (fun j => v15 (ix1 j)) n j := by
  unfold Gen.k0_pay2
  refine (normK_apply _ _ _ _ _ _ _ _ _ g n j).trans ?_
  refine bnPre_congr (fun n j => ?_) (fun j => ?_) (fun j => ?_) n j
  · have hr : (⟨272 * g.val + n.val, by omega⟩ : Fin 544).val = g.val * 272 + n.val := by
      show 272 * g.val + n.val = g.val * 272 + n.val; omega
    refine (shapeCast_mc_abc_apply _ _ g n j (⟨272 * g.val + n.val, by omega⟩ : Fin 544) hr).trans ?_
    refine congrArg₂ (fun a b : EReal => a + b) ?_ ?_
    · refine (matmul_544x768_apply _ _ _ j).trans ?_
      refine Finset.sum_congr rfl fun k _ => congrArg (fun t : EReal => t * (v6 (ix2 k j) : EReal)) ?_
      refine (shapeCast_abc_mc_apply _ _ _ k g n hr).trans ?_
      refine (concatenate_mid_apply (a := 2) (b₁ := 256) (b₂ := 16) (b := 272) (c := 768) _ _ _ rfl g n k).trans ?_
      rw [shapeCast_self, shapeCast_self]
      rfl
    · exact (broadcastTo_1b_ab_apply _ _ _ j).trans (shapeCast_a_1a_apply _ _ _ j)
  · exact shapeCast_a_11a_apply _ _ _ _ j
  · exact shapeCast_a_11a_apply _ _ _ _ j

end Cert.KernelIdeal.KRead

end
-- ==== Proof.KPay3.lean ====
/-
  The clamp, the second layer with its normalisation and clamp, and the third product (before its bias), read at an
  index of the 544 stacked rows: row `272 · g + n` is row `n` of sample `g`.
-/
import proofs.«162502_j88974542504179_2_alg».proof.Proof.Gen.KernelIdeal.Skeleton
import proofs.«162502_j88974542504179_2_alg».proof.Proof.LossSpec
import proofs.«162502_j88974542504179_2_alg».proof.Proof.KLayout
import proofs.«162502_j88974542504179_2_alg».proof.Proof.KDot
import proofs.«162502_j88974542504179_2_alg».proof.Proof.KNorm

noncomputable section

open scoped BigOperators

namespace Cert.KernelIdeal.KRead

open Idealize.ShloMosaic Idealize.ShloMosaic.ValueIdx Cert.KernelIdeal Cert.KernelIdeal.Gen

theorem pay3_apply (v40 : FVec Ideal S2x272x2048 .f32) (v44 : Vec Ideal S2048x2048 .f32) (v46 v51 v53 : Vec Ideal S2048 .f32)
    (v82 : Vec Ideal S2048x2048 .f32) (g : Fin 2) (n : Fin 272) (j : Fin 2048) :
    Gen.k0_pay3 (F := Ideal) v40 (Scalar.ofBits .f32 0x00000000#32) v44 v46 v51 v53 v82
        (ix2 (⟨272 * g.val + n.val, by omega⟩ : Fin 544) j)
      = ∑ k : Fin 2048,
          Cert.LossSpec.bnRelu
            (Cert.LossSpec.lin (fun n k => max (v40 (ix3 g n k)) Cert.LossSpec.z0) (fun k j => v44 (ix2 k j)) (fun j => v46 (ix1 j)))
            (fun j => v51 (ix1 j)) (fun j => v53 (ix1 j)) n k * (v82 (ix2 k j) : EReal) := by
  have hr : ∀ n : Fin 272, (⟨272 * g.val + n.val, by omega⟩ : Fin 544).val = g.val * 272 + n.val := fun n => by
    show 272 * g.val + n.val = g.val * 272 + n.val; omega
  unfold Gen.k0_pay3
  refine (matmul_544x2048_apply _ _ _ j).trans ?_
  refine Finset.sum_congr rfl fun k _ => congrArg (fun t : EReal => t * (v82 (ix2 k j) : EReal)) ?_
  refine (shapeCast_abc_mc_apply _ _ _ k g n (hr n)).trans ?_
  refine (congrArg (fun t : EReal => max t Cert.LossSpec.z0) ?_).trans (bnRelu_eq _ _ _ n k).symm
  refine (normK_apply _ _ _ _ _ _ _ _ _ g n k).trans ?_
  refine bnPre_congr (fun n k => ?_) (fun j => ?_) (fun j => ?_) n k
  · refine (shapeCast_mc_abc_apply _ _ g n k (⟨272 * g.val + n.val, by omega⟩ : Fin 544) (hr n)).trans ?_
    refine congrArg₂ (fun a b : EReal => a + b) ?_ ?_
    · refine (matmul_544x2048_apply _ _ _ k).trans ?_
      refine Finset.sum_congr rfl fun k' _ => congrArg (fun t : EReal => t * (v44 (ix2 k' k) : EReal)) ?_
      exact shapeCast_abc_mc_apply _ _ _ k' g n (hr n)
    · exact (broadcastTo_1b_ab_apply _ _ _ k).trans (shapeCast_a_1a_apply _ _ _ k)
  · exact shapeCast_a_11a_apply _ _ _ _ j
  · exact shapeCast_a_11a_apply _ _ _ _ j

end Cert.KernelIdeal.KRead

end
-- ==== Proof.KUnit.lean ====
/-
  Rows of a [2, b, 2048] array divided by their Euclidean lengths (floored at a small constant), read at an index.
-/
import proofs.«162502_j88974542504179_2_alg».proof.Proof.Gen.KernelIdeal
import proofs.«162502_j88974542504179_2_alg».proof.Proof.LossSpec
import proofs.«162502_j88974542504179_2_alg».proof.Proof.KLayout
import proofs.«162502_j88974542504179_2_alg».proof.Proof.KSums

noncomputable section

open scoped BigOperators

namespace Cert.KernelIdeal.KRead

open Idealize.ShloMosaic Idealize.ShloMosaic.ValueIdx Cert.KernelIdeal Cert.KernelIdeal.Gen

/-- Each row over the larger of the root of its sum of squares and the floor. -/
theorem unit_rows_apply {b : ℕ} (v : FVec Ideal ⟨3, ![2, b, 2048]⟩ .f32)
    (hred : (⟨3, ![2, b, 2048]⟩ : Shape).Reduces [2] ⟨2, ![2, b]⟩) (hφ : FKind.Formats .f32)
    (hacc : (0x00000000#32 : BitVec 32) = 0x00000000#32)
    (hcast : (⟨2, ![2, b]⟩ : Shape).ShapeCasts ⟨3, ![2, b, 1]⟩)
    (hbc : (⟨3, ![2, b, 1]⟩ : Shape).Broadcasts ⟨3, ![2, b, 2048]⟩) (g : Fin 2) (s : Fin b) (j : Fin 2048) :
    divf v (broadcastTo ⟨3, ![2, b, 2048]⟩
        (maximumf (sqrt (shapeCast ⟨3, ![2, b, 1]⟩ (multiReduction .add [2] ⟨2, ![2, b]⟩ (mulf v v) 0x00000000#32 hred hφ hacc) hcast))
          (broadcast ⟨3, ![2, b, 1]⟩ (Scalar.ofBits .f32 0x322BCC77#32))) hbc) (ix3 g s j)
      = Cert.LossSpec.unit (fun s j => v (ix3 g s j)) s j := by
  show Ideal.div (v (ix3 g s j)) (broadcastTo ⟨3, ![2, b, 2048]⟩ _ hbc (ix3 g s j)) = _
  rw [broadcastTo_ab1_abc_apply]
  show Ideal.div (v (ix3 g s j))
      (max (Ideal.sqrt (shapeCast ⟨3, ![2, b, 1]⟩ _ hcast (ix3 g s (0 : Fin 1)))) Cert.LossSpec.eps8) = _
  rw [shapeCast_ab_ab1_apply, reduce_last_apply]
  rfl

end Cert.KernelIdeal.KRead

end
-- ==== Proof.KPay45.lean ====
/-
  The third layer's bias and the cast back to [2, 272, 2048], and the unit basis rows, read at an index.
-/
import proofs.«162502_j88974542504179_2_alg».proof.Proof.Gen.KernelIdeal.Skeleton
import proofs.«162502_j88974542504179_2_alg».proof.Proof.LossSpec
import proofs.«162502_j88974542504179_2_alg».proof.Proof.KLayout
import proofs.«162502_j88974542504179_2_alg».proof.Proof.KUnit

noncomputable section

open scoped BigOperators

namespace Cert.KernelIdeal.KRead

open Idealize.ShloMosaic Idealize.ShloMosaic.ValueIdx Cert.KernelIdeal Cert.KernelIdeal.Gen

/-- Row `n` of sample `g` is row `272 · g + n` of the stacked rows, plus the bias. -/
theorem pay4_apply (v83 : FVec Ideal S544x2048 .f32) (v84 : Vec Ideal S2048 .f32) (g : Fin 2) (n : Fin 272) (j : Fin 2048) :
    Gen.k0_pay4 (F := Ideal) v83 v84 (ix3 g n j)
      = v83 (ix2 (⟨272 * g.val + n.val, by omega⟩ : Fin 544) j) + (v84 (ix1 j) : EReal) := by
  unfold Gen.k0_pay4
  refine (shapeCast_mc_abc_apply _ _ g n j (⟨272 * g.val + n.val, by omega⟩ : Fin 544)
    (by show 272 * g.val + n.val = g.val * 272 + n.val; omega)).trans ?_
  refine congrArg (fun t : EReal => v83 (ix2 (⟨272 * g.val + n.val, by omega⟩ : Fin 544) j) + t) ?_
  exact (broadcastTo_1b_ab_apply _ _ _ j).trans (shapeCast_a_1a_apply _ _ _ j)

/-- The last 16 rows of a sample, each over its floored length. -/
theorem pay5_apply (v83 : FVec Ideal S544x2048 .f32) (v84 : Vec Ideal S2048 .f32) (g : Fin 2) (k : Fin 16) (j : Fin 2048) :
    Gen.k0_pay5 (F := Ideal) v83 v84 (ix3 g k j)
      = Cert.LossSpec.unit (Cert.LossSpec.baseRows (fun n j => Gen.k0_pay4 (F := Ideal) v83 v84 (ix3 g n j))) k j := by
  unfold Gen.k0_pay5
  refine (unit_rows_apply _ _ _ _ _ _ g k j).trans ?_
  refine congrArg (fun p : Fin 16 → Fin 2048 → EReal => Cert.LossSpec.unit p k j) ?_
  funext s e
  exact slice3_axis1_eq 256 _ _ g s e

end Cert.KernelIdeal.KRead

end
-- ==== Proof.KPay6.lean ====
/-
  The table of clamped inner products of a sample's unit feature rows with its unit basis rows, read at an index.
-/
import proofs.«162502_j88974542504179_2_alg».proof.Proof.Gen.KernelIdeal.Skeleton
import proofs.«162502_j88974542504179_2_alg».proof.Proof.LossSpec
import proofs.«162502_j88974542504179_2_alg».proof.Proof.KLayout
import proofs.«162502_j88974542504179_2_alg».proof.Proof.KDot
import proofs.«162502_j88974542504179_2_alg».proof.Proof.KUnit
import proofs.«162502_j88974542504179_2_alg».proof.Proof.KPay45

noncomputable section

open scoped BigOperators

namespace Cert.KernelIdeal.KRead

open Idealize.ShloMosaic Idealize.ShloMosaic.ValueIdx Cert.KernelIdeal Cert.KernelIdeal.Gen

theorem pay6_apply (v83 : FVec Ideal S544x2048 .f32) (v84 : Vec Ideal S2048 .f32) (g : Fin 2) (s : Fin 256) (k : Fin 16) :
    Gen.k0_pay6 (F := Ideal) v83 v84 (ix3 g s k)
      = Cert.LossSpec.cosRelu
          (Cert.LossSpec.unit (Cert.LossSpec.featRows (fun n j => Gen.k0_pay4 (F := Ideal) v83 v84 (ix3 g n j))))
          (Cert.LossSpec.unit (Cert.LossSpec.baseRows (fun n j => Gen.k0_pay4 (F := Ideal) v83 v84 (ix3 g n j)))) s k := by
  unfold Gen.k0_pay6
  refine congrArg (fun t : EReal => max t Cert.LossSpec.z0) ?_
  refine (matmul_2x256x16_apply _ _ g s k).trans ?_
  refine Finset.sum_congr rfl fun h _ => congrArg₂ (fun a b : EReal => a * b) ?_ (pay5_apply v83 v84 g k h)
  refine (unit_rows_apply _ _ _ _ _ _ g s h).trans ?_
  refine congrArg (fun p : Fin 256 → Fin 2048 → EReal => Cert.LossSpec.unit p s h) ?_
  funext s' e
  exact slice3_axis1_eq 0 _ _ g s' e

end Cert.KernelIdeal.KRead

end
-- ==== Proof.KPay79.lean ====
/-
  The label indicators, and minus the sum over a sample's label table of the positive-label indicator times the
  logarithm of one less the distance between label and clamped inner product (plus a constant), read at an index.
-/
import proofs.«162502_j88974542504179_2_alg».proof.Proof.Gen.KernelIdeal.Skeleton
import proofs.«162502_j88974542504179_2_alg».proof.Proof.LossSpec
import proofs.«162502_j88974542504179_2_alg».proof.Proof.KSums
import proofs.«162502_j88974542504179_2_alg».proof.Proof.KBits

noncomputable section

open scoped BigOperators

namespace Cert.KernelIdeal.KRead

open Idealize.ShloMosaic Idealize.ShloMosaic.ValueIdx Cert.KernelIdeal Cert.KernelIdeal.Gen

theorem pay7_apply (v110 : Vec Ideal S2x256x16 .f32) (g : Fin 2) (s : Fin 256) (k : Fin 16) :
    Gen.k0_pay7 (F := Ideal) v110 (ix3 g s k) = Cert.LossSpec.ind .ogt (v110 (ix3 g s k)) := by
  unfold Gen.k0_pay7
  exact ind_apply .ogt _

theorem pay8_apply (v110 : Vec Ideal S2x256x16 .f32) (g : Fin 2) (s : Fin 256) (k : Fin 16) :
    Gen.k0_pay8 (F := Ideal) v110 (ix3 g s k) = Cert.LossSpec.ind .oeq (v110 (ix3 g s k)) := by
  unfold Gen.k0_pay8
  exact ind_apply .oeq _

theorem pay9_apply (v83 : FVec Ideal S544x2048 .f32) (v84 : Vec Ideal S2048 .f32) (v110 : Vec Ideal S2x256x16 .f32) (g : Fin 2) :
    Gen.k0_pay9 (F := Ideal) v83 v84 v110 (ix1 g)
      = -(∑ s : Fin 256, ∑ k : Fin 16,
          Cert.LossSpec.ind .ogt (v110 (ix3 g s k))
            * Ideal.log (Cert.LossSpec.one
                - max ((v110 (ix3 g s k) : EReal) - Gen.k0_pay6 (F := Ideal) v83 v84 (ix3 g s k))
                    (-((v110 (ix3 g s k) : EReal) - Gen.k0_pay6 (F := Ideal) v83 v84 (ix3 g s k)))
                + Cert.LossSpec.eps6)) := by
  unfold Gen.k0_pay9
  show Ideal.ofBits .f32 0x00000000#32 - multiReduction .add [1, 2] S2 _ 0x00000000#32 _ _ _ (ix1 g) = _
  rw [Ideal.ofBits_zero_f32, zero_sub, reduce_last2_apply]
  refine congrArg Neg.neg (Finset.sum_congr rfl fun s _ => Finset.sum_congr rfl fun k _ => ?_)
  refine congrArg₂ (fun a b : EReal => a * b) (pay7_apply v110 g s k) ?_
  rfl

end Cert.KernelIdeal.KRead

end
-- ==== Proof.KRead.lean ====
/-
  What the kernel's body leaves in its [1, 2, 3] output block, entry by entry: for each of the point's two samples,
  the three losses of the scalar specification, computed from that sample's rows and labels and the parameters.
-/
import proofs.«162502_j88974542504179_2_alg».proof.Proof.Gen.KernelIdeal.Frame
import proofs.«162502_j88974542504179_2_alg».proof.Proof.LossSpec
import proofs.«162502_j88974542504179_2_alg».proof.Proof.KPay1
import proofs.«162502_j88974542504179_2_alg».proof.Proof.KPay2
import proofs.«162502_j88974542504179_2_alg».proof.Proof.KPay3
import proofs.«162502_j88974542504179_2_alg».proof.Proof.KPay45
import proofs.«162502_j88974542504179_2_alg».proof.Proof.KPay6
import proofs.«162502_j88974542504179_2_alg».proof.Proof.KPay79
import Idealize.ShloMosaic.Lib.Pipeline.Value

noncomputable section

open scoped BigOperators

namespace Cert.KernelIdeal.KRead

open Idealize.ShloMosaic Idealize.ShloMosaic.ValueIdx Cert.KernelIdeal Cert.KernelIdeal.Gen

theorem off3_zero : (![0, 0, 0] : Fin 3 → ℕ) = fun _ => 0 := by
  funext a; match a with | ⟨0, _⟩ => rfl | ⟨1, _⟩ => rfl | ⟨2, _⟩ => rfl
theorem off2_zero : (![0, 0] : Fin 2 → ℕ) = fun _ => 0 := by
  funext a; match a with | ⟨0, _⟩ => rfl | ⟨1, _⟩ => rfl
theorem off1_zero : (![0] : Fin 1 → ℕ) = fun _ => 0 := by
  funext a; match a with | ⟨0, _⟩ => rfl

/-- The three layers, read at row `n` of sample `g`: the specification's hidden rows. -/
theorem hidden_eq (x0 : Vec Ideal S2x256x768 .f32) (x1 : Vec Ideal S2x16x768 .f32) (x2 : Vec Ideal S2x256x16 .f32)
    (x3 : Vec Ideal S768x2048 .f32) (x4 x5 x6 : Vec Ideal S2048 .f32) (x7 : Vec Ideal S2048x2048 .f32) (x8 x9 x10 : Vec Ideal S2048 .f32)
    (x11 : Vec Ideal S2048x2048 .f32) (x12 : Vec Ideal S2048 .f32) (g : Fin 2) (n : Fin 272) (j : Fin 2048) :
    Gen.k0_pay4 (F := Ideal) (Gen.k0_pay3 (F := Ideal) (Gen.k0_pay2 (F := Ideal) x0 x1 x3 x4 x5 x6) (Scalar.ofBits .f32 0x00000000#32) x7 x8 x9 x10 x11) x12 (ix3 g n j)
      = (Cert.LossSpec.hidden (fun s c => x0 (ValueIdx.ix3 g s c)) (fun k c => x1 (ValueIdx.ix3 g k c))
          (fun k j => x3 (ValueIdx.ix2 k j)) (fun j => x4 (ValueIdx.ix1 j)) (fun j => x5 (ValueIdx.ix1 j))
          (fun j => x6 (ValueIdx.ix1 j)) (fun k j => x7 (ValueIdx.ix2 k j)) (fun j => x8 (ValueIdx.ix1 j)) (fun j => x9 (ValueIdx.ix1 j))
          (fun j => x10 (ValueIdx.ix1 j)) (fun k j => x11 (ValueIdx.ix2 k j)) (fun j => x12 (ValueIdx.ix1 j))) n j := by
  rw [pay4_apply, pay3_apply]
  have h1 : (fun n k => max (Gen.k0_pay2 (F := Ideal) x0 x1 x3 x4 x5 x6 (ix3 g n k)) Cert.LossSpec.z0)
      = Cert.LossSpec.bnRelu
          (Cert.LossSpec.lin (Cert.LossSpec.rows (fun s c => x0 (ix3 g s c)) (fun k c => x1 (ix3 g k c)))
            (fun k j => x3 (ix2 k j)) (fun j => x4 (ix1 j)))
          (fun j => x5 (ix1 j)) (fun j => x6 (ix1 j)) := by
    funext n k
    rw [pay2_apply]
    rfl
  rw [h1]
  rfl

theorem out_eq (x0 : Vec Ideal S2x256x768 .f32) (x1 : Vec Ideal S2x16x768 .f32) (x2 : Vec Ideal S2x256x16 .f32)
    (x3 : Vec Ideal S768x2048 .f32) (x4 x5 x6 : Vec Ideal S2048 .f32) (x7 : Vec Ideal S2048x2048 .f32) (x8 x9 x10 : Vec Ideal S2048 .f32)
    (x11 : Vec Ideal S2048x2048 .f32) (x12 : Vec Ideal S2048 .f32) (g : Fin 2) (q : Fin 3) :
    Gen.out0_13 (F := Ideal) x0 x1 x2 x3 x4 x5 x6 x7 x8 x9 x10 x11 x12 (ValueIdx.ix3 (0 : Fin 1) g q)
      = Cert.LossSpec.losses (fun s c => x0 (ValueIdx.ix3 g s c)) (fun k c => x1 (ValueIdx.ix3 g k c))
          (fun s k => x2 (ValueIdx.ix3 g s k)) (fun k j => x3 (ValueIdx.ix2 k j)) (fun j => x4 (ValueIdx.ix1 j)) (fun j => x5 (ValueIdx.ix1 j))
          (fun j => x6 (ValueIdx.ix1 j)) (fun k j => x7 (ValueIdx.ix2 k j)) (fun j => x8 (ValueIdx.ix1 j)) (fun j => x9 (ValueIdx.ix1 j))
          (fun j => x10 (ValueIdx.ix1 j)) (fun k j => x11 (ValueIdx.ix2 k j)) (fun j => x12 (ValueIdx.ix1 j)) q := by
  have hH : (fun n j => Gen.k0_pay4 (F := Ideal) (Gen.k0_pay3 (F := Ideal) (Gen.k0_pay2 (F := Ideal) x0 x1 x3 x4 x5 x6) (Scalar.ofBits .f32 0x00000000#32) x7 x8 x9 x10 x11) x12 (ix3 g n j))
      = (Cert.LossSpec.hidden (fun s c => x0 (ValueIdx.ix3 g s c)) (fun k c => x1 (ValueIdx.ix3 g k c))
          (fun k j => x3 (ValueIdx.ix2 k j)) (fun j => x4 (ValueIdx.ix1 j)) (fun j => x5 (ValueIdx.ix1 j))
          (fun j => x6 (ValueIdx.ix1 j)) (fun k j => x7 (ValueIdx.ix2 k j)) (fun j => x8 (ValueIdx.ix1 j)) (fun j => x9 (ValueIdx.ix1 j))
          (fun j => x10 (ValueIdx.ix1 j)) (fun k j => x11 (ValueIdx.ix2 k j)) (fun j => x12 (ValueIdx.ix1 j))) :=
    funext fun n => funext fun j => hidden_eq x0 x1 x2 x3 x4 x5 x6 x7 x8 x9 x10 x11 x12 g n j
  unfold Gen.out0_13
  rw [View.canon_unit_zero off3_zero]
  rw [View.ld_unit_zero (Val := Elt Ideal) (S := S2x256x768) off3_zero _ x0,
    View.ld_unit_zero (Val := Elt Ideal) (S := S2x16x768) off3_zero _ x1,
    View.ld_unit_zero (Val := Elt Ideal) (S := S2x256x16) off3_zero _ x2,
    View.ld_unit_zero (Val := Elt Ideal) (S := S768x2048) off2_zero _ x3,
    View.ld_unit_zero (Val := Elt Ideal) (S := S2048) off1_zero _ x4,
    View.ld_unit_zero (Val := Elt Ideal) (S := S2048) off1_zero _ x5,
    View.ld_unit_zero (Val := Elt Ideal) (S := S2048) off1_zero _ x6,
    View.ld_unit_zero (Val := Elt Ideal) (S := S2048x2048) off2_zero _ x7,
    View.ld_unit_zero (Val := Elt Ideal) (S := S2048) off1_zero _ x8,
    View.ld_unit_zero (Val := Elt Ideal) (S := S2048) off1_zero _ x9,
    View.ld_unit_zero (Val := Elt Ideal) (S := S2048) off1_zero _ x10,
    View.ld_unit_zero (Val := Elt Ideal) (S := S2048x2048) off2_zero _ x11,
    View.ld_unit_zero (Val := Elt Ideal) (S := S2048) off1_zero _ x12]
  generalize (Gen.k0_pay3 (F := Ideal) (Gen.k0_pay2 (F := Ideal) x0 x1 x3 x4 x5 x6) (Scalar.ofBits .f32 0x00000000#32) x7 x8 x9 x10 x11) = V83 at hH ⊢
  have hV : (fun i h => Gen.k0_pay5 (F := Ideal) V83 x12 (ix3 g i h))
      = Cert.LossSpec.unit (Cert.LossSpec.baseRows (Cert.LossSpec.hidden (fun s c => x0 (ValueIdx.ix3 g s c)) (fun k c => x1 (ValueIdx.ix3 g k c))
          (fun k j => x3 (ValueIdx.ix2 k j)) (fun j => x4 (ValueIdx.ix1 j)) (fun j => x5 (ValueIdx.ix1 j))
          (fun j => x6 (ValueIdx.ix1 j)) (fun k j => x7 (ValueIdx.ix2 k j)) (fun j => x8 (ValueIdx.ix1 j)) (fun j => x9 (ValueIdx.ix1 j))
          (fun j => x10 (ValueIdx.ix1 j)) (fun k j => x11 (ValueIdx.ix2 k j)) (fun j => x12 (ValueIdx.ix1 j)))) :=
    funext fun i => funext fun h => by rw [pay5_apply, hH]
  refine (pay1_apply _ _ _ _ _ g q).trans ?_
  unfold Cert.LossSpec.losses
  refine vec3_congr ?_ ?_ ?_ q
  · refine congrArg₂ (fun a b : EReal => Ideal.div a (b + Cert.LossSpec.eps6)) ?_ ?_
    · refine (pay9_apply _ _ _ g).trans ?_
      refine congrArg Neg.neg (Finset.sum_congr rfl fun s _ => Finset.sum_congr rfl fun k _ => ?_)
      rw [pay6_apply, hH]
    · exact Finset.sum_congr rfl fun s _ => Finset.sum_congr rfl fun k _ => pay7_apply x2 g s k
  · refine congrArg₂ (fun a b : EReal => Ideal.div a (b + Cert.LossSpec.eps6)) ?_ ?_
    · refine Finset.sum_congr rfl fun s _ => Finset.sum_congr rfl fun k _ => ?_
      rw [pay8_apply, pay6_apply, hH]
    · exact Finset.sum_congr rfl fun s _ => Finset.sum_congr rfl fun k _ => pay8_apply x2 g s k
  · rw [hV]
    rfl

end Cert.KernelIdeal.KRead

end
-- ==== Proof.LossSamples.lean ====
/-
  One sample cut out of the batched arrays: sample `s` of a [32, a, b] array is its slab at leading coordinate `s`;
  a matrix and a vector are read through their coordinates.  `perSample` is the three losses of sample `s` as a
  function of the whole argument arrays.
-/
import proofs.«162502_j88974542504179_2_alg».proof.Proof.LossSpec

noncomputable section

namespace Cert.LossSpec

open Idealize.ShloMosaic Idealize.ShloMosaic.ValueIdx

/-- Sample `s` of a batched array. -/
def smp {a b : ℕ} (X : (⟨3, ![32, a, b]⟩ : Shape).Idx → EReal) (s : Fin 32) (p : Fin a) (q : Fin b) : EReal := X (ix3 s p q)
/-- A matrix by its coordinates. -/
def mat {a b : ℕ} (W : (⟨2, ![a, b]⟩ : Shape).Idx → EReal) (p : Fin a) (q : Fin b) : EReal := W (ix2 p q)
/-- A vector by its coordinate. -/
def vec {a : ℕ} (v : (⟨1, ![a]⟩ : Shape).Idx → EReal) (p : Fin a) : EReal := v (ix1 p)

/-- The three losses of sample `s`, from the whole arrays. -/
def perSample (X : (⟨3, ![32, 256, 768]⟩ : Shape).Idx → EReal) (B : (⟨3, ![32, 16, 768]⟩ : Shape).Idx → EReal)
    (L : (⟨3, ![32, 256, 16]⟩ : Shape).Idx → EReal)
    (W1 : (⟨2, ![768, 2048]⟩ : Shape).Idx → EReal) (b1 g1 be1 : (⟨1, ![2048]⟩ : Shape).Idx → EReal)
    (W2 : (⟨2, ![2048, 2048]⟩ : Shape).Idx → EReal) (b2 g2 be2 : (⟨1, ![2048]⟩ : Shape).Idx → EReal)
    (W3 : (⟨2, ![2048, 2048]⟩ : Shape).Idx → EReal) (b3 : (⟨1, ![2048]⟩ : Shape).Idx → EReal) (s : Fin 32) : Fin 3 → EReal :=
  losses (smp X s) (smp B s) (smp L s) (mat W1) (vec b1) (vec g1) (vec be1) (mat W2) (vec b2) (vec g2) (vec be2) (mat W3) (vec b3)

end Cert.LossSpec

end
-- ==== Proof.KBlocks.lean ====
/-
  The kernel's program read as values: what each grid point writes back is the three losses of its two samples, so
  the [16, 2, 3] result array holds, at (t, g, q), loss q of sample 2·t + g; the host lines after the region reshape
  it to [32, 3], cut out column q and average it over the 32 samples.
-/
import proofs.«162502_j88974542504179_2_alg».proof.Proof.Gen.KernelIdeal.Frame
import proofs.«162502_j88974542504179_2_alg».proof.Proof.LossSamples
import Idealize.ShloMosaic.Lib.Pipeline.Value
import Idealize.ShloMosaic.Lib.ValueIdx
import Idealize.ShloMosaic.Lib.StableHlo.Run
import Idealize.ShloMosaic.PureOps.Ideal

set_option maxRecDepth 16384

noncomputable section

namespace Cert.KernelIdeal.KFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The output block read at an index: at (0, g, q) it is loss q of the block's sample g (what the body's arithmetic gives, block by block). -/
def OutEq : Prop :=
  ∀ (x0 : Vec Ideal S2x256x768 .f32) (x1 : Vec Ideal S2x16x768 .f32) (x2 : Vec Ideal S2x256x16 .f32) (x3 : Vec Ideal S768x2048 .f32)
    (x4 x5 x6 : Vec Ideal S2048 .f32) (x7 : Vec Ideal S2048x2048 .f32) (x8 x9 x10 : Vec Ideal S2048 .f32) (x11 : Vec Ideal S2048x2048 .f32)
    (x12 : Vec Ideal S2048 .f32) (g : Fin 2) (q : Fin 3),
    Gen.out0_13 (F := Ideal) x0 x1 x2 x3 x4 x5 x6 x7 x8 x9 x10 x11 x12 (ix3 (0 : Fin 1) g q)
      = Cert.LossSpec.losses (fun s c => x0 (ix3 g s c)) (fun k c => x1 (ix3 g k c)) (fun s k => x2 (ix3 g s k)) (fun k j => x3 (ix2 k j))
          (fun j => x4 (ix1 j)) (fun j => x5 (ix1 j)) (fun j => x6 (ix1 j)) (fun k j => x7 (ix2 k j)) (fun j => x8 (ix1 j))
          (fun j => x9 (ix1 j)) (fun j => x10 (ix1 j)) (fun k j => x11 (ix2 k j)) (fun j => x12 (ix1 j)) q

theorem tlt (t : Fin cfg0.N) : t.val < 16 := lt_of_lt_of_eq t.isLt N_0

/-! ## The printed index maps, decided over the grid -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx13 : ∀ t : Fin cfg0.N, win0_13.index t (0 : Fin 3) = t.val ∧ win0_13.index t (1 : Fin 3) = 0 ∧ win0_13.index t (2 : Fin 3) = 0 :=
  (by decide +kernel : ∀ t : Fin grid0.N, _)
theorem idxW : ∀ t : Fin cfg0.N, win0_3.index t (0 : Fin 2) = 0 ∧ win0_3.index t (1 : Fin 2) = 0
    ∧ win0_7.index t (0 : Fin 2) = 0 ∧ win0_7.index t (1 : Fin 2) = 0 ∧ win0_11.index t (0 : Fin 2) = 0 ∧ win0_11.index t (1 : Fin 2) = 0 :=
  (by decide +kernel : ∀ t : Fin grid0.N, _)
theorem idxP : ∀ t : Fin cfg0.N, win0_4.index t (0 : Fin 1) = 0 ∧ win0_5.index t (0 : Fin 1) = 0 ∧ win0_6.index t (0 : Fin 1) = 0
    ∧ win0_8.index t (0 : Fin 1) = 0 ∧ win0_9.index t (0 : Fin 1) = 0 ∧ win0_10.index t (0 : Fin 1) = 0 ∧ win0_12.index t (0 : Fin 1) = 0 :=
  (by decide +kernel : ∀ t : Fin grid0.N, _)

/-! ## The blocks a point reads, by coordinates -/

theorem blk0 (c : Dev nD) (t : Fin cfg0.N) (g : Fin 2) (s : Fin 256) (q : Fin 768) :
    iblk m c 0 t (ix3 g s q) = V m c main_v0 (ix3 (⟨2 * t.val + g.val, by have := tlt t; omega⟩ : Fin 32) s q) := by
  show V m c main_v0 (((cfg0.win 0).blk t).view.emb (ix3 g s q)) = _
  refine congrArg (V m c main_v0) ?_
  obtain ⟨e0, e1, e2⟩ := idx0 t
  funext a; apply Fin.ext
  match a with
  | ⟨0, _⟩ => show win0_0.index t (0 : Fin 3) * 2 + 1 * g.val = 2 * t.val + g.val; omega
  | ⟨1, _⟩ => show win0_0.index t (1 : Fin 3) * 256 + 1 * s.val = s.val; omega
  | ⟨2, _⟩ => show win0_0.index t (2 : Fin 3) * 768 + 1 * q.val = q.val; omega

theorem blk1 (c : Dev nD) (t : Fin cfg0.N) (g : Fin 2) (s : Fin 16) (q : Fin 768) :
    iblk m c 1 t (ix3 g s q) = V m c main_v1 (ix3 (⟨2 * t.val + g.val, by have := tlt t; omega⟩ : Fin 32) s q) := by
  show V m c main_v1 (((cfg0.win 1).blk t).view.emb (ix3 g s q)) = _
  refine congrArg (V m c main_v1) ?_
  obtain ⟨e0, e1, e2⟩ := idx1 t
  funext a; apply Fin.ext
  match a with
  | ⟨0, _⟩ => show win0_1.index t (0 : Fin 3) * 2 + 1 * g.val = 2 * t.val + g.val; omega
  | ⟨1, _⟩ => show win0_1.index t (1 : Fin 3) * 16 + 1 * s.val = s.val; omega
  | ⟨2, _⟩ => show win0_1.index t (2 : Fin 3) * 768 + 1 * q.val = q.val; omega

theorem blk2 (c : Dev nD) (t : Fin cfg0.N) (g : Fin 2) (s : Fin 256) (q : Fin 16) :
    iblk m c 2 t (ix3 g s q) = V m c main_arg2 (ix3 (⟨2 * t.val + g.val, by have := tlt t; omega⟩ : Fin 32) s q) := by
  show V m c main_arg2 (((cfg0.win 2).blk t).view.emb (ix3 g s q)) = _
  refine congrArg (V m c main_arg2) ?_
  obtain ⟨e0, e1, e2⟩ := idx2 t
  funext a; apply Fin.ext
  match a with
  | ⟨0, _⟩ => show win0_2.index t (0 : Fin 3) * 2 + 1 * g.val = 2 * t.val + g.val; omega
  | ⟨1, _⟩ => show win0_2.index t (1 : Fin 3) * 256 + 1 * s.val = s.val; omega
  | ⟨2, _⟩ => show win0_2.index t (2 : Fin 3) * 16 + 1 * q.val = q.val; omega

theorem blk3 (c : Dev nD) (t : Fin cfg0.N) (k : Fin 768) (j : Fin 2048) : iblk m c 3 t (ix2 k j) = V m c main_arg3 (ix2 k j) := by
  show V m c main_arg3 (((cfg0.win 3).blk t).view.emb (ix2 k j)) = _
  refine congrArg (V m c main_arg3) ?_
  obtain ⟨e0, e1, -⟩ := idxW t
  funext a; apply Fin.ext
  match a with
  | ⟨0, _⟩ => show win0_3.index t (0 : Fin 2) * 768 + 1 * k.val = k.val; omega
  | ⟨1, _⟩ => show win0_3.index t (1 : Fin 2) * 2048 + 1 * j.val = j.val; omega

theorem blk7 (c : Dev nD) (t : Fin cfg0.N) (k : Fin 2048) (j : Fin 2048) : iblk m c 7 t (ix2 k j) = V m c main_arg7 (ix2 k j) := by
  show V m c main_arg7 (((cfg0.win 7).blk t).view.emb (ix2 k j)) = _
  refine congrArg (V m c main_arg7) ?_
  obtain ⟨-, -, e0, e1, -⟩ := idxW t
  funext a; apply Fin.ext
  match a with
  | ⟨0, _⟩ => show win0_7.index t (0 : Fin 2) * 2048 + 1 * k.val = k.val; omega
  | ⟨1, _⟩ => show win0_7.index t (1 : Fin 2) * 2048 + 1 * j.val = j.val; omega

theorem blk11 (c : Dev nD) (t : Fin cfg0.N) (k : Fin 2048) (j : Fin 2048) : iblk m c 11 t (ix2 k j) = V m c main_arg11 (ix2 k j) := by
  show V m c main_arg11 (((cfg0.win 11).blk t).view.emb (ix2 k j)) = _
  refine congrArg (V m c main_arg11) ?_
  obtain ⟨-, -, -, -, e0, e1⟩ := idxW t
  funext a; apply Fin.ext
  match a with
  | ⟨0, _⟩ => show win0_11.index t (0 : Fin 2) * 2048 + 1 * k.val = k.val; omega
  | ⟨1, _⟩ => show win0_11.index t (1 : Fin 2) * 2048 + 1 * j.val = j.val; omega

theorem blk4 (c : Dev nD) (t : Fin cfg0.N) (j : Fin 2048) : iblk m c 4 t (ix1 j) = V m c main_arg4 (ix1 j) := by
  show V m c main_arg4 (((cfg0.win 4).blk t).view.emb (ix1 j)) = _
  refine congrArg (V m c main_arg4) ?_
  obtain ⟨e0, -⟩ := idxP t
  funext a; apply Fin.ext
  match a with
  | ⟨0, _⟩ => show win0_4.index t (0 : Fin 1) * 2048 + 1 * j.val = j.val; omega
theorem blk5 (c : Dev nD) (t : Fin cfg0.N) (j : Fin 2048) : iblk m c 5 t (ix1 j) = V m c main_arg5 (ix1 j) := by
  show V m c main_arg5 (((cfg0.win 5).blk t).view.emb (ix1 j)) = _
  refine congrArg (V m c main_arg5) ?_
  obtain ⟨-, e0, -⟩ := idxP t
  funext a; apply Fin.ext
  match a with
  | ⟨0, _⟩ => show win0_5.index t (0 : Fin 1) * 2048 + 1 * j.val = j.val; omega
theorem blk6 (c : Dev nD) (t : Fin cfg0.N) (j : Fin 2048) : iblk m c 6 t (ix1 j) = V m c main_arg6 (ix1 j) := by
  show V m c main_arg6 (((cfg0.win 6).blk t).view.emb (ix1 j)) = _
  refine congrArg (V m c main_arg6) ?_
  obtain ⟨-, -, e0, -⟩ := idxP t
  funext a; apply Fin.ext
  match a with
  | ⟨0, _⟩ => show win0_6.index t (0 : Fin 1) * 2048 + 1 * j.val = j.val; omega
theorem blk8 (c : Dev nD) (t : Fin cfg0.N) (j : Fin 2048) : iblk m c 8 t (ix1 j) = V m c main_arg8 (ix1 j) := by
  show V m c main_arg8 (((cfg0.win 8).blk t).view.emb (ix1 j)) = _
  refine congrArg (V m c main_arg8) ?_
  obtain ⟨-, -, -, e0, -⟩ := idxP t
  funext a; apply Fin.ext
  match a with
  | ⟨0, _⟩ => show win0_8.index t (0 : Fin 1) * 2048 + 1 * j.val = j.val; omega
theorem blk9 (c : Dev nD) (t : Fin cfg0.N) (j : Fin 2048) : iblk m c 9 t (ix1 j) = V m c main_arg9 (ix1 j) := by
  show V m c main_arg9 (((cfg0.win 9).blk t).view.emb (ix1 j)) = _
  refine congrArg (V m c main_arg9) ?_
  obtain ⟨-, -, -, -, e0, -⟩ := idxP t
  funext a; apply Fin.ext
  match a with
  | ⟨0, _⟩ => show win0_9.index t (0 : Fin 1) * 2048 + 1 * j.val = j.val; omega
theorem blk10 (c : Dev nD) (t : Fin cfg0.N) (j : Fin 2048) : iblk m c 10 t (ix1 j) = V m c main_arg10 (ix1 j) := by
  show V m c main_arg10 (((cfg0.win 10).blk t).view.emb (ix1 j)) = _
  refine congrArg (V m c main_arg10) ?_
  obtain ⟨-, -, -, -, -, e0, -⟩ := idxP t
  funext a; apply Fin.ext
  match a with
  | ⟨0, _⟩ => show win0_10.index t (0 : Fin 1) * 2048 + 1 * j.val = j.val; omega
theorem blk12 (c : Dev nD) (t : Fin cfg0.N) (j : Fin 2048) : iblk m c 12 t (ix1 j) = V m c main_arg12 (ix1 j) := by
  show V m c main_arg12 (((cfg0.win 12).blk t).view.emb (ix1 j)) = _
  refine congrArg (V m c main_arg12) ?_
  obtain ⟨-, -, -, -, -, -, e0⟩ := idxP t
  funext a; apply Fin.ext
  match a with
  | ⟨0, _⟩ => show win0_12.index t (0 : Fin 1) * 2048 + 1 * j.val = j.val; omega

end Cert.KernelIdeal.KFinal

end
-- ==== Proof.KArray.lean ====
/-
  The kernel's result array after the run.  Point t writes the block (t, ·, ·) of the [16, 2, 3] array; its entry at
  (g, q) is loss q of the block's sample g, which is sample 2·t + g of the batch; the sixteen blocks tile the array,
  so the array ends holding, at (t, g, q), loss q of sample 2·t + g.
-/
import proofs.«162502_j88974542504179_2_alg».proof.Proof.KBlocks

set_option maxRecDepth 16384

noncomputable section

namespace Cert.KernelIdeal.KFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- Loss `q` of sample `b` of the arrays as the region finds them (zero outside the ranges, never read there). -/
def PS (c : Dev nD) (b q : ℕ) : EReal :=
  if h : b < 32 ∧ q < 3 then
    Cert.LossSpec.perSample (V m c main_v0) (V m c main_v1) (V m c main_arg2) (V m c main_arg3) (V m c main_arg4) (V m c main_arg5)
      (V m c main_arg6) (V m c main_arg7) (V m c main_arg8) (V m c main_arg9) (V m c main_arg10) (V m c main_arg11) (V m c main_arg12)
      ⟨b, h.1⟩ ⟨q, h.2⟩
  else 0

/-- The result array: at (t, g, q), loss q of sample 2·t + g. -/
def G (c : Dev nD) : S16x2x3.Idx → EReal := fun i => PS m c (2 * (i 0).val + (i 1).val) (i 2).val

/-- WHAT POINT `t` WRITES BACK is block `t` of `G`. -/
theorem flushed_eq (hout : OutEq) (c : Dev nD) (t : Fin cfg0.N) :
    (dats m 0 c).flushed 13 t = ((cfg0.win 13).blk t).view.read (Elt Ideal) (G m c) := by
  show (cfg0.win 13).cut (grid0.coords t) ((dats m 0 c).after 13 t) = _
  rw [after0_13]
  funext y
  obtain ⟨a, g, q, rfl⟩ : ∃ (a : Fin 1) (g : Fin 2) (q : Fin 3), y = ix3 a g q := ⟨y 0, y 1, y 2, @eq_ix3 1 2 3 y⟩
  obtain rfl : a = 0 := Subsingleton.elim _ _
  show out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix3 (0 : Fin 1) g q) = G m c (((cfg0.win 13).blk t).view.emb (ix3 (0 : Fin 1) g q))
  refine (hout (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) g q).trans ?_
  obtain ⟨e0, e1, e2⟩ := idx13 t
  have ht := tlt t
  have hb : 2 * ((((cfg0.win 13).blk t).view.emb (ix3 (0 : Fin 1) g q)) 0).val + ((((cfg0.win 13).blk t).view.emb (ix3 (0 : Fin 1) g q)) 1).val = 2 * t.val + g.val := by
    show 2 * (win0_13.index t (0 : Fin 3) * 1 + 1 * 0) + (win0_13.index t (1 : Fin 3) * 2 + 1 * g.val) = _
    omega
  have hq : ((((cfg0.win 13).blk t).view.emb (ix3 (0 : Fin 1) g q)) 2).val = q.val := by
    show win0_13.index t (2 : Fin 3) * 3 + 1 * q.val = _
    omega
  unfold G
  rw [hb, hq]
  unfold PS
  rw [dif_pos ⟨by omega, q.isLt⟩]
  unfold Cert.LossSpec.perSample Cert.LossSpec.smp Cert.LossSpec.mat Cert.LossSpec.vec
  simp only [blk0, blk1, blk2, blk3, blk4, blk5, blk6, blk7, blk8, blk9, blk10, blk11, blk12]

/-- An index of the array is in point `t`'s block iff each coordinate is in the block's range on its axis. -/
theorem mem_blk (t : Fin cfg0.N) (i : S16x2x3.Idx) :
    i ∈ ((cfg0.win 13).blk t).view.set ↔ ∀ a : Fin 3, win0_13.index t a * S1x2x3.size a ≤ (i a).val ∧ (i a).val < win0_13.index t a * S1x2x3.size a + S1x2x3.size a := by
  show i ∈ ((View.whole main_v2).slice (win0_13.rect t)).set ↔ _
  rw [View.set_slice_whole, Rect.mem_set_unit]
  exact Iff.rfl

/-- The sixteen blocks cover the array: index `i` lies in the block of point `i 0`. -/
theorem cover (i : S16x2x3.Idx) : ∃ t : Fin cfg0.N, (cfg0.win 13).flush t = true ∧ i ∈ ((cfg0.win 13).blk t).view.set := by
  have h0 : (i 0).val < 16 := (i 0).isLt
  have h1 : (i 1).val < 2 := (i 1).isLt
  have h2 : (i 2).val < 3 := (i 2).isLt
  refine ⟨⟨(i 0).val, lt_of_lt_of_eq h0 N_0.symm⟩, flush0_13 _, ?_⟩
  rw [mem_blk]
  obtain ⟨e0, e1, e2⟩ := idx13 ⟨(i 0).val, lt_of_lt_of_eq h0 N_0.symm⟩
  have e0' : win0_13.index ⟨(i 0).val, lt_of_lt_of_eq h0 N_0.symm⟩ (0 : Fin 3) = (i 0).val := e0
  intro a
  match a with
  | ⟨0, _⟩ => show win0_13.index _ (0 : Fin 3) * 1 ≤ (i 0).val ∧ (i 0).val < win0_13.index _ (0 : Fin 3) * 1 + 1; omega
  | ⟨1, _⟩ => show win0_13.index _ (1 : Fin 3) * 2 ≤ (i 1).val ∧ (i 1).val < win0_13.index _ (1 : Fin 3) * 2 + 2; omega
  | ⟨2, _⟩ => show win0_13.index _ (2 : Fin 3) * 3 ≤ (i 2).val ∧ (i 2).val < win0_13.index _ (2 : Fin 3) * 3 + 3; omega

/-- THE ARRAY after the run. -/
theorem final (hout : OutEq) (c : Dev nD) : (dats m 0 c).arrAt 13 cfg0.N = G m c :=
  (dats m 0 c).arrAt_eq_of_cover 13 (G m c) (fun t _ => flushed_eq m hout c t) cover

end Cert.KernelIdeal.KFinal

end
-- ==== Proof.KTail.lean ====
/-
  The host lines after the region.  They reshape the [16, 2, 3] result array to [32, 3] (row 2·t + g), cut out column q,
  flatten it to 32 entries and average: each of the kernel's three results is the mean over the 32 samples of one loss.
-/
import proofs.«162502_j88974542504179_2_alg».proof.Proof.KArray

set_option maxRecDepth 16384

noncomputable section

namespace Cert.KernelIdeal.KFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The mean over the 32 samples. -/
def meanB (p : FVec Ideal S32 .f32) : FVec Ideal S_ .f32 :=
  Host.divf (Host.reduceAdd p (constant (F := Ideal) S_ .f32 0x00000000#32) reducesTo_S32_S_d0 h_S_) (constant (F := Ideal) S_ .f32 0x42000000#32)

/-- Column `off 1` of the result array, one entry per sample. -/
def colOf (off : Fin 2 → ℕ) (hs : S32x3.Slices off S32x1) (O : FVec Ideal S16x2x3 .f32) : FVec Ideal S32 .f32 :=
  shapeCast S32 (extractStridedSlice S32x1 off (shapeCast S32x3 O shapeCasts_S16x2x3_S32x3) hs) shapeCasts_S32x1_S32

/-- Loss `q` of every sample, as a [32] array. -/
def lossCol (c : Dev nD) (q : ℕ) : FVec Ideal S32 .f32 := fun i => PS m c (i 0).val q

/-- Column `q` of the result array is loss `q` sample by sample: entry `b` of the flattened column sits at
    (b / 2, b % 2, q) of the array, and 2·(b / 2) + b % 2 = b. -/
theorem colOf_G (c : Dev nD) (q : Fin 3) (hs : S32x3.Slices ![0, q.val] S32x1) :
    colOf ![0, q.val] hs (G m c) = lossCol m c q.val := by
  funext i
  have hi : (i 0).val < 32 := (i 0).isLt
  unfold colOf
  refine (shapeCast_apply _ shapeCasts_S32x1_S32 i (ix2 (⟨(i 0).val, hi⟩ : Fin 32) (0 : Fin 1)) ?_).trans ?_
  · rw [Shape.rowMajor_val_two, Shape.rowMajor_val_one]
    show (i 0).val * 1 + 0 = (i 0).val
    omega
  refine (extractStridedSlice_apply ![0, q.val] _ hs (ix2 (⟨(i 0).val, hi⟩ : Fin 32) (0 : Fin 1)) (ix2 (⟨(i 0).val, hi⟩ : Fin 32) q) (fun a => ?_)).trans ?_
  · match a with
    | ⟨0, _⟩ => show (i 0).val = 0 + (i 0).val; omega
    | ⟨1, _⟩ => show q.val = q.val + 0; omega
  refine (shapeCast_apply (G m c) shapeCasts_S16x2x3_S32x3 (ix2 (⟨(i 0).val, hi⟩ : Fin 32) q)
    (ix3 (⟨(i 0).val / 2, by omega⟩ : Fin 16) (⟨(i 0).val % 2, by omega⟩ : Fin 2) q) ?_).trans ?_
  · rw [Shape.rowMajor_val_three, Shape.rowMajor_val_two]
    show (((i 0).val / 2) * 2 + (i 0).val % 2) * 3 + q.val = (i 0).val * 3 + q.val
    omega
  show PS m c (2 * ((i 0).val / 2) + (i 0).val % 2) q.val = PS m c (i 0).val q.val
  congr 1
  omega

end Cert.KernelIdeal.KFinal

end
-- ==== Proof.KHost.lean ====
/-
  The host lines around the region, read as values.  Before it, the two row arrays are reshaped to [32, 256, 768] and
  [32, 16, 768]; after it, each result is the mean over the samples of one column of the region's result array.
-/
import proofs.«162502_j88974542504179_2_alg».proof.Proof.KTail

set_option maxRecDepth 16384

noncomputable section

namespace Cert.KernelIdeal.KFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The region finds the feature rows reshaped to [32, 256, 768]. -/
theorem V_main_v0 (c : Dev nD) :
    (V m c main_v0 : S32x256x768.Idx → EReal) = shapeCast S32x256x768 (m ((c : Thread nD τ).loc main_arg0)) shapeCasts_S8192x768_S32x256x768 := by
  show StableHlo.after hostOps0 (fun b => m (c, b)) (Proc.devRef .tc main_v0) = _
  after_results
  rfl

/-- The region finds the basis rows reshaped to [32, 16, 768]. -/
theorem V_main_v1 (c : Dev nD) :
    (V m c main_v1 : S32x16x768.Idx → EReal) = shapeCast S32x16x768 (m ((c : Thread nD τ).loc main_arg1)) shapeCasts_S512x768_S32x16x768 := by
  show StableHlo.after hostOps0 (fun b => m (c, b)) (Proc.devRef .tc main_v1) = _
  after_results
  rfl

/-- The three results: the means of columns 0, 1, 2 of the region's result array. -/
theorem tail7 (hout : OutEq) (c : Dev nD) (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v7) = meanB (colOf ![0, 0] slices_S32x3_S32x1_0_0 (G m c)) := by
  refine ((h c).2 main_v7 (Pipeline.mem_restRefs_of main_v7 (by decide) (by decide))).trans ?_
  unfold Pipeline.afterTail₀
  show StableHlo.after hostOps1 _ (Proc.devRef .tc main_v7) = _
  after_results
  have hW : Pipeline.withArrays (cfgs 0).spec c (V0 m c) (fun w => (dats m 0 c).arrAt w (cfgs 0).N) (Proc.tc.devRef main_v2) = G m c :=
    (Pipeline.withArrays_arr spec0 launch0.win.arr_inj c _ _ 13).trans (final m hout c)
  rw [hW]
  rfl

theorem tail11 (hout : OutEq) (c : Dev nD) (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v11) = meanB (colOf ![0, 1] slices_S32x3_S32x1_0_1 (G m c)) := by
  refine ((h c).2 main_v11 (Pipeline.mem_restRefs_of main_v11 (by decide) (by decide))).trans ?_
  unfold Pipeline.afterTail₀
  show StableHlo.after hostOps1 _ (Proc.devRef .tc main_v11) = _
  after_results
  have hW : Pipeline.withArrays (cfgs 0).spec c (V0 m c) (fun w => (dats m 0 c).arrAt w (cfgs 0).N) (Proc.tc.devRef main_v2) = G m c :=
    (Pipeline.withArrays_arr spec0 launch0.win.arr_inj c _ _ 13).trans (final m hout c)
  rw [hW]
  rfl

theorem tail15 (hout : OutEq) (c : Dev nD) (r : PUnit × MemSt nD τ sig (Elt Ideal))
    (h : Pipeline.FramePost cfgs (dats m) 0 (Pipeline.afterTail₀ cfgs (dats m) 0 (V0 m) [hostOps1]) r) :
    r.2.mem ((c.tc : Thread nD τ).loc main_v15) = meanB (colOf ![0, 2] slices_S32x3_S32x1_0_2 (G m c)) := by
  refine ((h c).2 main_v15 (Pipeline.mem_restRefs_of main_v15 (by decide) (by decide))).trans ?_
  unfold Pipeline.afterTail₀
  show StableHlo.after hostOps1 _ (Proc.devRef .tc main_v15) = _
  after_results
  have hW : Pipeline.withArrays (cfgs 0).spec c (V0 m c) (fun w => (dats m 0 c).arrAt w (cfgs 0).N) (Proc.tc.devRef main_v2) = G m c :=
    (Pipeline.withArrays_arr spec0 launch0.win.arr_inj c _ _ 13).trans (final m hout c)
  rw [hW]
  rfl

end Cert.KernelIdeal.KFinal

end
-- ==== Proof.KRun.lean ====
/-
  The kernel's run, read: every weakly fair execution ends with the three results at the means over the 32 samples of
  the three losses, and the argument arrays unchanged.
-/
import proofs.«162502_j88974542504179_2_alg».proof.Proof.KHost

set_option maxRecDepth 16384

noncomputable section

namespace Cert.KernelIdeal.KFinal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The run's post read at the argument arrays: each ends as launched (no host line and no write-back touches one). -/
theorem kept (c : Dev nD) (r : PUnit × MemSt nD τ sig (Elt Ideal))
    (h : Pipeline.FramePost cfgs (dats m) 0 (Pipeline.afterTail₀ cfgs (dats m) 0 (V0 m) [hostOps1]) r) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12) :=
  ⟨(((h c).2 main_arg0 (Pipeline.mem_restRefs_of main_arg0 (by decide) (by decide))).trans (W_main_arg0 m (dats m) c)),
    (((h c).2 main_arg1 (Pipeline.mem_restRefs_of main_arg1 (by decide) (by decide))).trans (W_main_arg1 m (dats m) c)),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).1 6).trans (((dats m 0 c).arrAt_in 6 rfl _).trans ((A_eq m c 6).trans (V_main_arg6 m c))),
    ((h c).1 7).trans (((dats m 0 c).arrAt_in 7 rfl _).trans ((A_eq m c 7).trans (V_main_arg7 m c))),
    ((h c).1 8).trans (((dats m 0 c).arrAt_in 8 rfl _).trans ((A_eq m c 8).trans (V_main_arg8 m c))),
    ((h c).1 9).trans (((dats m 0 c).arrAt_in 9 rfl _).trans ((A_eq m c 9).trans (V_main_arg9 m c))),
    ((h c).1 10).trans (((dats m 0 c).arrAt_in 10 rfl _).trans ((A_eq m c 10).trans (V_main_arg10 m c))),
    ((h c).1 11).trans (((dats m 0 c).arrAt_in 11 rfl _).trans ((A_eq m c 11).trans (V_main_arg11 m c))),
    ((h c).1 12).trans (((dats m 0 c).arrAt_in 12 rfl _).trans ((A_eq m c 12).trans (V_main_arg12 m c)))⟩

/-- The kernel's run with its results named. -/
theorem run (hout : OutEq) : θ_run defs (onTc (τ := τ) (main (F := Ideal))) ⟨m, fun _ => 0, ρ⟩ (fun r => ∀ c : Dev nD,
      r.2.mem ((c.tc : Thread nD τ).loc main_v7) = meanB (lossCol m c 0)
      ∧ r.2.mem ((c.tc : Thread nD τ).loc main_v11) = meanB (lossCol m c 1)
      ∧ r.2.mem ((c.tc : Thread nD τ).loc main_v15) = meanB (lossCol m c 2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(tail7 m hout c r h).trans (congrArg meanB (colOf_G m c 0 slices_S32x3_S32x1_0_0)),
     (tail11 m hout c r h).trans (congrArg meanB (colOf_G m c 1 slices_S32x3_S32x1_0_1)),
     (tail15 m hout c r h).trans (congrArg meanB (colOf_G m c 2 slices_S32x3_S32x1_0_2)),
     kept m c r h⟩) (run_main m ρ)

end Cert.KernelIdeal.KFinal

end
-- ==== Proof.RefOps.lean ====
/- Written by the transcription script scratch/gen_ops.js (run: bun scratch/gen_ops.js proof/ReferenceIdeal.lean proofs.«162502_j88974542504179_2_alg».proof > proof/Proof/RefOps.lean): the reference's
   host operations in program order, one list per printed window of @main, each outlined function's operations listed at
   its call over that call's buffer record. -/
import proofs.«162502_j88974542504179_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- The operations of @main's first window (statements 1–60). -/
abbrev ops0 : List (HloOp τ sig (Elt F)) :=
  [ StableHlo.reshape main_arg0 main_v0 rfl shapeCasts_S8192x768_S32x256x768,
    StableHlo.reshape main_arg1 main_v1 rfl shapeCasts_S512x768_S32x16x768,
    StableHlo.binary main_v0 main_v1 main_v2 ((fun a b => concatenate S32x272x768 1 [⟨S32x256x768, a⟩, ⟨S32x16x768, b⟩] concatenates_S32x256x768_S32x16x768_S32x272x768_d1) : (⟨S32x256x768, .f32⟩ : BufTy).Contents (Elt F) → (⟨S32x16x768, .f32⟩ : BufTy).Contents (Elt F) → (⟨S32x272x768, .f32⟩ : BufTy).Contents (Elt F)),
    StableHlo.binary main_v2 main_arg3 main_v3 ((fun l r => Host.dotGeneral dot_S32x272x768_S768x2048_S32x272x2048_2_0_01_1_n_n none l r) : (⟨S32x272x768, .f32⟩ : BufTy).Contents (Elt F) → (⟨S768x2048, .f32⟩ : BufTy).Contents (Elt F) → (⟨S32x272x2048, .f32⟩ : BufTy).Contents (Elt F)),
    StableHlo.unary main_arg4 main_v4 (broadcastInDim S1x1x2048 ![2] bcast_S2048_S1x1x2048_2 : (⟨S2048, .f32⟩ : BufTy).Contents (Elt F) → (⟨S1x1x2048, .f32⟩ : BufTy).Contents (Elt F)),
    StableHlo.unary main_v4 main_v5 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v3 main_v5 main_v6 (addf : (⟨S32x272x2048, .f32⟩ : BufTy).Contents (Elt F) → (⟨S32x272x2048, .f32⟩ : BufTy).Contents (Elt F) → (⟨S32x272x2048, .f32⟩ : BufTy).Contents (Elt F)),
    StableHlo.nullary main_cst (constant S_ .f32 0x00000000#32),
    StableHlo.binary main_v6 main_cst main_v7 ((fun x v => Host.reduceAdd x v reducesTo_S32x272x2048_S32x2048_d1 h_S_) : (⟨S32x272x2048, .f32⟩ : BufTy).Contents (Elt F) → (⟨S_, .f32⟩ : BufTy).Contents (Elt F) → (⟨S32x2048, .f32⟩ : BufTy).Contents (Elt F)),
    StableHlo.unary main_v7 main_v8 (broadcastInDim S32x1x2048 ![0, 2] bcast_S32x2048_S32x1x2048_0_2 : (⟨S32x2048, .f32⟩ : BufTy).Contents (Elt F) → (⟨S32x1x2048, .f32⟩ : BufTy).Contents (Elt F)),
    StableHlo.nullary main_cst_0 (constant S_ .f32 0x43880000#32),
    StableHlo.unary main_cst_0 main_v9 (broadcastInDim S32x1x2048 ![] bcast_S_S32x1x2048 : (⟨S_, .f32⟩ : BufTy).Contents (Elt F) → (⟨S32x1x2048, .f32⟩ : BufTy).Contents (Elt F)),
    StableHlo.binary main_v8 main_v9 main_v10 (Host.divf : (⟨S32x1x2048, .f32⟩ : BufTy).Contents (Elt F) → (⟨S32x1x2048, .f32⟩ : BufTy).Contents (Elt F) → (⟨S32x1x2048, .f32⟩ : BufTy).Contents (Elt F)),
    StableHlo.nullary main_c (constantI S_ 32 0#32),
    StableHlo.TRef.nullary main_call0.cst (constant S_ .f32 0x00000000#32),
    StableHlo.TRef.binary (.of main_v6) main_call0.cst main_call0.v0 (fun x v => Host.reduceAdd x v reducesTo_S32x272x2048_S32x2048_d1 h_S_),
    StableHlo.TRef.unary main_call0.v0 main_call0.v1 (broadcastInDim S32x1x2048 ![0, 2] bcast_S32x2048_S32x1x2048_0_2),
    StableHlo.TRef.nullary main_call0.cst_0 (constant S_ .f32 0x43880000#32),
    StableHlo.TRef.unary main_call0.cst_0 main_call0.v2 (broadcastInDim S32x1x2048 ![] bcast_S_S32x1x2048),
    StableHlo.TRef.binary main_call0.v1 main_call0.v2 main_call0.v3 Host.divf,
    StableHlo.TRef.unary main_call0.v3 main_call0.v4 (broadcastInDim S32x272x2048 ![0, 1, 2] bcast_S32x1x2048_S32x272x2048_0_1_2),
    StableHlo.TRef.binary (.of main_v6) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x43880000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32x272x2048_S32x2048_d1 h_S_),
    StableHlo.TRef.unary main_call0.v9 main_call0.v10 (broadcastInDim S32x1x2048 ![0, 2] bcast_S32x2048_S32x1x2048_0_2),
    StableHlo.TRef.unary main_call0.v8 main_call0.v11 (broadcastInDim S32x1x2048 ![] bcast_S_S32x1x2048),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32x1x2048 ![] bcast_S_S32x1x2048),
    StableHlo.TRef.ternary main_call0.v13 main_call0.v12 main_call0.call0.v1 main_call0.call0.v2 (fun p a b => select (broadcastInDim S32x1x2048 ![] bcast_S_S32x1x2048 p) a b),
    StableHlo.unary main_v10 main_v12 (broadcastInDim S32x272x2048 ![0, 1, 2] bcast_S32x1x2048_S32x272x2048_0_1_2 : (⟨S32x1x2048, .f32⟩ : BufTy).Contents (Elt F) → (⟨S32x272x2048, .f32⟩ : BufTy).Contents (Elt F)),
    StableHlo.binary main_v6 main_v12 main_v13 (subf : (⟨S32x272x2048, .f32⟩ : BufTy).Contents (Elt F) → (⟨S32x272x2048, .f32⟩ : BufTy).Contents (Elt F) → (⟨S32x272x2048, .f32⟩ : BufTy).Contents (Elt F)),
    StableHlo.nullary main_cst_1 (constant S_ .f32 0x3727C5AC#32),
    StableHlo.unary main_cst_1 main_v14 (broadcastInDim S32x1x2048 ![] bcast_S_S32x1x2048 : (⟨S_, .f32⟩ : BufTy).Contents (Elt F) → (⟨S32x1x2048, .f32⟩ : BufTy).Contents (Elt F)),
    StableHlo.binary main_v11 main_v14 main_v15 (addf : (⟨S32x1x2048, .f32⟩ : BufTy).Contents (Elt F) → (⟨S32x1x2048, .f32⟩ : BufTy).Contents (Elt F) → (⟨S32x1x2048, .f32⟩ : BufTy).Contents (Elt F)),
    StableHlo.unary main_v15 main_v16 (Host.rsqrt : (⟨S32x1x2048, .f32⟩ : BufTy).Contents (Elt F) → (⟨S32x1x2048, .f32⟩ : BufTy).Contents (Elt F)),
    StableHlo.unary main_v16 main_v17 (broadcastInDim S32x272x2048 ![0, 1, 2] bcast_S32x1x2048_S32x272x2048_0_1_2 : (⟨S32x1x2048, .f32⟩ : BufTy).Contents (Elt F) → (⟨S32x272x2048, .f32⟩ : BufTy).Contents (Elt F)),
    StableHlo.binary main_v13 main_v17 main_v18 (mulf : (⟨S32x272x2048, .f32⟩ : BufTy).Contents (Elt F) → (⟨S32x272x2048, .f32⟩ : BufTy).Contents (Elt F) → (⟨S32x272x2048, .f32⟩ : BufTy).Contents (Elt F)),
    StableHlo.unary main_arg5 main_v19 (broadcastInDim S1x1x2048 ![2] bcast_S2048_S1x1x2048_2 : (⟨S2048, .f32⟩ : BufTy).Contents (Elt F) → (⟨S1x1x2048, .f32⟩ : BufTy).Contents (Elt F)),
    StableHlo.unary main_v19 main_v20 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v18 main_v20 main_v21 (mulf : (⟨S32x272x2048, .f32⟩ : BufTy).Contents (Elt F) → (⟨S32x272x2048, .f32⟩ : BufTy).Contents (Elt F) → (⟨S32x272x2048, .f32⟩ : BufTy).Contents (Elt F)),
    StableHlo.unary main_arg6 main_v22 (broadcastInDim S1x1x2048 ![2] bcast_S2048_S1x1x2048_2 : (⟨S2048, .f32⟩ : BufTy).Contents (Elt F) → (⟨S1x1x2048, .f32⟩ : BufTy).Contents (Elt F)),
    StableHlo.unary main_v22 main_v23 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v21 main_v23 main_v24 (addf : (⟨S32x272x2048, .f32⟩ : BufTy).Contents (Elt F) → (⟨S32x272x2048, .f32⟩ : BufTy).Contents (Elt F) → (⟨S32x272x2048, .f32⟩ : BufTy).Contents (Elt F)),
    StableHlo.TRef.nullary main_call1.cst (constant S_ .f32 0x00000000#32),
    StableHlo.TRef.unary main_call1.cst main_call1.v0 (broadcastInDim S32x272x2048 ![] bcast_S_S32x272x2048),
    StableHlo.TRef.binary (.of main_v24) main_call1.v0 main_call1.v1 maximumf,
    StableHlo.binary main_v25 main_arg7 main_v26 ((fun l r => Host.dotGeneral dot_S32x272x2048_S2048x2048_S32x272x2048_2_0_01_1_n_n none l r) : (⟨S32x272x2048, .f32⟩ : BufTy).Contents (Elt F) → (⟨S2048x2048, .f32⟩ : BufTy).Contents (Elt F) → (⟨S32x272x2048, .f32⟩ : BufTy).Contents (Elt F)),
    StableHlo.unary main_arg8 main_v27 (broadcastInDim S1x1x2048 ![2] bcast_S2048_S1x1x2048_2 : (⟨S2048, .f32⟩ : BufTy).Contents (Elt F) → (⟨S1x1x2048, .f32⟩ : BufTy).Contents (Elt F)),
    StableHlo.unary main_v27 main_v28 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v26 main_v28 main_v29 (addf : (⟨S32x272x2048, .f32⟩ : BufTy).Contents (Elt F) → (⟨S32x272x2048, .f32⟩ : BufTy).Contents (Elt F) → (⟨S32x272x2048, .f32⟩ : BufTy).Contents (Elt F)),
    StableHlo.nullary main_cst_2 (constant S_ .f32 0x00000000#32),
    StableHlo.binary main_v29 main_cst_2 main_v30 ((fun x v => Host.reduceAdd x v reducesTo_S32x272x2048_S32x2048_d1 h_S_) : (⟨S32x272x2048, .f32⟩ : BufTy).Contents (Elt F) → (⟨S_, .f32⟩ : BufTy).Contents (Elt F) → (⟨S32x2048, .f32⟩ : BufTy).Contents (Elt F)),
    StableHlo.unary main_v30 main_v31 (broadcastInDim S32x1x2048 ![0, 2] bcast_S32x2048_S32x1x2048_0_2 : (⟨S32x2048, .f32⟩ : BufTy).Contents (Elt F) → (⟨S32x1x2048, .f32⟩ : BufTy).Contents (Elt F)),
    StableHlo.nullary main_cst_3 (constant S_ .f32 0x43880000#32),
    StableHlo.unary main_cst_3 main_v32 (broadcastInDim S32x1x2048 ![] bcast_S_S32x1x2048 : (⟨S_, .f32⟩ : BufTy).Contents (Elt F) → (⟨S32x1x2048, .f32⟩ : BufTy).Contents (Elt F)),
    StableHlo.binary main_v31 main_v32 main_v33 (Host.divf : (⟨S32x1x2048, .f32⟩ : BufTy).Contents (Elt F) → (⟨S32x1x2048, .f32⟩ : BufTy).Contents (Elt F) → (⟨S32x1x2048, .f32⟩ : BufTy).Contents (Elt F)),
    StableHlo.nullary main_c_4 (constantI S_ 32 0#32),
    StableHlo.TRef.nullary main_call2.cst (constant S_ .f32 0x00000000#32),
    StableHlo.TRef.binary (.of main_v29) main_call2.cst main_call2.v0 (fun x v => Host.reduceAdd x v reducesTo_S32x272x2048_S32x2048_d1 h_S_),
    StableHlo.TRef.unary main_call2.v0 main_call2.v1 (broadcastInDim S32x1x2048 ![0, 2] bcast_S32x2048_S32x1x2048_0_2),
    StableHlo.TRef.nullary main_call2.cst_0 (constant S_ .f32 0x43880000#32),
    StableHlo.TRef.unary main_call2.cst_0 main_call2.v2 (broadcastInDim S32x1x2048 ![] bcast_S_S32x1x2048),
    StableHlo.TRef.binary main_call2.v1 main_call2.v2 main_call2.v3 Host.divf,
    StableHlo.TRef.unary main_call2.v3 main_call2.v4 (broadcastInDim S32x272x2048 ![0, 1, 2] bcast_S32x1x2048_S32x272x2048_0_1_2),
    StableHlo.TRef.binary (.of main_v29) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x43880000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32x272x2048_S32x2048_d1 h_S_),
    StableHlo.TRef.unary main_call2.v9 main_call2.v10 (broadcastInDim S32x1x2048 ![0, 2] bcast_S32x2048_S32x1x2048_0_2),
    StableHlo.TRef.unary main_call2.v8 main_call2.v11 (broadcastInDim S32x1x2048 ![] bcast_S_S32x1x2048),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32x1x2048 ![] bcast_S_S32x1x2048),
    StableHlo.TRef.ternary main_call2.v13 main_call2.v12 main_call2.call0.v1 main_call2.call0.v2 (fun p a b => select (broadcastInDim S32x1x2048 ![] bcast_S_S32x1x2048 p) a b),
    StableHlo.unary main_v33 main_v35 (broadcastInDim S32x272x2048 ![0, 1, 2] bcast_S32x1x2048_S32x272x2048_0_1_2 : (⟨S32x1x2048, .f32⟩ : BufTy).Contents (Elt F) → (⟨S32x272x2048, .f32⟩ : BufTy).Contents (Elt F)),
    StableHlo.binary main_v29 main_v35 main_v36 (subf : (⟨S32x272x2048, .f32⟩ : BufTy).Contents (Elt F) → (⟨S32x272x2048, .f32⟩ : BufTy).Contents (Elt F) → (⟨S32x272x2048, .f32⟩ : BufTy).Contents (Elt F)),
    StableHlo.nullary main_cst_5 (constant S_ .f32 0x3727C5AC#32),
    StableHlo.unary main_cst_5 main_v37 (broadcastInDim S32x1x2048 ![] bcast_S_S32x1x2048 : (⟨S_, .f32⟩ : BufTy).Contents (Elt F) → (⟨S32x1x2048, .f32⟩ : BufTy).Contents (Elt F)),
    StableHlo.binary main_v34 main_v37 main_v38 (addf : (⟨S32x1x2048, .f32⟩ : BufTy).Contents (Elt F) → (⟨S32x1x2048, .f32⟩ : BufTy).Contents (Elt F) → (⟨S32x1x2048, .f32⟩ : BufTy).Contents (Elt F)),
    StableHlo.unary main_v38 main_v39 (Host.rsqrt : (⟨S32x1x2048, .f32⟩ : BufTy).Contents (Elt F) → (⟨S32x1x2048, .f32⟩ : BufTy).Contents (Elt F)),
    StableHlo.unary main_v39 main_v40 (broadcastInDim S32x272x2048 ![0, 1, 2] bcast_S32x1x2048_S32x272x2048_0_1_2 : (⟨S32x1x2048, .f32⟩ : BufTy).Contents (Elt F) → (⟨S32x272x2048, .f32⟩ : BufTy).Contents (Elt F)),
    StableHlo.binary main_v36 main_v40 main_v41 (mulf : (⟨S32x272x2048, .f32⟩ : BufTy).Contents (Elt F) → (⟨S32x272x2048, .f32⟩ : BufTy).Contents (Elt F) → (⟨S32x272x2048, .f32⟩ : BufTy).Contents (Elt F)),
    StableHlo.unary main_arg9 main_v42 (broadcastInDim S1x1x2048 ![2] bcast_S2048_S1x1x2048_2 : (⟨S2048, .f32⟩ : BufTy).Contents (Elt F) → (⟨S1x1x2048, .f32⟩ : BufTy).Contents (Elt F)),
    StableHlo.unary main_v42 main_v43 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v41 main_v43 main_v44 (mulf : (⟨S32x272x2048, .f32⟩ : BufTy).Contents (Elt F) → (⟨S32x272x2048, .f32⟩ : BufTy).Contents (Elt F) → (⟨S32x272x2048, .f32⟩ : BufTy).Contents (Elt F)),
    StableHlo.unary main_arg10 main_v45 (broadcastInDim S1x1x2048 ![2] bcast_S2048_S1x1x2048_2 : (⟨S2048, .f32⟩ : BufTy).Contents (Elt F) → (⟨S1x1x2048, .f32⟩ : BufTy).Contents (Elt F)),
    StableHlo.unary main_v45 main_v46 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v44 main_v46 main_v47 (addf : (⟨S32x272x2048, .f32⟩ : BufTy).Contents (Elt F) → (⟨S32x272x2048, .f32⟩ : BufTy).Contents (Elt F) → (⟨S32x272x2048, .f32⟩ : BufTy).Contents (Elt F)),
    StableHlo.TRef.nullary main_call3.cst (constant S_ .f32 0x00000000#32),
    StableHlo.TRef.unary main_call3.cst main_call3.v0 (broadcastInDim S32x272x2048 ![] bcast_S_S32x272x2048),
    StableHlo.TRef.binary (.of main_v47) main_call3.v0 main_call3.v1 maximumf,
    StableHlo.binary main_v48 main_arg11 main_v49 ((fun l r => Host.dotGeneral dot_S32x272x2048_S2048x2048_S32x272x2048_2_0_01_1_n_n none l r) : (⟨S32x272x2048, .f32⟩ : BufTy).Contents (Elt F) → (⟨S2048x2048, .f32⟩ : BufTy).Contents (Elt F) → (⟨S32x272x2048, .f32⟩ : BufTy).Contents (Elt F)),
    StableHlo.unary main_arg12 main_v50 (broadcastInDim S1x1x2048 ![2] bcast_S2048_S1x1x2048_2 : (⟨S2048, .f32⟩ : BufTy).Contents (Elt F) → (⟨S1x1x2048, .f32⟩ : BufTy).Contents (Elt F)),
    StableHlo.unary main_v50 main_v51 (broadcastInDim S32x272x2048 ![0, 1, 2] bcast_S1x1x2048_S32x272x2048_0_1_2 : (⟨S1x1x2048, .f32⟩ : BufTy).Contents (Elt F) → (⟨S32x272x2048, .f32⟩ : BufTy).Contents (Elt F)) ]

/-- The operations of @main's second window (statements 61–120). -/
abbrev ops1 : List (HloOp τ sig (Elt F)) :=
  [ StableHlo.binary main_v49 main_v51 main_v52 (addf : (⟨S32x272x2048, .f32⟩ : BufTy).Contents (Elt F) → (⟨S32x272x2048, .f32⟩ : BufTy).Contents (Elt F) → (⟨S32x272x2048, .f32⟩ : BufTy).Contents (Elt F)),
    StableHlo.unary main_v52 main_v53 ((extractStridedSlice S32x256x2048 ![0, 0, 0] · slices_S32x272x2048_S32x256x2048_0_0_0) : (⟨S32x272x2048, .f32⟩ : BufTy).Contents (Elt F) → (⟨S32x256x2048, .f32⟩ : BufTy).Contents (Elt F)),
    StableHlo.unary main_v52 main_v54 ((extractStridedSlice S32x16x2048 ![0, 256, 0] · slices_S32x272x2048_S32x16x2048_0_256_0) : (⟨S32x272x2048, .f32⟩ : BufTy).Contents (Elt F) → (⟨S32x16x2048, .f32⟩ : BufTy).Contents (Elt F)),
    StableHlo.binary main_v53 main_v53 main_v55 (mulf : (⟨S32x256x2048, .f32⟩ : BufTy).Contents (Elt F) → (⟨S32x256x2048, .f32⟩ : BufTy).Contents (Elt F) → (⟨S32x256x2048, .f32⟩ : BufTy).Contents (Elt F)),
    StableHlo.nullary main_cst_6 (constant S_ .f32 0x00000000#32),
    StableHlo.binary main_v55 main_cst_6 main_v56 ((fun x v => Host.reduceAdd x v reducesTo_S32x256x2048_S32x256_d2 h_S_) : (⟨S32x256x2048, .f32⟩ : BufTy).Contents (Elt F) → (⟨S_, .f32⟩ : BufTy).Contents (Elt F) → (⟨S32x256, .f32⟩ : BufTy).Contents (Elt F)),
    StableHlo.unary main_v56 main_v57 (broadcastInDim S32x256x1 ![0, 1] bcast_S32x256_S32x256x1_0_1 : (⟨S32x256, .f32⟩ : BufTy).Contents (Elt F) → (⟨S32x256x1, .f32⟩ : BufTy).Contents (Elt F)),
    StableHlo.unary main_v57 main_v58 (Host.sqrt : (⟨S32x256x1, .f32⟩ : BufTy).Contents (Elt F) → (⟨S32x256x1, .f32⟩ : BufTy).Contents (Elt F)),
    StableHlo.nullary main_cst_7 (constant S_ .f32 0x322BCC77#32),
    StableHlo.unary main_cst_7 main_v59 (broadcastInDim S32x256x1 ![] bcast_S_S32x256x1 : (⟨S_, .f32⟩ : BufTy).Contents (Elt F) → (⟨S32x256x1, .f32⟩ : BufTy).Contents (Elt F)),
    StableHlo.binary main_v58 main_v59 main_v60 (maximumf : (⟨S32x256x1, .f32⟩ : BufTy).Contents (Elt F) → (⟨S32x256x1, .f32⟩ : BufTy).Contents (Elt F) → (⟨S32x256x1, .f32⟩ : BufTy).Contents (Elt F)),
    StableHlo.unary main_v60 main_v61 (broadcastInDim S32x256x2048 ![0, 1, 2] bcast_S32x256x1_S32x256x2048_0_1_2 : (⟨S32x256x1, .f32⟩ : BufTy).Contents (Elt F) → (⟨S32x256x2048, .f32⟩ : BufTy).Contents (Elt F)),
    StableHlo.binary main_v53 main_v61 main_v62 (Host.divf : (⟨S32x256x2048, .f32⟩ : BufTy).Contents (Elt F) → (⟨S32x256x2048, .f32⟩ : BufTy).Contents (Elt F) → (⟨S32x256x2048, .f32⟩ : BufTy).Contents (Elt F)),
    StableHlo.binary main_v54 main_v54 main_v63 (mulf : (⟨S32x16x2048, .f32⟩ : BufTy).Contents (Elt F) → (⟨S32x16x2048, .f32⟩ : BufTy).Contents (Elt F) → (⟨S32x16x2048, .f32⟩ : BufTy).Contents (Elt F)),
    StableHlo.nullary main_cst_8 (constant S_ .f32 0x00000000#32),
    StableHlo.binary main_v63 main_cst_8 main_v64 ((fun x v => Host.reduceAdd x v reducesTo_S32x16x2048_S32x16_d2 h_S_) : (⟨S32x16x2048, .f32⟩ : BufTy).Contents (Elt F) → (⟨S_, .f32⟩ : BufTy).Contents (Elt F) → (⟨S32x16, .f32⟩ : BufTy).Contents (Elt F)),
    StableHlo.unary main_v64 main_v65 (broadcastInDim S32x16x1 ![0, 1] bcast_S32x16_S32x16x1_0_1 : (⟨S32x16, .f32⟩ : BufTy).Contents (Elt F) → (⟨S32x16x1, .f32⟩ : BufTy).Contents (Elt F)),
    StableHlo.unary main_v65 main_v66 (Host.sqrt : (⟨S32x16x1, .f32⟩ : BufTy).Contents (Elt F) → (⟨S32x16x1, .f32⟩ : BufTy).Contents (Elt F)),
    StableHlo.nullary main_cst_9 (constant S_ .f32 0x322BCC77#32),
    StableHlo.unary main_cst_9 main_v67 (broadcastInDim S32x16x1 ![] bcast_S_S32x16x1 : (⟨S_, .f32⟩ : BufTy).Contents (Elt F) → (⟨S32x16x1, .f32⟩ : BufTy).Contents (Elt F)),
    StableHlo.binary main_v66 main_v67 main_v68 (maximumf : (⟨S32x16x1, .f32⟩ : BufTy).Contents (Elt F) → (⟨S32x16x1, .f32⟩ : BufTy).Contents (Elt F) → (⟨S32x16x1, .f32⟩ : BufTy).Contents (Elt F)),
    StableHlo.unary main_v68 main_v69 (broadcastInDim S32x16x2048 ![0, 1, 2] bcast_S32x16x1_S32x16x2048_0_1_2 : (⟨S32x16x1, .f32⟩ : BufTy).Contents (Elt F) → (⟨S32x16x2048, .f32⟩ : BufTy).Contents (Elt F)),
    StableHlo.binary main_v54 main_v69 main_v70 (Host.divf : (⟨S32x16x2048, .f32⟩ : BufTy).Contents (Elt F) → (⟨S32x16x2048, .f32⟩ : BufTy).Contents (Elt F) → (⟨S32x16x2048, .f32⟩ : BufTy).Contents (Elt F)),
    StableHlo.binary main_v62 main_v70 main_v71 ((fun l r => Host.dotGeneral dot_S32x256x2048_S32x16x2048_S32x256x16_2_2_1_1_0_0 none l r) : (⟨S32x256x2048, .f32⟩ : BufTy).Contents (Elt F) → (⟨S32x16x2048, .f32⟩ : BufTy).Contents (Elt F) → (⟨S32x256x16, .f32⟩ : BufTy).Contents (Elt F)),
    StableHlo.TRef.nullary main_call4.cst (constant S_ .f32 0x00000000#32),
    StableHlo.TRef.unary main_call4.cst main_call4.v0 (broadcastInDim S32x256x16 ![] bcast_S_S32x256x16),
    StableHlo.TRef.binary (.of main_v71) main_call4.v0 main_call4.v1 maximumf,
    StableHlo.nullary main_cst_10 (constant S_ .f32 0x00000000#32),
    StableHlo.unary main_cst_10 main_v73 (broadcastInDim S32x256x16 ![] bcast_S_S32x256x16 : (⟨S_, .f32⟩ : BufTy).Contents (Elt F) → (⟨S32x256x16, .f32⟩ : BufTy).Contents (Elt F)),
    StableHlo.binary main_arg2 main_v73 main_v74 (cmpf .ogt : (⟨S32x256x16, .f32⟩ : BufTy).Contents (Elt F) → (⟨S32x256x16, .f32⟩ : BufTy).Contents (Elt F) → (⟨S32x256x16, .i1⟩ : BufTy).Contents (Elt F)),
    StableHlo.unary main_v74 main_v75 (uitofp .f32 : (⟨S32x256x16, .i1⟩ : BufTy).Contents (Elt F) → (⟨S32x256x16, .f32⟩ : BufTy).Contents (Elt F)),
    StableHlo.nullary main_cst_11 (constant S_ .f32 0x00000000#32),
    StableHlo.unary main_cst_11 main_v76 (broadcastInDim S32x256x16 ![] bcast_S_S32x256x16 : (⟨S_, .f32⟩ : BufTy).Contents (Elt F) → (⟨S32x256x16, .f32⟩ : BufTy).Contents (Elt F)),
    StableHlo.binary main_arg2 main_v76 main_v77 (cmpf .oeq : (⟨S32x256x16, .f32⟩ : BufTy).Contents (Elt F) → (⟨S32x256x16, .f32⟩ : BufTy).Contents (Elt F) → (⟨S32x256x16, .i1⟩ : BufTy).Contents (Elt F)),
    StableHlo.unary main_v77 main_v78 (uitofp .f32 : (⟨S32x256x16, .i1⟩ : BufTy).Contents (Elt F) → (⟨S32x256x16, .f32⟩ : BufTy).Contents (Elt F)),
    StableHlo.binary main_arg2 main_v72 main_v79 (subf : (⟨S32x256x16, .f32⟩ : BufTy).Contents (Elt F) → (⟨S32x256x16, .f32⟩ : BufTy).Contents (Elt F) → (⟨S32x256x16, .f32⟩ : BufTy).Contents (Elt F)),
    StableHlo.unary main_v79 main_v80 (Host.absf : (⟨S32x256x16, .f32⟩ : BufTy).Contents (Elt F) → (⟨S32x256x16, .f32⟩ : BufTy).Contents (Elt F)),
    StableHlo.nullary main_cst_12 (constant S_ .f32 0x3F800000#32),
    StableHlo.unary main_cst_12 main_v81 (broadcastInDim S32x256x16 ![] bcast_S_S32x256x16 : (⟨S_, .f32⟩ : BufTy).Contents (Elt F) → (⟨S32x256x16, .f32⟩ : BufTy).Contents (Elt F)),
    StableHlo.binary main_v81 main_v80 main_v82 (subf : (⟨S32x256x16, .f32⟩ : BufTy).Contents (Elt F) → (⟨S32x256x16, .f32⟩ : BufTy).Contents (Elt F) → (⟨S32x256x16, .f32⟩ : BufTy).Contents (Elt F)),
    StableHlo.nullary main_cst_13 (constant S_ .f32 0x358637BD#32),
    StableHlo.unary main_cst_13 main_v83 (broadcastInDim S32x256x16 ![] bcast_S_S32x256x16 : (⟨S_, .f32⟩ : BufTy).Contents (Elt F) → (⟨S32x256x16, .f32⟩ : BufTy).Contents (Elt F)),
    StableHlo.binary main_v82 main_v83 main_v84 (addf : (⟨S32x256x16, .f32⟩ : BufTy).Contents (Elt F) → (⟨S32x256x16, .f32⟩ : BufTy).Contents (Elt F) → (⟨S32x256x16, .f32⟩ : BufTy).Contents (Elt F)),
    StableHlo.unary main_v84 main_v85 (Host.log : (⟨S32x256x16, .f32⟩ : BufTy).Contents (Elt F) → (⟨S32x256x16, .f32⟩ : BufTy).Contents (Elt F)),
    StableHlo.binary main_v75 main_v85 main_v86 (mulf : (⟨S32x256x16, .f32⟩ : BufTy).Contents (Elt F) → (⟨S32x256x16, .f32⟩ : BufTy).Contents (Elt F) → (⟨S32x256x16, .f32⟩ : BufTy).Contents (Elt F)),
    StableHlo.nullary main_cst_14 (constant S_ .f32 0x00000000#32),
    StableHlo.binary main_v86 main_cst_14 main_v87 ((fun x v => Host.reduceAdd x v reducesTo_S32x256x16_S32_d1_2 h_S_) : (⟨S32x256x16, .f32⟩ : BufTy).Contents (Elt F) → (⟨S_, .f32⟩ : BufTy).Contents (Elt F) → (⟨S32, .f32⟩ : BufTy).Contents (Elt F)),
    StableHlo.unary main_v87 main_v88 (Host.negf : (⟨S32, .f32⟩ : BufTy).Contents (Elt F) → (⟨S32, .f32⟩ : BufTy).Contents (Elt F)),
    StableHlo.nullary main_cst_15 (constant S_ .f32 0x00000000#32),
    StableHlo.binary main_v75 main_cst_15 main_v89 ((fun x v => Host.reduceAdd x v reducesTo_S32x256x16_S32_d1_2 h_S_) : (⟨S32x256x16, .f32⟩ : BufTy).Contents (Elt F) → (⟨S_, .f32⟩ : BufTy).Contents (Elt F) → (⟨S32, .f32⟩ : BufTy).Contents (Elt F)),
    StableHlo.nullary main_cst_16 (constant S_ .f32 0x358637BD#32),
    StableHlo.unary main_cst_16 main_v90 (broadcastInDim S32 ![] bcast_S_S32 : (⟨S_, .f32⟩ : BufTy).Contents (Elt F) → (⟨S32, .f32⟩ : BufTy).Contents (Elt F)),
    StableHlo.binary main_v89 main_v90 main_v91 (addf : (⟨S32, .f32⟩ : BufTy).Contents (Elt F) → (⟨S32, .f32⟩ : BufTy).Contents (Elt F) → (⟨S32, .f32⟩ : BufTy).Contents (Elt F)),
    StableHlo.binary main_v88 main_v91 main_v92 (Host.divf : (⟨S32, .f32⟩ : BufTy).Contents (Elt F) → (⟨S32, .f32⟩ : BufTy).Contents (Elt F) → (⟨S32, .f32⟩ : BufTy).Contents (Elt F)),
    StableHlo.nullary main_cst_17 (constant S_ .f32 0x00000000#32),
    StableHlo.binary main_v92 main_cst_17 main_v93 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_18 (constant S_ .f32 0x42000000#32),
    StableHlo.binary main_v93 main_cst_18 main_v94 (Host.divf : (⟨S_, .f32⟩ : BufTy).Contents (Elt F) → (⟨S_, .f32⟩ : BufTy).Contents (Elt F) → (⟨S_, .f32⟩ : BufTy).Contents (Elt F)),
    StableHlo.binary main_v72 main_v72 main_v95 (mulf : (⟨S32x256x16, .f32⟩ : BufTy).Contents (Elt F) → (⟨S32x256x16, .f32⟩ : BufTy).Contents (Elt F) → (⟨S32x256x16, .f32⟩ : BufTy).Contents (Elt F)),
    StableHlo.binary main_v78 main_v95 main_v96 (mulf : (⟨S32x256x16, .f32⟩ : BufTy).Contents (Elt F) → (⟨S32x256x16, .f32⟩ : BufTy).Contents (Elt F) → (⟨S32x256x16, .f32⟩ : BufTy).Contents (Elt F)),
    StableHlo.nullary main_cst_19 (constant S_ .f32 0x00000000#32),
    StableHlo.binary main_v96 main_cst_19 main_v97 ((fun x v => Host.reduceAdd x v reducesTo_S32x256x16_S32_d1_2 h_S_) : (⟨S32x256x16, .f32⟩ : BufTy).Contents (Elt F) → (⟨S_, .f32⟩ : BufTy).Contents (Elt F) → (⟨S32, .f32⟩ : BufTy).Contents (Elt F)) ]

/-- The operations of @main's third window (statements 121–149). -/
abbrev ops2 : List (HloOp τ sig (Elt F)) :=
  [ StableHlo.nullary main_cst_20 (constant S_ .f32 0x00000000#32),
    StableHlo.binary main_v78 main_cst_20 main_v98 ((fun x v => Host.reduceAdd x v reducesTo_S32x256x16_S32_d1_2 h_S_) : (⟨S32x256x16, .f32⟩ : BufTy).Contents (Elt F) → (⟨S_, .f32⟩ : BufTy).Contents (Elt F) → (⟨S32, .f32⟩ : BufTy).Contents (Elt F)),
    StableHlo.nullary main_cst_21 (constant S_ .f32 0x358637BD#32),
    StableHlo.unary main_cst_21 main_v99 (broadcastInDim S32 ![] bcast_S_S32 : (⟨S_, .f32⟩ : BufTy).Contents (Elt F) → (⟨S32, .f32⟩ : BufTy).Contents (Elt F)),
    StableHlo.binary main_v98 main_v99 main_v100 (addf : (⟨S32, .f32⟩ : BufTy).Contents (Elt F) → (⟨S32, .f32⟩ : BufTy).Contents (Elt F) → (⟨S32, .f32⟩ : BufTy).Contents (Elt F)),
    StableHlo.binary main_v97 main_v100 main_v101 (Host.divf : (⟨S32, .f32⟩ : BufTy).Contents (Elt F) → (⟨S32, .f32⟩ : BufTy).Contents (Elt F) → (⟨S32, .f32⟩ : BufTy).Contents (Elt F)),
    StableHlo.nullary main_cst_22 (constant S_ .f32 0x00000000#32),
    StableHlo.binary main_v101 main_cst_22 main_v102 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_23 (constant S_ .f32 0x42000000#32),
    StableHlo.binary main_v102 main_cst_23 main_v103 (Host.divf : (⟨S_, .f32⟩ : BufTy).Contents (Elt F) → (⟨S_, .f32⟩ : BufTy).Contents (Elt F) → (⟨S_, .f32⟩ : BufTy).Contents (Elt F)),
    StableHlo.binary main_v70 main_v70 main_v104 ((fun l r => Host.dotGeneral dot_S32x16x2048_S32x16x2048_S32x16x16_2_2_1_1_0_0 none l r) : (⟨S32x16x2048, .f32⟩ : BufTy).Contents (Elt F) → (⟨S32x16x2048, .f32⟩ : BufTy).Contents (Elt F) → (⟨S32x16x16, .f32⟩ : BufTy).Contents (Elt F)),
    StableHlo.nullary main_cst_24 (constant S_ .f32 0x3F800000#32),
    StableHlo.unary main_cst_24 main_v105 (broadcastInDim S16x16 ![] bcast_S_S16x16 : (⟨S_, .f32⟩ : BufTy).Contents (Elt F) → (⟨S16x16, .f32⟩ : BufTy).Contents (Elt F)),
    StableHlo.TRef.nullary main_call5.v0 (iotaInDim S16x16 32 0),
    StableHlo.TRef.nullary main_call5.c (constantI S_ 32 0#32),
    StableHlo.TRef.unary main_call5.c main_call5.v1 (broadcastInDim S16x16 ![] bcast_S_S16x16),
    StableHlo.TRef.binary main_call5.v0 main_call5.v1 main_call5.v2 addi,
    StableHlo.TRef.nullary main_call5.v3 (iotaInDim S16x16 32 1),
    StableHlo.TRef.binary main_call5.v2 main_call5.v3 main_call5.v4 (cmpi .sge),
    StableHlo.TRef.nullary main_call5.cst (constant S_ .f32 0x00000000#32),
    StableHlo.TRef.unary main_call5.cst main_call5.v5 (broadcastInDim S16x16 ![] bcast_S_S16x16),
    StableHlo.TRef.ternary main_call5.v4 main_call5.v5 (.of main_v105) main_call5.v6 select,
    StableHlo.TRef.nullary main_call6.cst (constant S_ .f32 0x00000000#32),
    StableHlo.TRef.unary main_call6.cst main_call6.v0 (broadcastInDim S32x16x16 ![] bcast_S_S32x16x16),
    StableHlo.TRef.binary (.of main_v104) main_call6.v0 main_call6.v1 maximumf,
    StableHlo.unary main_v106 main_v108 (broadcastInDim S1x16x16 ![1, 2] bcast_S16x16_S1x16x16_1_2 : (⟨S16x16, .f32⟩ : BufTy).Contents (Elt F) → (⟨S1x16x16, .f32⟩ : BufTy).Contents (Elt F)),
    StableHlo.unary main_v108 main_v109 (broadcastInDim S32x16x16 ![0, 1, 2] bcast_S1x16x16_S32x16x16_0_1_2 : (⟨S1x16x16, .f32⟩ : BufTy).Contents (Elt F) → (⟨S32x16x16, .f32⟩ : BufTy).Contents (Elt F)),
    StableHlo.binary main_v107 main_v109 main_v110 (mulf : (⟨S32x16x16, .f32⟩ : BufTy).Contents (Elt F) → (⟨S32x16x16, .f32⟩ : BufTy).Contents (Elt F) → (⟨S32x16x16, .f32⟩ : BufTy).Contents (Elt F)),
    StableHlo.binary main_v110 main_v110 main_v111 (mulf : (⟨S32x16x16, .f32⟩ : BufTy).Contents (Elt F) → (⟨S32x16x16, .f32⟩ : BufTy).Contents (Elt F) → (⟨S32x16x16, .f32⟩ : BufTy).Contents (Elt F)),
    StableHlo.nullary main_cst_25 (constant S_ .f32 0x00000000#32),
    StableHlo.binary main_v111 main_cst_25 main_v112 ((fun x v => Host.reduceAdd x v reducesTo_S32x16x16_S32_d1_2 h_S_) : (⟨S32x16x16, .f32⟩ : BufTy).Contents (Elt F) → (⟨S_, .f32⟩ : BufTy).Contents (Elt F) → (⟨S32, .f32⟩ : BufTy).Contents (Elt F)),
    StableHlo.nullary main_cst_26 (constant S_ .f32 0x42F00000#32),
    StableHlo.unary main_cst_26 main_v113 (broadcastInDim S32 ![] bcast_S_S32 : (⟨S_, .f32⟩ : BufTy).Contents (Elt F) → (⟨S32, .f32⟩ : BufTy).Contents (Elt F)),
    StableHlo.binary main_v112 main_v113 main_v114 (Host.divf : (⟨S32, .f32⟩ : BufTy).Contents (Elt F) → (⟨S32, .f32⟩ : BufTy).Contents (Elt F) → (⟨S32, .f32⟩ : BufTy).Contents (Elt F)),
    StableHlo.nullary main_cst_27 (constant S_ .f32 0x00000000#32),
    StableHlo.binary main_v114 main_cst_27 main_v115 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_28 (constant S_ .f32 0x42000000#32),
    StableHlo.binary main_v115 main_cst_28 main_v116 (Host.divf : (⟨S_, .f32⟩ : BufTy).Contents (Elt F) → (⟨S_, .f32⟩ : BufTy).Contents (Elt F) → (⟨S_, .f32⟩ : BufTy).Contents (Elt F)) ]

end Cert.ReferenceIdeal.Hand

end
-- ==== Proof.RefFrame.lean ====
/-
  Small facts about lists of host operations, used to cut a long straight line into stretches: an operation that
  writes one listed buffer writes inside the list; a property of every operation of two lines holds of their
  concatenation; a buffer outside a stretch's written list keeps its contents through the stretch.
-/
import proofs.«162502_j88974542504179_2_alg».proof.Proof.Gen.ReferenceIdeal
import Idealize.ShloMosaic.Lib.StableHlo.Run

namespace Cert.ReferenceIdeal.Hand

open Idealize.ShloMosaic Idealize.ShloMosaic.StableHlo Idealize.SL.Sem

variable {τ : Topo} {sig : RefSig} {Val : EltTy → Type}

/-- A single written buffer that is in the list lies in the list's set of device buffers. -/
theorem writes_ok {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

/-- What holds of every element of two lists holds of every element of their concatenation. -/
theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

/-- The fold of two lines one after the other. -/
theorem after_app (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer outside the list of buffers a stretch writes keeps its contents through the stretch. -/
theorem kept {W : List (Ref sig .tc)} {ops : List (HloOp τ sig Val)}
    (hW : ops.Forall fun op => op.writes ⊆ (W.map (Proc.devRef (τ := τ) .tc)).toFinset)
    (V : Valuation τ sig Val) {r : Ref sig .tc} (hr : r ∉ W) :
    after ops V (Proc.devRef .tc r) = V (Proc.devRef .tc r) :=
  after_of_writes_sub ops V hW hr

end Cert.ReferenceIdeal.Hand
-- ==== Proof.RefStretch.lean ====
/- Written by the transcription script scratch/gen_stretch.js (run: bun scratch/gen_stretch.js proof/Proof/RefOps.lean proofs.«162502_j88974542504179_2_alg».proof > proof/Proof/RefStretch.lean):
   the operations of RefOps.lean, the same lines in the same order, cut into ten stretches; per stretch the list of buffers it
   writes, and the three facts the run asks of every operation (it writes a listed buffer, it touches TensorCore buffers
   only, it allocates nothing). -/
import proofs.«162502_j88974542504179_2_alg».proof.Proof.RefOps
import proofs.«162502_j88974542504179_2_alg».proof.Proof.RefFrame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 1: the two reshapes, the stacking and the first affine layer (to main_v6). -/
def s1 : List (HloOp τ sig (Elt F)) :=
  [ StableHlo.reshape main_arg0 main_v0 rfl shapeCasts_S8192x768_S32x256x768,
    StableHlo.reshape main_arg1 main_v1 rfl shapeCasts_S512x768_S32x16x768,
    StableHlo.binary main_v0 main_v1 main_v2 ((fun a b => concatenate S32x272x768 1 [⟨S32x256x768, a⟩, ⟨S32x16x768, b⟩] concatenates_S32x256x768_S32x16x768_S32x272x768_d1) : (⟨S32x256x768, .f32⟩ : BufTy).Contents (Elt F) → (⟨S32x16x768, .f32⟩ : BufTy).Contents (Elt F) → (⟨S32x272x768, .f32⟩ : BufTy).Contents (Elt F)),
    StableHlo.binary main_v2 main_arg3 main_v3 ((fun l r => Host.dotGeneral dot_S32x272x768_S768x2048_S32x272x2048_2_0_01_1_n_n none l r) : (⟨S32x272x768, .f32⟩ : BufTy).Contents (Elt F) → (⟨S768x2048, .f32⟩ : BufTy).Contents (Elt F) → (⟨S32x272x2048, .f32⟩ : BufTy).Contents (Elt F)),
    StableHlo.unary main_arg4 main_v4 (broadcastInDim S1x1x2048 ![2] bcast_S2048_S1x1x2048_2 : (⟨S2048, .f32⟩ : BufTy).Contents (Elt F) → (⟨S1x1x2048, .f32⟩ : BufTy).Contents (Elt F)),
    StableHlo.unary main_v4 main_v5 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v3 main_v5 main_v6 (addf : (⟨S32x272x2048, .f32⟩ : BufTy).Contents (Elt F) → (⟨S32x272x2048, .f32⟩ : BufTy).Contents (Elt F) → (⟨S32x272x2048, .f32⟩ : BufTy).Contents (Elt F)) ]

/-- The buffers stretch 1 writes, in order. -/
def w1 : List (Ref sig .tc) :=
  [main_v0, main_v1, main_v2, main_v3, main_v4, main_v5, main_v6]

theorem s1_writes : (s1 (F := F)).Forall fun op => op.writes ⊆ (w1.map (Proc.devRef (τ := τ) .tc)).toFinset :=
  ⟨writes_ok (by decide), writes_ok (by decide), writes_ok (by decide), writes_ok (by decide), writes_ok (by decide), writes_ok (by decide), writes_ok (by decide)⟩

theorem s1_sub : (s1 (F := F)).Forall fun op => op.bufs ⊆ tcRefs τ sig :=
  ⟨reshape_bufs_sub .., reshape_bufs_sub .., binary_bufs_sub .., binary_bufs_sub .., unary_bufs_sub .., unary_bufs_sub .., binary_bufs_sub ..⟩

theorem s1_fresh : (s1 (F := F)).Forall fun op => op.fresh = ∅ :=
  ⟨rfl, rfl, rfl, rfl, rfl, rfl, rfl⟩

/-- Stretch 2: the first normalisation and clamp (to main_v25). -/
def s2 : List (HloOp τ sig (Elt F)) :=
  [ StableHlo.nullary main_cst (constant S_ .f32 0x00000000#32),
    StableHlo.binary main_v6 main_cst main_v7 ((fun x v => Host.reduceAdd x v reducesTo_S32x272x2048_S32x2048_d1 h_S_) : (⟨S32x272x2048, .f32⟩ : BufTy).Contents (Elt F) → (⟨S_, .f32⟩ : BufTy).Contents (Elt F) → (⟨S32x2048, .f32⟩ : BufTy).Contents (Elt F)),
    StableHlo.unary main_v7 main_v8 (broadcastInDim S32x1x2048 ![0, 2] bcast_S32x2048_S32x1x2048_0_2 : (⟨S32x2048, .f32⟩ : BufTy).Contents (Elt F) → (⟨S32x1x2048, .f32⟩ : BufTy).Contents (Elt F)),
    StableHlo.nullary main_cst_0 (constant S_ .f32 0x43880000#32),
    StableHlo.unary main_cst_0 main_v9 (broadcastInDim S32x1x2048 ![] bcast_S_S32x1x2048 : (⟨S_, .f32⟩ : BufTy).Contents (Elt F) → (⟨S32x1x2048, .f32⟩ : BufTy).Contents (Elt F)),
    StableHlo.binary main_v8 main_v9 main_v10 (Host.divf : (⟨S32x1x2048, .f32⟩ : BufTy).Contents (Elt F) → (⟨S32x1x2048, .f32⟩ : BufTy).Contents (Elt F) → (⟨S32x1x2048, .f32⟩ : BufTy).Contents (Elt F)),
    StableHlo.nullary main_c (constantI S_ 32 0#32),
    StableHlo.TRef.nullary main_call0.cst (constant S_ .f32 0x00000000#32),
    StableHlo.TRef.binary (.of main_v6) main_call0.cst main_call0.v0 (fun x v => Host.reduceAdd x v reducesTo_S32x272x2048_S32x2048_d1 h_S_),
    StableHlo.TRef.unary main_call0.v0 main_call0.v1 (broadcastInDim S32x1x2048 ![0, 2] bcast_S32x2048_S32x1x2048_0_2),
    StableHlo.TRef.nullary main_call0.cst_0 (constant S_ .f32 0x43880000#32),
    StableHlo.TRef.unary main_call0.cst_0 main_call0.v2 (broadcastInDim S32x1x2048 ![] bcast_S_S32x1x2048),
    StableHlo.TRef.binary main_call0.v1 main_call0.v2 main_call0.v3 Host.divf,
    StableHlo.TRef.unary main_call0.v3 main_call0.v4 (broadcastInDim S32x272x2048 ![0, 1, 2] bcast_S32x1x2048_S32x272x2048_0_1_2),
    StableHlo.TRef.binary (.of main_v6) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x43880000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S32x272x2048_S32x2048_d1 h_S_),
    StableHlo.TRef.unary main_call0.v9 main_call0.v10 (broadcastInDim S32x1x2048 ![0, 2] bcast_S32x2048_S32x1x2048_0_2),
    StableHlo.TRef.unary main_call0.v8 main_call0.v11 (broadcastInDim S32x1x2048 ![] bcast_S_S32x1x2048),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S32x1x2048 ![] bcast_S_S32x1x2048),
    StableHlo.TRef.ternary main_call0.v13 main_call0.v12 main_call0.call0.v1 main_call0.call0.v2 (fun p a b => select (broadcastInDim S32x1x2048 ![] bcast_S_S32x1x2048 p) a b),
    StableHlo.unary main_v10 main_v12 (broadcastInDim S32x272x2048 ![0, 1, 2] bcast_S32x1x2048_S32x272x2048_0_1_2 : (⟨S32x1x2048, .f32⟩ : BufTy).Contents (Elt F) → (⟨S32x272x2048, .f32⟩ : BufTy).Contents (Elt F)),
    StableHlo.binary main_v6 main_v12 main_v13 (subf : (⟨S32x272x2048, .f32⟩ : BufTy).Contents (Elt F) → (⟨S32x272x2048, .f32⟩ : BufTy).Contents (Elt F) → (⟨S32x272x2048, .f32⟩ : BufTy).Contents (Elt F)),
    StableHlo.nullary main_cst_1 (constant S_ .f32 0x3727C5AC#32),
    StableHlo.unary main_cst_1 main_v14 (broadcastInDim S32x1x2048 ![] bcast_S_S32x1x2048 : (⟨S_, .f32⟩ : BufTy).Contents (Elt F) → (⟨S32x1x2048, .f32⟩ : BufTy).Contents (Elt F)),
    StableHlo.binary main_v11 main_v14 main_v15 (addf : (⟨S32x1x2048, .f32⟩ : BufTy).Contents (Elt F) → (⟨S32x1x2048, .f32⟩ : BufTy).Contents (Elt F) → (⟨S32x1x2048, .f32⟩ : BufTy).Contents (Elt F)),
    StableHlo.unary main_v15 main_v16 (Host.rsqrt : (⟨S32x1x2048, .f32⟩ : BufTy).Contents (Elt F) → (⟨S32x1x2048, .f32⟩ : BufTy).Contents (Elt F)),
    StableHlo.unary main_v16 main_v17 (broadcastInDim S32x272x2048 ![0, 1, 2] bcast_S32x1x2048_S32x272x2048_0_1_2 : (⟨S32x1x2048, .f32⟩ : BufTy).Contents (Elt F) → (⟨S32x272x2048, .f32⟩ : BufTy).Contents (Elt F)),
    StableHlo.binary main_v13 main_v17 main_v18 (mulf : (⟨S32x272x2048, .f32⟩ : BufTy).Contents (Elt F) → (⟨S32x272x2048, .f32⟩ : BufTy).Contents (Elt F) → (⟨S32x272x2048, .f32⟩ : BufTy).Contents (Elt F)),
    StableHlo.unary main_arg5 main_v19 (broadcastInDim S1x1x2048 ![2] bcast_S2048_S1x1x2048_2 : (⟨S2048, .f32⟩ : BufTy).Contents (Elt F) → (⟨S1x1x2048, .f32⟩ : BufTy).Contents (Elt F)),
    StableHlo.unary main_v19 main_v20 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v18 main_v20 main_v21 (mulf : (⟨S32x272x2048, .f32⟩ : BufTy).Contents (Elt F) → (⟨S32x272x2048, .f32⟩ : BufTy).Contents (Elt F) → (⟨S32x272x2048, .f32⟩ : BufTy).Contents (Elt F)),
    StableHlo.unary main_arg6 main_v22 (broadcastInDim S1x1x2048 ![2] bcast_S2048_S1x1x2048_2 : (⟨S2048, .f32⟩ : BufTy).Contents (Elt F) → (⟨S1x1x2048, .f32⟩ : BufTy).Contents (Elt F)),
    StableHlo.unary main_v22 main_v23 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v21 main_v23 main_v24 (addf : (⟨S32x272x2048, .f32⟩ : BufTy).Contents (Elt F) → (⟨S32x272x2048, .f32⟩ : BufTy).Contents (Elt F) → (⟨S32x272x2048, .f32⟩ : BufTy).Contents (Elt F)),
    StableHlo.TRef.nullary main_call1.cst (constant S_ .f32 0x00000000#32),
    StableHlo.TRef.unary main_call1.cst main_call1.v0 (broadcastInDim S32x272x2048 ![] bcast_S_S32x272x2048),
    StableHlo.TRef.binary (.of main_v24) main_call1.v0 main_call1.v1 maximumf ]

/-- The buffers stretch 2 writes, in order. -/
def w2 : List (Ref sig .tc) :=
  [main_cst, main_v7, main_v8, main_cst_0, main_v9, main_v10, main_c, main_call0.cst.ref, main_call0.v0.ref, main_call0.v1.ref, main_call0.cst_0.ref, main_call0.v2.ref, main_call0.v3.ref, main_call0.v4.ref, main_call0.v5.ref, main_call0.v6.ref, main_call0.v7.ref, main_call0.cst_1.ref, main_call0.v8.ref, main_call0.cst_2.ref, main_call0.v9.ref, main_call0.v10.ref, main_call0.v11.ref, main_call0.v12.ref, main_call0.cst_3.ref, main_call0.v13.ref, main_call0.cst_4.ref, main_call0.call0.v0.ref, main_call0.call0.v1.ref, main_call0.call0.v2.ref, main_v12, main_v13, main_cst_1, main_v14, main_v15, main_v16, main_v17, main_v18, main_v19, main_v20, main_v21, main_v22, main_v23, main_v24, main_call1.cst.ref, main_call1.v0.ref, main_call1.v1.ref]

theorem s2_writes : (s2 (F := F)).Forall fun op => op.writes ⊆ (w2.map (Proc.devRef (τ := τ) .tc)).toFinset :=
  ⟨writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide)⟩

theorem s2_sub : (s2 (F := F)).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem s2_fresh : (s2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stretch 3: the second affine layer (to main_v29). -/
def s3 : List (HloOp τ sig (Elt F)) :=
  [ StableHlo.binary main_v25 main_arg7 main_v26 ((fun l r => Host.dotGeneral dot_S32x272x2048_S2048x2048_S32x272x2048_2_0_01_1_n_n none l r) : (⟨S32x272x2048, .f32⟩ : BufTy).Contents (Elt F) → (⟨S2048x2048, .f32⟩ : BufTy).Contents (Elt F) → (⟨S32x272x2048, .f32⟩ : BufTy).Contents (Elt F)),
    StableHlo.unary main_arg8 main_v27 (broadcastInDim S1x1x2048 ![2] bcast_S2048_S1x1x2048_2 : (⟨S2048, .f32⟩ : BufTy).Contents (Elt F) → (⟨S1x1x2048, .f32⟩ : BufTy).Contents (Elt F)),
    StableHlo.unary main_v27 main_v28 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v26 main_v28 main_v29 (addf : (⟨S32x272x2048, .f32⟩ : BufTy).Contents (Elt F) → (⟨S32x272x2048, .f32⟩ : BufTy).Contents (Elt F) → (⟨S32x272x2048, .f32⟩ : BufTy).Contents (Elt F)) ]

/-- The buffers stretch 3 writes, in order. -/
def w3 : List (Ref sig .tc) :=
  [main_v26, main_v27, main_v28, main_v29]

theorem s3_writes : (s3 (F := F)).Forall fun op => op.writes ⊆ (w3.map (Proc.devRef (τ := τ) .tc)).toFinset :=
  ⟨writes_ok (by decide), writes_ok (by decide), writes_ok (by decide), writes_ok (by decide)⟩

theorem s3_sub : (s3 (F := F)).Forall fun op => op.bufs ⊆ tcRefs τ sig :=
  ⟨binary_bufs_sub .., unary_bufs_sub .., unary_bufs_sub .., binary_bufs_sub ..⟩

theorem s3_fresh : (s3 (F := F)).Forall fun op => op.fresh = ∅ :=
  ⟨rfl, rfl, rfl, rfl⟩

/-- Stretch 4: the second normalisation and clamp (to main_v48). -/
def s4 : List (HloOp τ sig (Elt F)) :=
  [ StableHlo.nullary main_cst_2 (constant S_ .f32 0x00000000#32),
    StableHlo.binary main_v29 main_cst_2 main_v30 ((fun x v => Host.reduceAdd x v reducesTo_S32x272x2048_S32x2048_d1 h_S_) : (⟨S32x272x2048, .f32⟩ : BufTy).Contents (Elt F) → (⟨S_, .f32⟩ : BufTy).Contents (Elt F) → (⟨S32x2048, .f32⟩ : BufTy).Contents (Elt F)),
    StableHlo.unary main_v30 main_v31 (broadcastInDim S32x1x2048 ![0, 2] bcast_S32x2048_S32x1x2048_0_2 : (⟨S32x2048, .f32⟩ : BufTy).Contents (Elt F) → (⟨S32x1x2048, .f32⟩ : BufTy).Contents (Elt F)),
    StableHlo.nullary main_cst_3 (constant S_ .f32 0x43880000#32),
    StableHlo.unary main_cst_3 main_v32 (broadcastInDim S32x1x2048 ![] bcast_S_S32x1x2048 : (⟨S_, .f32⟩ : BufTy).Contents (Elt F) → (⟨S32x1x2048, .f32⟩ : BufTy).Contents (Elt F)),
    StableHlo.binary main_v31 main_v32 main_v33 (Host.divf : (⟨S32x1x2048, .f32⟩ : BufTy).Contents (Elt F) → (⟨S32x1x2048, .f32⟩ : BufTy).Contents (Elt F) → (⟨S32x1x2048, .f32⟩ : BufTy).Contents (Elt F)),
    StableHlo.nullary main_c_4 (constantI S_ 32 0#32),
    StableHlo.TRef.nullary main_call2.cst (constant S_ .f32 0x00000000#32),
    StableHlo.TRef.binary (.of main_v29) main_call2.cst main_call2.v0 (fun x v => Host.reduceAdd x v reducesTo_S32x272x2048_S32x2048_d1 h_S_),
    StableHlo.TRef.unary main_call2.v0 main_call2.v1 (broadcastInDim S32x1x2048 ![0, 2] bcast_S32x2048_S32x1x2048_0_2),
    StableHlo.TRef.nullary main_call2.cst_0 (constant S_ .f32 0x43880000#32),
    StableHlo.TRef.unary main_call2.cst_0 main_call2.v2 (broadcastInDim S32x1x2048 ![] bcast_S_S32x1x2048),
    StableHlo.TRef.binary main_call2.v1 main_call2.v2 main_call2.v3 Host.divf,
    StableHlo.TRef.unary main_call2.v3 main_call2.v4 (broadcastInDim S32x272x2048 ![0, 1, 2] bcast_S32x1x2048_S32x272x2048_0_1_2),
    StableHlo.TRef.binary (.of main_v29) main_call2.v4 main_call2.v5 subf,
    StableHlo.TRef.binary main_call2.v5 main_call2.v5 main_call2.v6 mulf,
    StableHlo.TRef.unary (.of main_c_4) main_call2.v7 (sitofp .f32),
    StableHlo.TRef.nullary main_call2.cst_1 (constant S_ .f32 0x43880000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32x272x2048_S32x2048_d1 h_S_),
    StableHlo.TRef.unary main_call2.v9 main_call2.v10 (broadcastInDim S32x1x2048 ![0, 2] bcast_S32x2048_S32x1x2048_0_2),
    StableHlo.TRef.unary main_call2.v8 main_call2.v11 (broadcastInDim S32x1x2048 ![] bcast_S_S32x1x2048),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S32x1x2048 ![] bcast_S_S32x1x2048),
    StableHlo.TRef.ternary main_call2.v13 main_call2.v12 main_call2.call0.v1 main_call2.call0.v2 (fun p a b => select (broadcastInDim S32x1x2048 ![] bcast_S_S32x1x2048 p) a b),
    StableHlo.unary main_v33 main_v35 (broadcastInDim S32x272x2048 ![0, 1, 2] bcast_S32x1x2048_S32x272x2048_0_1_2 : (⟨S32x1x2048, .f32⟩ : BufTy).Contents (Elt F) → (⟨S32x272x2048, .f32⟩ : BufTy).Contents (Elt F)),
    StableHlo.binary main_v29 main_v35 main_v36 (subf : (⟨S32x272x2048, .f32⟩ : BufTy).Contents (Elt F) → (⟨S32x272x2048, .f32⟩ : BufTy).Contents (Elt F) → (⟨S32x272x2048, .f32⟩ : BufTy).Contents (Elt F)),
    StableHlo.nullary main_cst_5 (constant S_ .f32 0x3727C5AC#32),
    StableHlo.unary main_cst_5 main_v37 (broadcastInDim S32x1x2048 ![] bcast_S_S32x1x2048 : (⟨S_, .f32⟩ : BufTy).Contents (Elt F) → (⟨S32x1x2048, .f32⟩ : BufTy).Contents (Elt F)),
    StableHlo.binary main_v34 main_v37 main_v38 (addf : (⟨S32x1x2048, .f32⟩ : BufTy).Contents (Elt F) → (⟨S32x1x2048, .f32⟩ : BufTy).Contents (Elt F) → (⟨S32x1x2048, .f32⟩ : BufTy).Contents (Elt F)),
    StableHlo.unary main_v38 main_v39 (Host.rsqrt : (⟨S32x1x2048, .f32⟩ : BufTy).Contents (Elt F) → (⟨S32x1x2048, .f32⟩ : BufTy).Contents (Elt F)),
    StableHlo.unary main_v39 main_v40 (broadcastInDim S32x272x2048 ![0, 1, 2] bcast_S32x1x2048_S32x272x2048_0_1_2 : (⟨S32x1x2048, .f32⟩ : BufTy).Contents (Elt F) → (⟨S32x272x2048, .f32⟩ : BufTy).Contents (Elt F)),
    StableHlo.binary main_v36 main_v40 main_v41 (mulf : (⟨S32x272x2048, .f32⟩ : BufTy).Contents (Elt F) → (⟨S32x272x2048, .f32⟩ : BufTy).Contents (Elt F) → (⟨S32x272x2048, .f32⟩ : BufTy).Contents (Elt F)),
    StableHlo.unary main_arg9 main_v42 (broadcastInDim S1x1x2048 ![2] bcast_S2048_S1x1x2048_2 : (⟨S2048, .f32⟩ : BufTy).Contents (Elt F) → (⟨S1x1x2048, .f32⟩ : BufTy).Contents (Elt F)),
    StableHlo.unary main_v42 main_v43 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v41 main_v43 main_v44 (mulf : (⟨S32x272x2048, .f32⟩ : BufTy).Contents (Elt F) → (⟨S32x272x2048, .f32⟩ : BufTy).Contents (Elt F) → (⟨S32x272x2048, .f32⟩ : BufTy).Contents (Elt F)),
    StableHlo.unary main_arg10 main_v45 (broadcastInDim S1x1x2048 ![2] bcast_S2048_S1x1x2048_2 : (⟨S2048, .f32⟩ : BufTy).Contents (Elt F) → (⟨S1x1x2048, .f32⟩ : BufTy).Contents (Elt F)),
    StableHlo.unary main_v45 main_v46 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v44 main_v46 main_v47 (addf : (⟨S32x272x2048, .f32⟩ : BufTy).Contents (Elt F) → (⟨S32x272x2048, .f32⟩ : BufTy).Contents (Elt F) → (⟨S32x272x2048, .f32⟩ : BufTy).Contents (Elt F)),
    StableHlo.TRef.nullary main_call3.cst (constant S_ .f32 0x00000000#32),
    StableHlo.TRef.unary main_call3.cst main_call3.v0 (broadcastInDim S32x272x2048 ![] bcast_S_S32x272x2048),
    StableHlo.TRef.binary (.of main_v47) main_call3.v0 main_call3.v1 maximumf ]

/-- The buffers stretch 4 writes, in order. -/
def w4 : List (Ref sig .tc) :=
  [main_cst_2, main_v30, main_v31, main_cst_3, main_v32, main_v33, main_c_4, main_call2.cst.ref, main_call2.v0.ref, main_call2.v1.ref, main_call2.cst_0.ref, main_call2.v2.ref, main_call2.v3.ref, main_call2.v4.ref, main_call2.v5.ref, main_call2.v6.ref, main_call2.v7.ref, main_call2.cst_1.ref, main_call2.v8.ref, main_call2.cst_2.ref, main_call2.v9.ref, main_call2.v10.ref, main_call2.v11.ref, main_call2.v12.ref, main_call2.cst_3.ref, main_call2.v13.ref, main_call2.cst_4.ref, main_call2.call0.v0.ref, main_call2.call0.v1.ref, main_call2.call0.v2.ref, main_v35, main_v36, main_cst_5, main_v37, main_v38, main_v39, main_v40, main_v41, main_v42, main_v43, main_v44, main_v45, main_v46, main_v47, main_call3.cst.ref, main_call3.v0.ref, main_call3.v1.ref]

theorem s4_writes : (s4 (F := F)).Forall fun op => op.writes ⊆ (w4.map (Proc.devRef (τ := τ) .tc)).toFinset :=
  ⟨writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide)⟩

theorem s4_sub : (s4 (F := F)).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

theorem s4_fresh : (s4 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stretch 5: the third affine layer (to main_v52). -/
def s5 : List (HloOp τ sig (Elt F)) :=
  [ StableHlo.binary main_v48 main_arg11 main_v49 ((fun l r => Host.dotGeneral dot_S32x272x2048_S2048x2048_S32x272x2048_2_0_01_1_n_n none l r) : (⟨S32x272x2048, .f32⟩ : BufTy).Contents (Elt F) → (⟨S2048x2048, .f32⟩ : BufTy).Contents (Elt F) → (⟨S32x272x2048, .f32⟩ : BufTy).Contents (Elt F)),
    StableHlo.unary main_arg12 main_v50 (broadcastInDim S1x1x2048 ![2] bcast_S2048_S1x1x2048_2 : (⟨S2048, .f32⟩ : BufTy).Contents (Elt F) → (⟨S1x1x2048, .f32⟩ : BufTy).Contents (Elt F)),
    StableHlo.unary main_v50 main_v51 (broadcastInDim S32x272x2048 ![0, 1, 2] bcast_S1x1x2048_S32x272x2048_0_1_2 : (⟨S1x1x2048, .f32⟩ : BufTy).Contents (Elt F) → (⟨S32x272x2048, .f32⟩ : BufTy).Contents (Elt F)),
    StableHlo.binary main_v49 main_v51 main_v52 (addf : (⟨S32x272x2048, .f32⟩ : BufTy).Contents (Elt F) → (⟨S32x272x2048, .f32⟩ : BufTy).Contents (Elt F) → (⟨S32x272x2048, .f32⟩ : BufTy).Contents (Elt F)) ]

/-- The buffers stretch 5 writes, in order. -/
def w5 : List (Ref sig .tc) :=
  [main_v49, main_v50, main_v51, main_v52]

theorem s5_writes : (s5 (F := F)).Forall fun op => op.writes ⊆ (w5.map (Proc.devRef (τ := τ) .tc)).toFinset :=
  ⟨writes_ok (by decide), writes_ok (by decide), writes_ok (by decide), writes_ok (by decide)⟩

theorem s5_sub : (s5 (F := F)).Forall fun op => op.bufs ⊆ tcRefs τ sig :=
  ⟨binary_bufs_sub .., unary_bufs_sub .., unary_bufs_sub .., binary_bufs_sub ..⟩

theorem s5_fresh : (s5 (F := F)).Forall fun op => op.fresh = ∅ :=
  ⟨rfl, rfl, rfl, rfl⟩

/-- Stretch 6: the split and the two row normalisations (to main_v62 and main_v70). -/
def s6 : List (HloOp τ sig (Elt F)) :=
  [ StableHlo.unary main_v52 main_v53 ((extractStridedSlice S32x256x2048 ![0, 0, 0] · slices_S32x272x2048_S32x256x2048_0_0_0) : (⟨S32x272x2048, .f32⟩ : BufTy).Contents (Elt F) → (⟨S32x256x2048, .f32⟩ : BufTy).Contents (Elt F)),
    StableHlo.unary main_v52 main_v54 ((extractStridedSlice S32x16x2048 ![0, 256, 0] · slices_S32x272x2048_S32x16x2048_0_256_0) : (⟨S32x272x2048, .f32⟩ : BufTy).Contents (Elt F) → (⟨S32x16x2048, .f32⟩ : BufTy).Contents (Elt F)),
    StableHlo.binary main_v53 main_v53 main_v55 (mulf : (⟨S32x256x2048, .f32⟩ : BufTy).Contents (Elt F) → (⟨S32x256x2048, .f32⟩ : BufTy).Contents (Elt F) → (⟨S32x256x2048, .f32⟩ : BufTy).Contents (Elt F)),
    StableHlo.nullary main_cst_6 (constant S_ .f32 0x00000000#32),
    StableHlo.binary main_v55 main_cst_6 main_v56 ((fun x v => Host.reduceAdd x v reducesTo_S32x256x2048_S32x256_d2 h_S_) : (⟨S32x256x2048, .f32⟩ : BufTy).Contents (Elt F) → (⟨S_, .f32⟩ : BufTy).Contents (Elt F) → (⟨S32x256, .f32⟩ : BufTy).Contents (Elt F)),
    StableHlo.unary main_v56 main_v57 (broadcastInDim S32x256x1 ![0, 1] bcast_S32x256_S32x256x1_0_1 : (⟨S32x256, .f32⟩ : BufTy).Contents (Elt F) → (⟨S32x256x1, .f32⟩ : BufTy).Contents (Elt F)),
    StableHlo.unary main_v57 main_v58 (Host.sqrt : (⟨S32x256x1, .f32⟩ : BufTy).Contents (Elt F) → (⟨S32x256x1, .f32⟩ : BufTy).Contents (Elt F)),
    StableHlo.nullary main_cst_7 (constant S_ .f32 0x322BCC77#32),
    StableHlo.unary main_cst_7 main_v59 (broadcastInDim S32x256x1 ![] bcast_S_S32x256x1 : (⟨S_, .f32⟩ : BufTy).Contents (Elt F) → (⟨S32x256x1, .f32⟩ : BufTy).Contents (Elt F)),
    StableHlo.binary main_v58 main_v59 main_v60 (maximumf : (⟨S32x256x1, .f32⟩ : BufTy).Contents (Elt F) → (⟨S32x256x1, .f32⟩ : BufTy).Contents (Elt F) → (⟨S32x256x1, .f32⟩ : BufTy).Contents (Elt F)),
    StableHlo.unary main_v60 main_v61 (broadcastInDim S32x256x2048 ![0, 1, 2] bcast_S32x256x1_S32x256x2048_0_1_2 : (⟨S32x256x1, .f32⟩ : BufTy).Contents (Elt F) → (⟨S32x256x2048, .f32⟩ : BufTy).Contents (Elt F)),
    StableHlo.binary main_v53 main_v61 main_v62 (Host.divf : (⟨S32x256x2048, .f32⟩ : BufTy).Contents (Elt F) → (⟨S32x256x2048, .f32⟩ : BufTy).Contents (Elt F) → (⟨S32x256x2048, .f32⟩ : BufTy).Contents (Elt F)),
    StableHlo.binary main_v54 main_v54 main_v63 (mulf : (⟨S32x16x2048, .f32⟩ : BufTy).Contents (Elt F) → (⟨S32x16x2048, .f32⟩ : BufTy).Contents (Elt F) → (⟨S32x16x2048, .f32⟩ : BufTy).Contents (Elt F)),
    StableHlo.nullary main_cst_8 (constant S_ .f32 0x00000000#32),
    StableHlo.binary main_v63 main_cst_8 main_v64 ((fun x v => Host.reduceAdd x v reducesTo_S32x16x2048_S32x16_d2 h_S_) : (⟨S32x16x2048, .f32⟩ : BufTy).Contents (Elt F) → (⟨S_, .f32⟩ : BufTy).Contents (Elt F) → (⟨S32x16, .f32⟩ : BufTy).Contents (Elt F)),
    StableHlo.unary main_v64 main_v65 (broadcastInDim S32x16x1 ![0, 1] bcast_S32x16_S32x16x1_0_1 : (⟨S32x16, .f32⟩ : BufTy).Contents (Elt F) → (⟨S32x16x1, .f32⟩ : BufTy).Contents (Elt F)),
    StableHlo.unary main_v65 main_v66 (Host.sqrt : (⟨S32x16x1, .f32⟩ : BufTy).Contents (Elt F) → (⟨S32x16x1, .f32⟩ : BufTy).Contents (Elt F)),
    StableHlo.nullary main_cst_9 (constant S_ .f32 0x322BCC77#32),
    StableHlo.unary main_cst_9 main_v67 (broadcastInDim S32x16x1 ![] bcast_S_S32x16x1 : (⟨S_, .f32⟩ : BufTy).Contents (Elt F) → (⟨S32x16x1, .f32⟩ : BufTy).Contents (Elt F)),
    StableHlo.binary main_v66 main_v67 main_v68 (maximumf : (⟨S32x16x1, .f32⟩ : BufTy).Contents (Elt F) → (⟨S32x16x1, .f32⟩ : BufTy).Contents (Elt F) → (⟨S32x16x1, .f32⟩ : BufTy).Contents (Elt F)),
    StableHlo.unary main_v68 main_v69 (broadcastInDim S32x16x2048 ![0, 1, 2] bcast_S32x16x1_S32x16x2048_0_1_2 : (⟨S32x16x1, .f32⟩ : BufTy).Contents (Elt F) → (⟨S32x16x2048, .f32⟩ : BufTy).Contents (Elt F)),
    StableHlo.binary main_v54 main_v69 main_v70 (Host.divf : (⟨S32x16x2048, .f32⟩ : BufTy).Contents (Elt F) → (⟨S32x16x2048, .f32⟩ : BufTy).Contents (Elt F) → (⟨S32x16x2048, .f32⟩ : BufTy).Contents (Elt F)) ]

/-- The buffers stretch 6 writes, in order. -/
def w6 : List (Ref sig .tc) :=
  [main_v53, main_v54, main_v55, main_cst_6, main_v56, main_v57, main_v58, main_cst_7, main_v59, main_v60, main_v61, main_v62, main_v63, main_cst_8, main_v64, main_v65, main_v66, main_cst_9, main_v67, main_v68, main_v69, main_v70]

theorem s6_writes : (s6 (F := F)).Forall fun op => op.writes ⊆ (w6.map (Proc.devRef (τ := τ) .tc)).toFinset :=
  ⟨writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide)⟩

theorem s6_sub : (s6 (F := F)).Forall fun op => op.bufs ⊆ tcRefs τ sig :=
  ⟨unary_bufs_sub .., unary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

theorem s6_fresh : (s6 (F := F)).Forall fun op => op.fresh = ∅ :=
  ⟨rfl, rfl, rfl, rfl, rfl, rfl, rfl, rfl, rfl, rfl, rfl, rfl, rfl, rfl, rfl, rfl, rfl, rfl, rfl, rfl, rfl, rfl⟩

/-- Stretch 7: the clamped cosine table (to main_v72). -/
def s7 : List (HloOp τ sig (Elt F)) :=
  [ StableHlo.binary main_v62 main_v70 main_v71 ((fun l r => Host.dotGeneral dot_S32x256x2048_S32x16x2048_S32x256x16_2_2_1_1_0_0 none l r) : (⟨S32x256x2048, .f32⟩ : BufTy).Contents (Elt F) → (⟨S32x16x2048, .f32⟩ : BufTy).Contents (Elt F) → (⟨S32x256x16, .f32⟩ : BufTy).Contents (Elt F)),
    StableHlo.TRef.nullary main_call4.cst (constant S_ .f32 0x00000000#32),
    StableHlo.TRef.unary main_call4.cst main_call4.v0 (broadcastInDim S32x256x16 ![] bcast_S_S32x256x16),
    StableHlo.TRef.binary (.of main_v71) main_call4.v0 main_call4.v1 maximumf ]

/-- The buffers stretch 7 writes, in order. -/
def w7 : List (Ref sig .tc) :=
  [main_v71, main_call4.cst.ref, main_call4.v0.ref, main_call4.v1.ref]

theorem s7_writes : (s7 (F := F)).Forall fun op => op.writes ⊆ (w7.map (Proc.devRef (τ := τ) .tc)).toFinset :=
  ⟨writes_ok (by decide), writes_ok (by decide), writes_ok (by decide), writes_ok (by decide)⟩

theorem s7_sub : (s7 (F := F)).Forall fun op => op.bufs ⊆ tcRefs τ sig :=
  ⟨binary_bufs_sub .., nullary_bufs_sub .., unary_bufs_sub .., binary_bufs_sub ..⟩

theorem s7_fresh : (s7 (F := F)).Forall fun op => op.fresh = ∅ :=
  ⟨rfl, rfl, rfl, rfl⟩

/-- Stretch 8: the two label indicators and the positive-label loss (to main_v78 and main_v94). -/
def s8 : List (HloOp τ sig (Elt F)) :=
  [ StableHlo.nullary main_cst_10 (constant S_ .f32 0x00000000#32),
    StableHlo.unary main_cst_10 main_v73 (broadcastInDim S32x256x16 ![] bcast_S_S32x256x16 : (⟨S_, .f32⟩ : BufTy).Contents (Elt F) → (⟨S32x256x16, .f32⟩ : BufTy).Contents (Elt F)),
    StableHlo.binary main_arg2 main_v73 main_v74 (cmpf .ogt : (⟨S32x256x16, .f32⟩ : BufTy).Contents (Elt F) → (⟨S32x256x16, .f32⟩ : BufTy).Contents (Elt F) → (⟨S32x256x16, .i1⟩ : BufTy).Contents (Elt F)),
    StableHlo.unary main_v74 main_v75 (uitofp .f32 : (⟨S32x256x16, .i1⟩ : BufTy).Contents (Elt F) → (⟨S32x256x16, .f32⟩ : BufTy).Contents (Elt F)),
    StableHlo.nullary main_cst_11 (constant S_ .f32 0x00000000#32),
    StableHlo.unary main_cst_11 main_v76 (broadcastInDim S32x256x16 ![] bcast_S_S32x256x16 : (⟨S_, .f32⟩ : BufTy).Contents (Elt F) → (⟨S32x256x16, .f32⟩ : BufTy).Contents (Elt F)),
    StableHlo.binary main_arg2 main_v76 main_v77 (cmpf .oeq : (⟨S32x256x16, .f32⟩ : BufTy).Contents (Elt F) → (⟨S32x256x16, .f32⟩ : BufTy).Contents (Elt F) → (⟨S32x256x16, .i1⟩ : BufTy).Contents (Elt F)),
    StableHlo.unary main_v77 main_v78 (uitofp .f32 : (⟨S32x256x16, .i1⟩ : BufTy).Contents (Elt F) → (⟨S32x256x16, .f32⟩ : BufTy).Contents (Elt F)),
    StableHlo.binary main_arg2 main_v72 main_v79 (subf : (⟨S32x256x16, .f32⟩ : BufTy).Contents (Elt F) → (⟨S32x256x16, .f32⟩ : BufTy).Contents (Elt F) → (⟨S32x256x16, .f32⟩ : BufTy).Contents (Elt F)),
    StableHlo.unary main_v79 main_v80 (Host.absf : (⟨S32x256x16, .f32⟩ : BufTy).Contents (Elt F) → (⟨S32x256x16, .f32⟩ : BufTy).Contents (Elt F)),
    StableHlo.nullary main_cst_12 (constant S_ .f32 0x3F800000#32),
    StableHlo.unary main_cst_12 main_v81 (broadcastInDim S32x256x16 ![] bcast_S_S32x256x16 : (⟨S_, .f32⟩ : BufTy).Contents (Elt F) → (⟨S32x256x16, .f32⟩ : BufTy).Contents (Elt F)),
    StableHlo.binary main_v81 main_v80 main_v82 (subf : (⟨S32x256x16, .f32⟩ : BufTy).Contents (Elt F) → (⟨S32x256x16, .f32⟩ : BufTy).Contents (Elt F) → (⟨S32x256x16, .f32⟩ : BufTy).Contents (Elt F)),
    StableHlo.nullary main_cst_13 (constant S_ .f32 0x358637BD#32),
    StableHlo.unary main_cst_13 main_v83 (broadcastInDim S32x256x16 ![] bcast_S_S32x256x16 : (⟨S_, .f32⟩ : BufTy).Contents (Elt F) → (⟨S32x256x16, .f32⟩ : BufTy).Contents (Elt F)),
    StableHlo.binary main_v82 main_v83 main_v84 (addf : (⟨S32x256x16, .f32⟩ : BufTy).Contents (Elt F) → (⟨S32x256x16, .f32⟩ : BufTy).Contents (Elt F) → (⟨S32x256x16, .f32⟩ : BufTy).Contents (Elt F)),
    StableHlo.unary main_v84 main_v85 (Host.log : (⟨S32x256x16, .f32⟩ : BufTy).Contents (Elt F) → (⟨S32x256x16, .f32⟩ : BufTy).Contents (Elt F)),
    StableHlo.binary main_v75 main_v85 main_v86 (mulf : (⟨S32x256x16, .f32⟩ : BufTy).Contents (Elt F) → (⟨S32x256x16, .f32⟩ : BufTy).Contents (Elt F) → (⟨S32x256x16, .f32⟩ : BufTy).Contents (Elt F)),
    StableHlo.nullary main_cst_14 (constant S_ .f32 0x00000000#32),
    StableHlo.binary main_v86 main_cst_14 main_v87 ((fun x v => Host.reduceAdd x v reducesTo_S32x256x16_S32_d1_2 h_S_) : (⟨S32x256x16, .f32⟩ : BufTy).Contents (Elt F) → (⟨S_, .f32⟩ : BufTy).Contents (Elt F) → (⟨S32, .f32⟩ : BufTy).Contents (Elt F)),
    StableHlo.unary main_v87 main_v88 (Host.negf : (⟨S32, .f32⟩ : BufTy).Contents (Elt F) → (⟨S32, .f32⟩ : BufTy).Contents (Elt F)),
    StableHlo.nullary main_cst_15 (constant S_ .f32 0x00000000#32),
    StableHlo.binary main_v75 main_cst_15 main_v89 ((fun x v => Host.reduceAdd x v reducesTo_S32x256x16_S32_d1_2 h_S_) : (⟨S32x256x16, .f32⟩ : BufTy).Contents (Elt F) → (⟨S_, .f32⟩ : BufTy).Contents (Elt F) → (⟨S32, .f32⟩ : BufTy).Contents (Elt F)),
    StableHlo.nullary main_cst_16 (constant S_ .f32 0x358637BD#32),
    StableHlo.unary main_cst_16 main_v90 (broadcastInDim S32 ![] bcast_S_S32 : (⟨S_, .f32⟩ : BufTy).Contents (Elt F) → (⟨S32, .f32⟩ : BufTy).Contents (Elt F)),
    StableHlo.binary main_v89 main_v90 main_v91 (addf : (⟨S32, .f32⟩ : BufTy).Contents (Elt F) → (⟨S32, .f32⟩ : BufTy).Contents (Elt F) → (⟨S32, .f32⟩ : BufTy).Contents (Elt F)),
    StableHlo.binary main_v88 main_v91 main_v92 (Host.divf : (⟨S32, .f32⟩ : BufTy).Contents (Elt F) → (⟨S32, .f32⟩ : BufTy).Contents (Elt F) → (⟨S32, .f32⟩ : BufTy).Contents (Elt F)),
    StableHlo.nullary main_cst_17 (constant S_ .f32 0x00000000#32),
    StableHlo.binary main_v92 main_cst_17 main_v93 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_18 (constant S_ .f32 0x42000000#32),
    StableHlo.binary main_v93 main_cst_18 main_v94 (Host.divf : (⟨S_, .f32⟩ : BufTy).Contents (Elt F) → (⟨S_, .f32⟩ : BufTy).Contents (Elt F) → (⟨S_, .f32⟩ : BufTy).Contents (Elt F)) ]

/-- The buffers stretch 8 writes, in order. -/
def w8 : List (Ref sig .tc) :=
  [main_cst_10, main_v73, main_v74, main_v75, main_cst_11, main_v76, main_v77, main_v78, main_v79, main_v80, main_cst_12, main_v81, main_v82, main_cst_13, main_v83, main_v84, main_v85, main_v86, main_cst_14, main_v87, main_v88, main_cst_15, main_v89, main_cst_16, main_v90, main_v91, main_v92, main_cst_17, main_v93, main_cst_18, main_v94]

theorem s8_writes : (s8 (F := F)).Forall fun op => op.writes ⊆ (w8.map (Proc.devRef (τ := τ) .tc)).toFinset :=
  ⟨writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide)⟩

theorem s8_sub : (s8 (F := F)).Forall fun op => op.bufs ⊆ tcRefs τ sig :=
  ⟨nullary_bufs_sub .., unary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., nullary_bufs_sub .., binary_bufs_sub .., nullary_bufs_sub .., unary_bufs_sub .., binary_bufs_sub .., binary_bufs_sub .., nullary_bufs_sub .., binary_bufs_sub .., nullary_bufs_sub .., binary_bufs_sub ..⟩

theorem s8_fresh : (s8 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Stretch 9: the zero-label loss (to main_v103). -/
def s9 : List (HloOp τ sig (Elt F)) :=
  [ StableHlo.binary main_v72 main_v72 main_v95 (mulf : (⟨S32x256x16, .f32⟩ : BufTy).Contents (Elt F) → (⟨S32x256x16, .f32⟩ : BufTy).Contents (Elt F) → (⟨S32x256x16, .f32⟩ : BufTy).Contents (Elt F)),
    StableHlo.binary main_v78 main_v95 main_v96 (mulf : (⟨S32x256x16, .f32⟩ : BufTy).Contents (Elt F) → (⟨S32x256x16, .f32⟩ : BufTy).Contents (Elt F) → (⟨S32x256x16, .f32⟩ : BufTy).Contents (Elt F)),
    StableHlo.nullary main_cst_19 (constant S_ .f32 0x00000000#32),
    StableHlo.binary main_v96 main_cst_19 main_v97 ((fun x v => Host.reduceAdd x v reducesTo_S32x256x16_S32_d1_2 h_S_) : (⟨S32x256x16, .f32⟩ : BufTy).Contents (Elt F) → (⟨S_, .f32⟩ : BufTy).Contents (Elt F) → (⟨S32, .f32⟩ : BufTy).Contents (Elt F)),
    StableHlo.nullary main_cst_20 (constant S_ .f32 0x00000000#32),
    StableHlo.binary main_v78 main_cst_20 main_v98 ((fun x v => Host.reduceAdd x v reducesTo_S32x256x16_S32_d1_2 h_S_) : (⟨S32x256x16, .f32⟩ : BufTy).Contents (Elt F) → (⟨S_, .f32⟩ : BufTy).Contents (Elt F) → (⟨S32, .f32⟩ : BufTy).Contents (Elt F)),
    StableHlo.nullary main_cst_21 (constant S_ .f32 0x358637BD#32),
    StableHlo.unary main_cst_21 main_v99 (broadcastInDim S32 ![] bcast_S_S32 : (⟨S_, .f32⟩ : BufTy).Contents (Elt F) → (⟨S32, .f32⟩ : BufTy).Contents (Elt F)),
    StableHlo.binary main_v98 main_v99 main_v100 (addf : (⟨S32, .f32⟩ : BufTy).Contents (Elt F) → (⟨S32, .f32⟩ : BufTy).Contents (Elt F) → (⟨S32, .f32⟩ : BufTy).Contents (Elt F)),
    StableHlo.binary main_v97 main_v100 main_v101 (Host.divf : (⟨S32, .f32⟩ : BufTy).Contents (Elt F) → (⟨S32, .f32⟩ : BufTy).Contents (Elt F) → (⟨S32, .f32⟩ : BufTy).Contents (Elt F)),
    StableHlo.nullary main_cst_22 (constant S_ .f32 0x00000000#32),
    StableHlo.binary main_v101 main_cst_22 main_v102 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_23 (constant S_ .f32 0x42000000#32),
    StableHlo.binary main_v102 main_cst_23 main_v103 (Host.divf : (⟨S_, .f32⟩ : BufTy).Contents (Elt F) → (⟨S_, .f32⟩ : BufTy).Contents (Elt F) → (⟨S_, .f32⟩ : BufTy).Contents (Elt F)) ]

/-- The buffers stretch 9 writes, in order. -/
def w9 : List (Ref sig .tc) :=
  [main_v95, main_v96, main_cst_19, main_v97, main_cst_20, main_v98, main_cst_21, main_v99, main_v100, main_v101, main_cst_22, main_v102, main_cst_23, main_v103]

theorem s9_writes : (s9 (F := F)).Forall fun op => op.writes ⊆ (w9.map (Proc.devRef (τ := τ) .tc)).toFinset :=
  ⟨writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide)⟩

theorem s9_sub : (s9 (F := F)).Forall fun op => op.bufs ⊆ tcRefs τ sig :=
  ⟨binary_bufs_sub .., binary_bufs_sub .., nullary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub ..⟩

theorem s9_fresh : (s9 (F := F)).Forall fun op => op.fresh = ∅ :=
  ⟨rfl, rfl, rfl, rfl, rfl, rfl, rfl, rfl, rfl, rfl, rfl, rfl, rfl, rfl⟩

/-- Stretch 10: the pairwise regulariser (to main_v116). -/
def s10 : List (HloOp τ sig (Elt F)) :=
  [ StableHlo.binary main_v70 main_v70 main_v104 ((fun l r => Host.dotGeneral dot_S32x16x2048_S32x16x2048_S32x16x16_2_2_1_1_0_0 none l r) : (⟨S32x16x2048, .f32⟩ : BufTy).Contents (Elt F) → (⟨S32x16x2048, .f32⟩ : BufTy).Contents (Elt F) → (⟨S32x16x16, .f32⟩ : BufTy).Contents (Elt F)),
    StableHlo.nullary main_cst_24 (constant S_ .f32 0x3F800000#32),
    StableHlo.unary main_cst_24 main_v105 (broadcastInDim S16x16 ![] bcast_S_S16x16 : (⟨S_, .f32⟩ : BufTy).Contents (Elt F) → (⟨S16x16, .f32⟩ : BufTy).Contents (Elt F)),
    StableHlo.TRef.nullary main_call5.v0 (iotaInDim S16x16 32 0),
    StableHlo.TRef.nullary main_call5.c (constantI S_ 32 0#32),
    StableHlo.TRef.unary main_call5.c main_call5.v1 (broadcastInDim S16x16 ![] bcast_S_S16x16),
    StableHlo.TRef.binary main_call5.v0 main_call5.v1 main_call5.v2 addi,
    StableHlo.TRef.nullary main_call5.v3 (iotaInDim S16x16 32 1),
    StableHlo.TRef.binary main_call5.v2 main_call5.v3 main_call5.v4 (cmpi .sge),
    StableHlo.TRef.nullary main_call5.cst (constant S_ .f32 0x00000000#32),
    StableHlo.TRef.unary main_call5.cst main_call5.v5 (broadcastInDim S16x16 ![] bcast_S_S16x16),
    StableHlo.TRef.ternary main_call5.v4 main_call5.v5 (.of main_v105) main_call5.v6 select,
    StableHlo.TRef.nullary main_call6.cst (constant S_ .f32 0x00000000#32),
    StableHlo.TRef.unary main_call6.cst main_call6.v0 (broadcastInDim S32x16x16 ![] bcast_S_S32x16x16),
    StableHlo.TRef.binary (.of main_v104) main_call6.v0 main_call6.v1 maximumf,
    StableHlo.unary main_v106 main_v108 (broadcastInDim S1x16x16 ![1, 2] bcast_S16x16_S1x16x16_1_2 : (⟨S16x16, .f32⟩ : BufTy).Contents (Elt F) → (⟨S1x16x16, .f32⟩ : BufTy).Contents (Elt F)),
    StableHlo.unary main_v108 main_v109 (broadcastInDim S32x16x16 ![0, 1, 2] bcast_S1x16x16_S32x16x16_0_1_2 : (⟨S1x16x16, .f32⟩ : BufTy).Contents (Elt F) → (⟨S32x16x16, .f32⟩ : BufTy).Contents (Elt F)),
    StableHlo.binary main_v107 main_v109 main_v110 (mulf : (⟨S32x16x16, .f32⟩ : BufTy).Contents (Elt F) → (⟨S32x16x16, .f32⟩ : BufTy).Contents (Elt F) → (⟨S32x16x16, .f32⟩ : BufTy).Contents (Elt F)),
    StableHlo.binary main_v110 main_v110 main_v111 (mulf : (⟨S32x16x16, .f32⟩ : BufTy).Contents (Elt F) → (⟨S32x16x16, .f32⟩ : BufTy).Contents (Elt F) → (⟨S32x16x16, .f32⟩ : BufTy).Contents (Elt F)),
    StableHlo.nullary main_cst_25 (constant S_ .f32 0x00000000#32),
    StableHlo.binary main_v111 main_cst_25 main_v112 ((fun x v => Host.reduceAdd x v reducesTo_S32x16x16_S32_d1_2 h_S_) : (⟨S32x16x16, .f32⟩ : BufTy).Contents (Elt F) → (⟨S_, .f32⟩ : BufTy).Contents (Elt F) → (⟨S32, .f32⟩ : BufTy).Contents (Elt F)),
    StableHlo.nullary main_cst_26 (constant S_ .f32 0x42F00000#32),
    StableHlo.unary main_cst_26 main_v113 (broadcastInDim S32 ![] bcast_S_S32 : (⟨S_, .f32⟩ : BufTy).Contents (Elt F) → (⟨S32, .f32⟩ : BufTy).Contents (Elt F)),
    StableHlo.binary main_v112 main_v113 main_v114 (Host.divf : (⟨S32, .f32⟩ : BufTy).Contents (Elt F) → (⟨S32, .f32⟩ : BufTy).Contents (Elt F) → (⟨S32, .f32⟩ : BufTy).Contents (Elt F)),
    StableHlo.nullary main_cst_27 (constant S_ .f32 0x00000000#32),
    StableHlo.binary main_v114 main_cst_27 main_v115 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    StableHlo.nullary main_cst_28 (constant S_ .f32 0x42000000#32),
    StableHlo.binary main_v115 main_cst_28 main_v116 (Host.divf : (⟨S_, .f32⟩ : BufTy).Contents (Elt F) → (⟨S_, .f32⟩ : BufTy).Contents (Elt F) → (⟨S_, .f32⟩ : BufTy).Contents (Elt F)) ]

/-- The buffers stretch 10 writes, in order. -/
def w10 : List (Ref sig .tc) :=
  [main_v104, main_cst_24, main_v105, main_call5.v0.ref, main_call5.c.ref, main_call5.v1.ref, main_call5.v2.ref, main_call5.v3.ref, main_call5.v4.ref, main_call5.cst.ref, main_call5.v5.ref, main_call5.v6.ref, main_call6.cst.ref, main_call6.v0.ref, main_call6.v1.ref, main_v108, main_v109, main_v110, main_v111, main_cst_25, main_v112, main_cst_26, main_v113, main_v114, main_cst_27, main_v115, main_cst_28, main_v116]

theorem s10_writes : (s10 (F := F)).Forall fun op => op.writes ⊆ (w10.map (Proc.devRef (τ := τ) .tc)).toFinset :=
  ⟨writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide), writes_ok (by decide)⟩

theorem s10_sub : (s10 (F := F)).Forall fun op => op.bufs ⊆ tcRefs τ sig :=
  ⟨binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub ..⟩

theorem s10_fresh : (s10 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The ten stretches in order. -/
def allS : List (HloOp τ sig (Elt F)) :=
  s1 ++ (s2 ++ (s3 ++ (s4 ++ (s5 ++ (s6 ++ (s7 ++ (s8 ++ (s9 ++ (s10)))))))))

/-- The three windows' operations are the ten stretches. -/
theorem cut : (ops0 ++ (ops1 ++ ops2) : List (HloOp τ sig (Elt F))) = allS := rfl

end Cert.ReferenceIdeal.Hand

end
-- ==== Proof.RefMain.lean ====
/-
  The reference program is a straight line of host operations.  Each printed window of @main is the sequence of its
  own operations, the outlined functions unfolded at their calls over the call's buffers; the three windows one after
  the other are the ten stretches in order.  Hence every weakly fair execution of @main ends with each TensorCore
  buffer at the fold of the ten stretches over the launch contents.
-/
import proofs.«162502_j88974542504179_2_alg».proof.Proof.RefStretch

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

-- one re-association per statement: the rewrite under the chain of binds recurses once per operation
set_option maxRecDepth 16384 in
set_option maxHeartbeats 4000000 in
/-- The first window: the variance and clamp functions unfolded at their two calls each. -/
theorem part0_eq (c : Dev nD) : main_part0 (F := F) c = seq ops0 := by
  simp only [main_part0, fn_var.body, fn_where.body, fn_relu.body, seq, bind_assoc, pure_bind]
  rfl

set_option maxRecDepth 16384 in
set_option maxHeartbeats 4000000 in
/-- The second window: one clamp unfolded at its call. -/
theorem part1_eq (c : Dev nD) : main_part1 (F := F) c = seq ops1 := by
  simp only [main_part1, fn_relu_0.body, seq, bind_assoc, pure_bind]
  rfl

set_option maxRecDepth 16384 in
set_option maxHeartbeats 4000000 in
/-- The third window: the triangle mask and the last clamp unfolded at their calls; it ends with the return, as the
    sequence does. -/
theorem part2_eq (c : Dev nD) : main_part2 (F := F) c = seq ops2 := by
  simp only [main_part2, fn_triu.body, fn_relu_1.body, seq, bind_assoc, pure_bind]

/-- @main runs its three windows in order, so it is the ten stretches run in order. -/
theorem main_eq (c : Dev nD) : main (F := F) c = seq allS := by
  rw [← cut, seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation of the line touches TensorCore buffers only. -/
theorem allS_sub : (allS (F := F)).Forall fun op => op.bufs ⊆ tcRefs τ sig :=
  forall_append s1_sub (forall_append s2_sub (forall_append s3_sub (forall_append s4_sub (forall_append s5_sub
    (forall_append s6_sub (forall_append s7_sub (forall_append s8_sub (forall_append s9_sub s10_sub))))))))

/-- No operation of the line allocates a buffer. -/
theorem allS_fresh : ∀ op ∈ (allS (F := F)), op.fresh = ∅ :=
  List.forall_iff_forall_mem.1
    (forall_append s1_fresh (forall_append s2_fresh (forall_append s3_fresh (forall_append s4_fresh (forall_append s5_fresh
      (forall_append s6_fresh (forall_append s7_fresh (forall_append s8_fresh (forall_append s9_fresh s10_fresh)))))))))

/-- On every device, for any float values, from any memory with zero counters: every weakly fair execution of @main
    terminates, and every final state has each TensorCore buffer at the fold of the ten stretches over the launch
    contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after allS (launchContents m c) (b : DevRef τ sig) :=
  run_seq scopedRefs_eq scopedSems_eq defs main (fun _ => allS) main_eq (fun _ => allS_sub) m ρ (fun _ => allS_fresh)

end Cert.ReferenceIdeal.Hand

end
-- ==== Proof.RefFn.lean ====
/-
  The reference program's arithmetic as whole-array functions, one per stretch of its operations: the first affine
  layer over the stacked rows, the normalisation-and-clamp, the later affine layers, the two row normalisations, the
  clamped cosine table, the three per-sample losses and the mean over the 32 samples.  Each is literally the
  composition of the host operations of that stretch, so that the run of the program ends at their composition.
-/
import proofs.«162502_j88974542504179_2_alg».proof.Proof.Gen.ReferenceIdeal
import Idealize.ShloMosaic.PureOps.Ideal

noncomputable section

namespace Cert.ReferenceIdeal.RefFn

open Idealize.ShloMosaic Cert.ReferenceIdeal Cert.ReferenceIdeal.Gen

/-- A float array of the reference, read at the extended reals. -/
abbrev A (s : Shape) : Type := FVec Ideal s .f32
/-- A scalar float literal. -/
abbrev k (b : BitVec 32) : A S_ := constant (F := Ideal) S_ .f32 b

/-- A per-column parameter [2048] laid along the last axis of [32, 272, 2048]. -/
def col (b : A S2048) : A S32x272x2048 :=
  broadcastInDim S32x272x2048 ![0, 1, 2] bcast_S1x1x2048_S32x272x2048_0_1_2 (broadcastInDim S1x1x2048 ![2] bcast_S2048_S1x1x2048_2 b)

/-- A per-sample, per-column statistic [32, 1, 2048] repeated over the 272 rows. -/
def rep (y : A S32x1x2048) : A S32x272x2048 :=
  broadcastInDim S32x272x2048 ![0, 1, 2] bcast_S32x1x2048_S32x272x2048_0_1_2 y

/-- The sum over the rows, kept as [32, 1, 2048]. -/
def rowSum (x : A S32x272x2048) : A S32x1x2048 :=
  broadcastInDim S32x1x2048 ![0, 2] bcast_S32x2048_S32x1x2048_0_2 (Host.reduceAdd x (k 0x00000000#32) reducesTo_S32x272x2048_S32x2048_d1 h_S_)

/-- The first affine layer over the stacked rows. -/
def lin1 (X : A S32x256x768) (B : A S32x16x768) (w : A S768x2048) (b : A S2048) : A S32x272x2048 :=
  addf (Host.dotGeneral dot_S32x272x768_S768x2048_S32x272x2048_2_0_01_1_n_n none
      (concatenate S32x272x768 1 [⟨S32x256x768, X⟩, ⟨S32x16x768, B⟩] concatenates_S32x256x768_S32x16x768_S32x272x768_d1) w)
    (col b)

/-- The column means. -/
def mean (x : A S32x272x2048) : A S32x1x2048 :=
  Host.divf (rowSum x) (broadcastInDim S32x1x2048 ![] bcast_S_S32x1x2048 (k 0x43880000#32))

/-- The rows minus their column means. -/
def center (x : A S32x272x2048) : A S32x272x2048 := subf x (rep (mean x))

/-- The divisor of the variance: the row count minus the correction 0. -/
def count : A S_ := subf (k 0x43880000#32) (sitofp .f32 (constantI S_ 32 0#32))

/-- The column variances (guarded by the divisor being positive). -/
def var (x : A S32x272x2048) : A S32x1x2048 :=
  select (broadcastInDim S32x1x2048 ![] bcast_S_S32x1x2048 (cmpf .ogt count (k 0x00000000#32)))
    (Host.divf (rowSum (mulf (center x) (center x))) (broadcastInDim S32x1x2048 ![] bcast_S_S32x1x2048 count))
    (broadcastInDim S32x1x2048 ![] bcast_S_S32x1x2048 (id (k 0x7FC00000#32)))

/-- Normalise, scale, shift, clamp at zero. -/
def bnRelu (x : A S32x272x2048) (g be : A S2048) : A S32x272x2048 :=
  maximumf
    (addf (mulf (mulf (center x) (rep (Host.rsqrt (addf (var x) (broadcastInDim S32x1x2048 ![] bcast_S_S32x1x2048 (k 0x3727C5AC#32)))))) (col g)) (col be))
    (broadcastInDim S32x272x2048 ![] bcast_S_S32x272x2048 (k 0x00000000#32))

/-- A later affine layer. -/
def lin (x : A S32x272x2048) (w : A S2048x2048) (b : A S2048) : A S32x272x2048 :=
  addf (Host.dotGeneral dot_S32x272x2048_S2048x2048_S32x272x2048_2_0_01_1_n_n none x w) (col b)

/-- The feature rows. -/
def feat (h : A S32x272x2048) : A S32x256x2048 := extractStridedSlice S32x256x2048 ![0, 0, 0] h slices_S32x272x2048_S32x256x2048_0_0_0
/-- The basis rows. -/
def base (h : A S32x272x2048) : A S32x16x2048 := extractStridedSlice S32x16x2048 ![0, 256, 0] h slices_S32x272x2048_S32x16x2048_0_256_0

/-- Feature rows divided by their floored lengths. -/
def unitF (p : A S32x256x2048) : A S32x256x2048 :=
  Host.divf p (broadcastInDim S32x256x2048 ![0, 1, 2] bcast_S32x256x1_S32x256x2048_0_1_2
    (maximumf (Host.sqrt (broadcastInDim S32x256x1 ![0, 1] bcast_S32x256_S32x256x1_0_1
        (Host.reduceAdd (mulf p p) (k 0x00000000#32) reducesTo_S32x256x2048_S32x256_d2 h_S_)))
      (broadcastInDim S32x256x1 ![] bcast_S_S32x256x1 (k 0x322BCC77#32))))

/-- Basis rows divided by their floored lengths. -/
def unitB (p : A S32x16x2048) : A S32x16x2048 :=
  Host.divf p (broadcastInDim S32x16x2048 ![0, 1, 2] bcast_S32x16x1_S32x16x2048_0_1_2
    (maximumf (Host.sqrt (broadcastInDim S32x16x1 ![0, 1] bcast_S32x16_S32x16x1_0_1
        (Host.reduceAdd (mulf p p) (k 0x00000000#32) reducesTo_S32x16x2048_S32x16_d2 h_S_)))
      (broadcastInDim S32x16x1 ![] bcast_S_S32x16x1 (k 0x322BCC77#32))))

/-- The clamped cosine table of features against bases. -/
def cosT (u : A S32x256x2048) (v : A S32x16x2048) : A S32x256x16 :=
  maximumf (Host.dotGeneral dot_S32x256x2048_S32x16x2048_S32x256x16_2_2_1_1_0_0 none u v)
    (broadcastInDim S32x256x16 ![] bcast_S_S32x256x16 (k 0x00000000#32))

/-- The indicator of a comparison of the labels with zero, as floats. -/
def ind (p : CmpFPredicate) (L : A S32x256x16) : A S32x256x16 :=
  uitofp .f32 (cmpf p L (broadcastInDim S32x256x16 ![] bcast_S_S32x256x16 (k 0x00000000#32)))

/-- The sum over a sample's label table. -/
def tabSum (x : A S32x256x16) : A S32 := Host.reduceAdd x (k 0x00000000#32) reducesTo_S32x256x16_S32_d1_2 h_S_

/-- The positive-label loss per sample. -/
def posPer (L p : A S32x256x16) : A S32 :=
  Host.divf
    (Host.negf (tabSum (mulf (ind .ogt L)
      (Host.log (addf (subf (broadcastInDim S32x256x16 ![] bcast_S_S32x256x16 (k 0x3F800000#32)) (Host.absf (subf L p)))
        (broadcastInDim S32x256x16 ![] bcast_S_S32x256x16 (k 0x358637BD#32)))))))
    (addf (tabSum (ind .ogt L)) (broadcastInDim S32 ![] bcast_S_S32 (k 0x358637BD#32)))

/-- The zero-label loss per sample. -/
def negPer (L p : A S32x256x16) : A S32 :=
  Host.divf (tabSum (mulf (ind .oeq L) (mulf p p)))
    (addf (tabSum (ind .oeq L)) (broadcastInDim S32 ![] bcast_S_S32 (k 0x358637BD#32)))

/-- One strictly above the diagonal of a 16×16 table, zero elsewhere. -/
def upper : A S16x16 :=
  select (cmpi .sge (addi (iotaInDim S16x16 32 0) (broadcastInDim S16x16 ![] bcast_S_S16x16 (constantI S_ 32 0#32))) (iotaInDim S16x16 32 1))
    (broadcastInDim S16x16 ![] bcast_S_S16x16 (k 0x00000000#32))
    (broadcastInDim S16x16 ![] bcast_S_S16x16 (k 0x3F800000#32))

/-- The pairwise regulariser per sample. -/
def regPer (v : A S32x16x2048) : A S32 :=
  Host.divf
    (Host.reduceAdd
      (mulf
        (mulf (maximumf (Host.dotGeneral dot_S32x16x2048_S32x16x2048_S32x16x16_2_2_1_1_0_0 none v v)
            (broadcastInDim S32x16x16 ![] bcast_S_S32x16x16 (k 0x00000000#32)))
          (broadcastInDim S32x16x16 ![0, 1, 2] bcast_S1x16x16_S32x16x16_0_1_2 (broadcastInDim S1x16x16 ![1, 2] bcast_S16x16_S1x16x16_1_2 upper)))
        (mulf (maximumf (Host.dotGeneral dot_S32x16x2048_S32x16x2048_S32x16x16_2_2_1_1_0_0 none v v)
            (broadcastInDim S32x16x16 ![] bcast_S_S32x16x16 (k 0x00000000#32)))
          (broadcastInDim S32x16x16 ![0, 1, 2] bcast_S1x16x16_S32x16x16_0_1_2 (broadcastInDim S1x16x16 ![1, 2] bcast_S16x16_S1x16x16_1_2 upper))))
      (k 0x00000000#32) reducesTo_S32x16x16_S32_d1_2 h_S_)
    (broadcastInDim S32 ![] bcast_S_S32 (k 0x42F00000#32))

/-- The mean over the 32 samples. -/
def meanB (p : A S32) : A S_ :=
  Host.divf (Host.reduceAdd p (k 0x00000000#32) reducesTo_S32_S_d0 h_S_) (k 0x42000000#32)

/-- The rows after the three layers. -/
def hidden (X : A S32x256x768) (B : A S32x16x768) (w1 : A S768x2048) (b1 g1 be1 : A S2048)
    (w2 : A S2048x2048) (b2 g2 be2 : A S2048) (w3 : A S2048x2048) (b3 : A S2048) : A S32x272x2048 :=
  lin (bnRelu (lin (bnRelu (lin1 X B w1 b1) g1 be1) w2 b2) g2 be2) w3 b3

end Cert.ReferenceIdeal.RefFn

end
-- ==== Proof.RefValA.lean ====
/-
  What the short stretches of the reference leave in their result buffers, from any contents: the first affine layer
  over the stacked rows, the two later affine layers, the split into feature and basis rows with each row divided by
  its floored length, and the clamped table of inner products.  Each is the fold of the stretch's operations read at
  its result buffer; the composed term is the whole-array function of that stage by unfolding.
-/
import proofs.«162502_j88974542504179_2_alg».proof.Proof.RefStretch
import proofs.«162502_j88974542504179_2_alg».proof.Proof.RefFn

noncomputable section

namespace Cert.ReferenceIdeal.Hand

open Cert.ReferenceIdeal Cert.ReferenceIdeal.Gen Idealize.ShloMosaic Idealize.ShloMosaic.TcCoe Idealize.SL.Sem Idealize.ShloMosaic.StableHlo

-- the sums and the stacking are compared as applications, never opened
attribute [local irreducible] Host.reduceAdd concatenate

/-- Stretch 1 leaves the first affine layer of the stacked rows in main_v6. -/
theorem s1_v6 (V : Valuation τ sig (Elt Ideal)) :
    after s1 V (main_v6 : DevRef τ sig)
      = RefFn.lin1 (shapeCast S32x256x768 (V (main_arg0 : DevRef τ sig)) shapeCasts_S8192x768_S32x256x768)
          (shapeCast S32x16x768 (V (main_arg1 : DevRef τ sig)) shapeCasts_S512x768_S32x16x768)
          (V (main_arg3 : DevRef τ sig)) (V (main_arg4 : DevRef τ sig)) := by
  unfold s1
  after_results_simp <;> rfl

/-- Stretch 3 leaves the second affine layer in main_v29. -/
theorem s3_v29 (V : Valuation τ sig (Elt Ideal)) :
    after s3 V (main_v29 : DevRef τ sig)
      = RefFn.lin (V (main_v25 : DevRef τ sig)) (V (main_arg7 : DevRef τ sig)) (V (main_arg8 : DevRef τ sig)) := by
  unfold s3
  after_results_simp <;> rfl

/-- Stretch 5 leaves the third affine layer in main_v52. -/
theorem s5_v52 (V : Valuation τ sig (Elt Ideal)) :
    after s5 V (main_v52 : DevRef τ sig)
      = RefFn.lin (V (main_v48 : DevRef τ sig)) (V (main_arg11 : DevRef τ sig)) (V (main_arg12 : DevRef τ sig)) := by
  unfold s5
  after_results_simp <;> rfl

set_option maxHeartbeats 1000000 in
/-- Stretch 6 leaves the feature rows, each divided by its floored length, in main_v62. -/
theorem s6_v62 (V : Valuation τ sig (Elt Ideal)) :
    after s6 V (main_v62 : DevRef τ sig) = RefFn.unitF (RefFn.feat (V (main_v52 : DevRef τ sig))) := by
  unfold s6
  after_results_simp <;> rfl

set_option maxHeartbeats 1000000 in
/-- Stretch 6 leaves the basis rows, each divided by its floored length, in main_v70. -/
theorem s6_v70 (V : Valuation τ sig (Elt Ideal)) :
    after s6 V (main_v70 : DevRef τ sig) = RefFn.unitB (RefFn.base (V (main_v52 : DevRef τ sig))) := by
  unfold s6
  after_results_simp <;> rfl

/-- Stretch 7 leaves the clamped inner products of the unit rows in main_v72. -/
theorem s7_v72 (V : Valuation τ sig (Elt Ideal)) :
    after s7 V (main_v72 : DevRef τ sig)
      = RefFn.cosT (V (main_v62 : DevRef τ sig)) (V (main_v70 : DevRef τ sig)) := by
  unfold s7
  after_results_simp <;> rfl

end Cert.ReferenceIdeal.Hand

end
-- ==== Proof.RefValB.lean ====
/-
  What the two normalisation stretches of the reference leave in their result buffers, from any contents: the column
  means and two-pass variances over the 272 rows (the variance through the outlined function, which computes the mean
  a second time and guards the divisor), the reciprocal square root, scale, shift and the clamp at zero.  Each is the
  fold of the stretch's operations read at its result buffer; the composed term is the whole-array normalisation by
  unfolding.
-/
import proofs.«162502_j88974542504179_2_alg».proof.Proof.RefStretch
import proofs.«162502_j88974542504179_2_alg».proof.Proof.RefFn

noncomputable section

namespace Cert.ReferenceIdeal.Hand

open Cert.ReferenceIdeal Cert.ReferenceIdeal.Gen Idealize.ShloMosaic Idealize.ShloMosaic.TcCoe Idealize.SL.Sem Idealize.ShloMosaic.StableHlo

-- the sums and the stacking are compared as applications, never opened
attribute [local irreducible] Host.reduceAdd concatenate

set_option maxHeartbeats 4000000 in
/-- Stretch 2 leaves the first normalisation and clamp of main_v6 in main_v25. -/
theorem s2_v25 (V : Valuation τ sig (Elt Ideal)) :
    after s2 V (main_v25 : DevRef τ sig)
      = RefFn.bnRelu (V (main_v6 : DevRef τ sig)) (V (main_arg5 : DevRef τ sig)) (V (main_arg6 : DevRef τ sig)) := by
  unfold s2
  after_results_simp <;> rfl

set_option maxHeartbeats 4000000 in
/-- Stretch 4 leaves the second normalisation and clamp of main_v29 in main_v48. -/
theorem s4_v48 (V : Valuation τ sig (Elt Ideal)) :
    after s4 V (main_v48 : DevRef τ sig)
      = RefFn.bnRelu (V (main_v29 : DevRef τ sig)) (V (main_arg9 : DevRef τ sig)) (V (main_arg10 : DevRef τ sig)) := by
  unfold s4
  after_results_simp <;> rfl

end Cert.ReferenceIdeal.Hand

end
-- ==== Proof.RefValC.lean ====
/-
  What the three loss stretches of the reference leave in their result buffers, from any contents: the indicators of
  the two label comparisons, the positive-label loss, the zero-label loss (from the indicator the earlier stretch left)
  and the pairwise regulariser of the unit basis rows, each averaged over the 32 samples.  Each is the fold of the
  stretch's operations read at its result buffer; the composed term is the whole-array loss by unfolding.
-/
import proofs.«162502_j88974542504179_2_alg».proof.Proof.RefStretch
import proofs.«162502_j88974542504179_2_alg».proof.Proof.RefFn

noncomputable section

namespace Cert.ReferenceIdeal.Hand

open Cert.ReferenceIdeal Cert.ReferenceIdeal.Gen Idealize.ShloMosaic Idealize.ShloMosaic.TcCoe Idealize.SL.Sem Idealize.ShloMosaic.StableHlo

-- the sums and the stacking are compared as applications, never opened
attribute [local irreducible] Host.reduceAdd concatenate

/-- The zero-label loss per sample from the indicator array: the ratio of the two table sums. -/
def negFrom (e p : RefFn.A S32x256x16) : RefFn.A S32 :=
  Host.divf (F := Ideal) (RefFn.tabSum (mulf e (mulf p p)))
    (addf (RefFn.tabSum e) (broadcastInDim S32 ![] bcast_S_S32 (RefFn.k 0x358637BD#32)))

/-- The zero-label loss is that ratio at the indicator of the labels equal to zero. -/
theorem negPer_eq (L p : RefFn.A S32x256x16) : RefFn.negPer L p = negFrom (RefFn.ind .oeq L) p := rfl

set_option maxHeartbeats 2000000 in
/-- Stretch 8 leaves the mean positive-label loss in main_v94. -/
theorem s8_v94 (V : Valuation τ sig (Elt Ideal)) :
    after s8 V (main_v94 : DevRef τ sig)
      = RefFn.meanB (RefFn.posPer (V (main_arg2 : DevRef τ sig)) (V (main_v72 : DevRef τ sig))) := by
  unfold s8
  after_results_simp <;> rfl

set_option maxHeartbeats 2000000 in
/-- Stretch 8 leaves the indicator of the labels equal to zero in main_v78. -/
theorem s8_v78 (V : Valuation τ sig (Elt Ideal)) :
    after s8 V (main_v78 : DevRef τ sig) = RefFn.ind .oeq (V (main_arg2 : DevRef τ sig)) := by
  unfold s8
  after_results_simp <;> rfl

/-- Stretch 9 leaves the mean zero-label loss in main_v103, from the indicator in main_v78. -/
theorem s9_v103 (V : Valuation τ sig (Elt Ideal)) :
    after s9 V (main_v103 : DevRef τ sig)
      = RefFn.meanB (negFrom (V (main_v78 : DevRef τ sig)) (V (main_v72 : DevRef τ sig))) := by
  unfold s9
  after_results_simp <;> rfl

set_option maxHeartbeats 2000000 in
/-- Stretch 10 leaves the mean pairwise regulariser of the unit basis rows in main_v116. -/
theorem s10_v116 (V : Valuation τ sig (Elt Ideal)) :
    after s10 V (main_v116 : DevRef τ sig) = RefFn.meanB (RefFn.regPer (V (main_v70 : DevRef τ sig))) := by
  unfold s10
  after_results_simp <;> rfl

end Cert.ReferenceIdeal.Hand

end
-- ==== Proof.RefRun.lean ====
/-
  The run of the reference program, read at its three results.  The ten stretches are composed in order: each
  stretch's result is the whole-array function of its stage applied to what the earlier stretches left, and a buffer
  that a stretch does not write keeps its contents through it.  So the three scalar results are the sample means of
  the positive-label loss, the zero-label loss and the regulariser, computed from the rows after the three layers,
  and every argument array is unchanged.
-/
import proofs.«162502_j88974542504179_2_alg».proof.Proof.RefMain
import proofs.«162502_j88974542504179_2_alg».proof.Proof.RefValA
import proofs.«162502_j88974542504179_2_alg».proof.Proof.RefValB
import proofs.«162502_j88974542504179_2_alg».proof.Proof.RefValC

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## The stages as functions of the contents the line starts from -/

section Stages

variable (V : Valuation τ sig (Elt Ideal))

/-- The feature rows, 256 per sample. -/
abbrev rowsX : RefFn.A S32x256x768 := shapeCast S32x256x768 (V (main_arg0 : DevRef τ sig)) shapeCasts_S8192x768_S32x256x768
/-- The basis rows, 16 per sample. -/
abbrev rowsB : RefFn.A S32x16x768 := shapeCast S32x16x768 (V (main_arg1 : DevRef τ sig)) shapeCasts_S512x768_S32x16x768
/-- The first affine layer. -/
abbrev lay1 : RefFn.A S32x272x2048 := RefFn.lin1 (rowsX V) (rowsB V) (V (main_arg3 : DevRef τ sig)) (V (main_arg4 : DevRef τ sig))
/-- Its normalisation and clamp. -/
abbrev act1 : RefFn.A S32x272x2048 := RefFn.bnRelu (lay1 V) (V (main_arg5 : DevRef τ sig)) (V (main_arg6 : DevRef τ sig))
/-- The second affine layer. -/
abbrev lay2 : RefFn.A S32x272x2048 := RefFn.lin (act1 V) (V (main_arg7 : DevRef τ sig)) (V (main_arg8 : DevRef τ sig))
/-- Its normalisation and clamp. -/
abbrev act2 : RefFn.A S32x272x2048 := RefFn.bnRelu (lay2 V) (V (main_arg9 : DevRef τ sig)) (V (main_arg10 : DevRef τ sig))
/-- The rows after the three layers. -/
abbrev hidV : RefFn.A S32x272x2048 := RefFn.lin (act2 V) (V (main_arg11 : DevRef τ sig)) (V (main_arg12 : DevRef τ sig))
/-- The unit basis rows. -/
abbrev basV : RefFn.A S32x16x2048 := RefFn.unitB (RefFn.base (hidV V))
/-- The clamped cosine table. -/
abbrev cosV : RefFn.A S32x256x16 := RefFn.cosT (RefFn.unitF (RefFn.feat (hidV V))) (basV V)

/-! ## Buffers the first stretches leave alone -/

theorem pre2 {r : Ref sig .tc} (h1 : r ∉ w1) (h2 : r ∉ w2) :
    after s2 (after s1 V) (Proc.devRef .tc r) = V (Proc.devRef .tc r) := by
  rw [kept s2_writes _ h2, kept s1_writes _ h1]

theorem pre3 {r : Ref sig .tc} (h1 : r ∉ w1) (h2 : r ∉ w2) (h3 : r ∉ w3) :
    after s3 (after s2 (after s1 V)) (Proc.devRef .tc r) = V (Proc.devRef .tc r) := by
  rw [kept s3_writes _ h3, pre2 V h1 h2]

theorem pre4 {r : Ref sig .tc} (h1 : r ∉ w1) (h2 : r ∉ w2) (h3 : r ∉ w3) (h4 : r ∉ w4) :
    after s4 (after s3 (after s2 (after s1 V))) (Proc.devRef .tc r) = V (Proc.devRef .tc r) := by
  rw [kept s4_writes _ h4, pre3 V h1 h2 h3]

theorem pre5 {r : Ref sig .tc} (h1 : r ∉ w1) (h2 : r ∉ w2) (h3 : r ∉ w3) (h4 : r ∉ w4) (h5 : r ∉ w5) :
    after s5 (after s4 (after s3 (after s2 (after s1 V)))) (Proc.devRef .tc r) = V (Proc.devRef .tc r) := by
  rw [kept s5_writes _ h5, pre4 V h1 h2 h3 h4]

theorem pre6 {r : Ref sig .tc} (h1 : r ∉ w1) (h2 : r ∉ w2) (h3 : r ∉ w3) (h4 : r ∉ w4) (h5 : r ∉ w5) (h6 : r ∉ w6) :
    after s6 (after s5 (after s4 (after s3 (after s2 (after s1 V))))) (Proc.devRef .tc r) = V (Proc.devRef .tc r) := by
  rw [kept s6_writes _ h6, pre5 V h1 h2 h3 h4 h5]

theorem pre7 {r : Ref sig .tc} (h1 : r ∉ w1) (h2 : r ∉ w2) (h3 : r ∉ w3) (h4 : r ∉ w4) (h5 : r ∉ w5) (h6 : r ∉ w6) (h7 : r ∉ w7) :
    after s7 (after s6 (after s5 (after s4 (after s3 (after s2 (after s1 V)))))) (Proc.devRef .tc r) = V (Proc.devRef .tc r) := by
  rw [kept s7_writes _ h7, pre6 V h1 h2 h3 h4 h5 h6]

theorem pre8 {r : Ref sig .tc} (h1 : r ∉ w1) (h2 : r ∉ w2) (h3 : r ∉ w3) (h4 : r ∉ w4) (h5 : r ∉ w5) (h6 : r ∉ w6) (h7 : r ∉ w7) (h8 : r ∉ w8) :
    after s8 (after s7 (after s6 (after s5 (after s4 (after s3 (after s2 (after s1 V))))))) (Proc.devRef .tc r) = V (Proc.devRef .tc r) := by
  rw [kept s8_writes _ h8, pre7 V h1 h2 h3 h4 h5 h6 h7]

theorem pre9 {r : Ref sig .tc} (h1 : r ∉ w1) (h2 : r ∉ w2) (h3 : r ∉ w3) (h4 : r ∉ w4) (h5 : r ∉ w5) (h6 : r ∉ w6) (h7 : r ∉ w7) (h8 : r ∉ w8) (h9 : r ∉ w9) :
    after s9 (after s8 (after s7 (after s6 (after s5 (after s4 (after s3 (after s2 (after s1 V)))))))) (Proc.devRef .tc r) = V (Proc.devRef .tc r) := by
  rw [kept s9_writes _ h9, pre8 V h1 h2 h3 h4 h5 h6 h7 h8]

theorem pre10 {r : Ref sig .tc} (h1 : r ∉ w1) (h2 : r ∉ w2) (h3 : r ∉ w3) (h4 : r ∉ w4) (h5 : r ∉ w5) (h6 : r ∉ w6) (h7 : r ∉ w7) (h8 : r ∉ w8) (h9 : r ∉ w9) (h10 : r ∉ w10) :
    after s10 (after s9 (after s8 (after s7 (after s6 (after s5 (after s4 (after s3 (after s2 (after s1 V))))))))) (Proc.devRef .tc r) = V (Proc.devRef .tc r) := by
  rw [kept s10_writes _ h10, pre9 V h1 h2 h3 h4 h5 h6 h7 h8 h9]

/-! ## What each stretch has left, in terms of the starting contents -/

theorem to1 : after s1 V (main_v6 : DevRef τ sig) = lay1 V := s1_v6 V

theorem to2 : after s2 (after s1 V) (main_v25 : DevRef τ sig) = act1 V := by
  rw [s2_v25, to1, kept s1_writes V (r := main_arg5) (by decide), kept s1_writes V (r := main_arg6) (by decide)]

theorem to3 : after s3 (after s2 (after s1 V)) (main_v29 : DevRef τ sig) = lay2 V := by
  rw [s3_v29, to2, pre2 V (r := main_arg7) (by decide) (by decide), pre2 V (r := main_arg8) (by decide) (by decide)]

theorem to4 : after s4 (after s3 (after s2 (after s1 V))) (main_v48 : DevRef τ sig) = act2 V := by
  rw [s4_v48, to3, pre3 V (r := main_arg9) (by decide) (by decide) (by decide), pre3 V (r := main_arg10) (by decide) (by decide) (by decide)]

theorem to5 : after s5 (after s4 (after s3 (after s2 (after s1 V)))) (main_v52 : DevRef τ sig) = hidV V := by
  rw [s5_v52, to4, pre4 V (r := main_arg11) (by decide) (by decide) (by decide) (by decide), pre4 V (r := main_arg12) (by decide) (by decide) (by decide) (by decide)]

theorem to6_62 : after s6 (after s5 (after s4 (after s3 (after s2 (after s1 V))))) (main_v62 : DevRef τ sig) = RefFn.unitF (RefFn.feat (hidV V)) := by
  rw [s6_v62, to5]

theorem to6_70 : after s6 (after s5 (after s4 (after s3 (after s2 (after s1 V))))) (main_v70 : DevRef τ sig) = basV V := by
  rw [s6_v70, to5]

theorem to7_72 : after s7 (after s6 (after s5 (after s4 (after s3 (after s2 (after s1 V)))))) (main_v72 : DevRef τ sig) = cosV V := by
  rw [s7_v72, to6_62, to6_70]

theorem to7_70 : after s7 (after s6 (after s5 (after s4 (after s3 (after s2 (after s1 V)))))) (main_v70 : DevRef τ sig) = basV V := by
  rw [kept s7_writes _ (r := main_v70) (by decide), to6_70]

theorem to8_94 : after s8 (after s7 (after s6 (after s5 (after s4 (after s3 (after s2 (after s1 V))))))) (main_v94 : DevRef τ sig) = RefFn.meanB (RefFn.posPer (V (main_arg2 : DevRef τ sig)) (cosV V)) := by
  rw [s8_v94, pre7 V (r := main_arg2) (by decide) (by decide) (by decide) (by decide) (by decide) (by decide) (by decide), to7_72]

theorem to8_78 : after s8 (after s7 (after s6 (after s5 (after s4 (after s3 (after s2 (after s1 V))))))) (main_v78 : DevRef τ sig) = RefFn.ind .oeq (V (main_arg2 : DevRef τ sig)) := by
  rw [s8_v78, pre7 V (r := main_arg2) (by decide) (by decide) (by decide) (by decide) (by decide) (by decide) (by decide)]

theorem to8_72 : after s8 (after s7 (after s6 (after s5 (after s4 (after s3 (after s2 (after s1 V))))))) (main_v72 : DevRef τ sig) = cosV V := by
  rw [kept s8_writes _ (r := main_v72) (by decide), to7_72]

theorem to8_70 : after s8 (after s7 (after s6 (after s5 (after s4 (after s3 (after s2 (after s1 V))))))) (main_v70 : DevRef τ sig) = basV V := by
  rw [kept s8_writes _ (r := main_v70) (by decide), to7_70]

theorem to9_103 : after s9 (after s8 (after s7 (after s6 (after s5 (after s4 (after s3 (after s2 (after s1 V)))))))) (main_v103 : DevRef τ sig) = RefFn.meanB (RefFn.negPer (V (main_arg2 : DevRef τ sig)) (cosV V)) := by
  rw [s9_v103, to8_78, to8_72, negPer_eq]

theorem to9_94 : after s9 (after s8 (after s7 (after s6 (after s5 (after s4 (after s3 (after s2 (after s1 V)))))))) (main_v94 : DevRef τ sig) = RefFn.meanB (RefFn.posPer (V (main_arg2 : DevRef τ sig)) (cosV V)) := by
  rw [kept s9_writes _ (r := main_v94) (by decide), to8_94]

theorem to9_70 : after s9 (after s8 (after s7 (after s6 (after s5 (after s4 (after s3 (after s2 (after s1 V)))))))) (main_v70 : DevRef τ sig) = basV V := by
  rw [kept s9_writes _ (r := main_v70) (by decide), to8_70]

theorem to10_116 : after s10 (after s9 (after s8 (after s7 (after s6 (after s5 (after s4 (after s3 (after s2 (after s1 V))))))))) (main_v116 : DevRef τ sig) = RefFn.meanB (RefFn.regPer (basV V)) := by
  rw [s10_v116, to9_70]

theorem to10_94 : after s10 (after s9 (after s8 (after s7 (after s6 (after s5 (after s4 (after s3 (after s2 (after s1 V))))))))) (main_v94 : DevRef τ sig) = RefFn.meanB (RefFn.posPer (V (main_arg2 : DevRef τ sig)) (cosV V)) := by
  rw [kept s10_writes _ (r := main_v94) (by decide), to9_94]

theorem to10_103 : after s10 (after s9 (after s8 (after s7 (after s6 (after s5 (after s4 (after s3 (after s2 (after s1 V))))))))) (main_v103 : DevRef τ sig) = RefFn.meanB (RefFn.negPer (V (main_arg2 : DevRef τ sig)) (cosV V)) := by
  rw [kept s10_writes _ (r := main_v103) (by decide), to9_103]

/-! ## The whole line -/

/-- The fold of the whole line is the ten folds in order. -/
theorem after_allS : after allS V = after s10 (after s9 (after s8 (after s7 (after s6 (after s5 (after s4 (after s3 (after s2 (after s1 V))))))))) := by
  unfold allS
  simp only [after_app]

theorem fin_pos : after allS V (main_v94 : DevRef τ sig) = RefFn.meanB (RefFn.posPer (V (main_arg2 : DevRef τ sig)) (cosV V)) := by
  rw [after_allS, to10_94]

theorem fin_neg : after allS V (main_v103 : DevRef τ sig) = RefFn.meanB (RefFn.negPer (V (main_arg2 : DevRef τ sig)) (cosV V)) := by
  rw [after_allS, to10_103]

theorem fin_reg : after allS V (main_v116 : DevRef τ sig) = RefFn.meanB (RefFn.regPer (basV V)) := by
  rw [after_allS, to10_116]

/-- A buffer no stretch writes holds at the end what it held at the start. -/
theorem fin_kept {r : Ref sig .tc} (h1 : r ∉ w1) (h2 : r ∉ w2) (h3 : r ∉ w3) (h4 : r ∉ w4) (h5 : r ∉ w5) (h6 : r ∉ w6) (h7 : r ∉ w7) (h8 : r ∉ w8) (h9 : r ∉ w9) (h10 : r ∉ w10) :
    after allS V (Proc.devRef .tc r) = V (Proc.devRef .tc r) := by
  rw [after_allS, pre10 V h1 h2 h3 h4 h5 h6 h7 h8 h9 h10]

end Stages

/-! ## The run -/

/-- The rows after the three layers, from the launch contents of a device. -/
def H (m : (ℓ : Loc nD τ sig) → Buf (Elt Ideal) ℓ) (c : Dev nD) : RefFn.A S32x272x2048 :=
  RefFn.hidden (shapeCast S32x256x768 (m ((c.tc : Thread nD τ).loc main_arg0)) shapeCasts_S8192x768_S32x256x768)
    (shapeCast S32x16x768 (m ((c.tc : Thread nD τ).loc main_arg1)) shapeCasts_S512x768_S32x16x768)
    (m ((c.tc : Thread nD τ).loc main_arg3))
    (m ((c.tc : Thread nD τ).loc main_arg4))
    (m ((c.tc : Thread nD τ).loc main_arg5))
    (m ((c.tc : Thread nD τ).loc main_arg6))
    (m ((c.tc : Thread nD τ).loc main_arg7))
    (m ((c.tc : Thread nD τ).loc main_arg8))
    (m ((c.tc : Thread nD τ).loc main_arg9))
    (m ((c.tc : Thread nD τ).loc main_arg10))
    (m ((c.tc : Thread nD τ).loc main_arg11))
    (m ((c.tc : Thread nD τ).loc main_arg12))

/-- The unit basis rows. -/
def VB (m : (ℓ : Loc nD τ sig) → Buf (Elt Ideal) ℓ) (c : Dev nD) : RefFn.A S32x16x2048 :=
  RefFn.unitB (RefFn.base (H m c))

/-- The clamped cosine table of unit feature rows against unit basis rows. -/
def P (m : (ℓ : Loc nD τ sig) → Buf (Elt Ideal) ℓ) (c : Dev nD) : RefFn.A S32x256x16 :=
  RefFn.cosT (RefFn.unitF (RefFn.feat (H m c))) (VB m c)

theorem hidV_launch (m : (ℓ : Loc nD τ sig) → Buf (Elt Ideal) ℓ) (c : Dev nD) : hidV (launchContents m c) = H m c := rfl
theorem basV_launch (m : (ℓ : Loc nD τ sig) → Buf (Elt Ideal) ℓ) (c : Dev nD) : basV (launchContents m c) = VB m c := rfl
theorem cosV_launch (m : (ℓ : Loc nD τ sig) → Buf (Elt Ideal) ℓ) (c : Dev nD) : cosV (launchContents m c) = P m c := rfl

/-- On every device, from any memory with zero counters: every weakly fair execution of the reference terminates
    with its three results at the sample means of the positive-label loss, the zero-label loss and the regulariser
    of the rows after the three layers, and with every argument array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v94) = RefFn.meanB (RefFn.posPer (m ((c.tc : Thread nD τ).loc main_arg2)) (P m c))
      ∧ r.2.mem ((c.tc : Thread nD τ).loc main_v103) = RefFn.meanB (RefFn.negPer (m ((c.tc : Thread nD τ).loc main_arg2)) (P m c))
      ∧ r.2.mem ((c.tc : Thread nD τ).loc main_v116) = RefFn.meanB (RefFn.regPer (VB m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c main_v94).trans ((fin_pos (launchContents m c)).trans (by rw [cosV_launch])),
      (h c main_v103).trans ((fin_neg (launchContents m c)).trans (by rw [cosV_launch])),
      (h c main_v116).trans ((fin_reg (launchContents m c)).trans (by rw [basV_launch])),
      (h c main_arg0).trans (fin_kept (launchContents m c) (r := main_arg0) (by decide) (by decide) (by decide) (by decide) (by decide) (by decide) (by decide) (by decide) (by decide) (by decide)),
      (h c main_arg1).trans (fin_kept (launchContents m c) (r := main_arg1) (by decide) (by decide) (by decide) (by decide) (by decide) (by decide) (by decide) (by decide) (by decide) (by decide)),
      (h c main_arg2).trans (fin_kept (launchContents m c) (r := main_arg2) (by decide) (by decide) (by decide) (by decide) (by decide) (by decide) (by decide) (by decide) (by decide) (by decide)),
      (h c main_arg3).trans (fin_kept (launchContents m c) (r := main_arg3) (by decide) (by decide) (by decide) (by decide) (by decide) (by decide) (by decide) (by decide) (by decide) (by decide)),
      (h c main_arg4).trans (fin_kept (launchContents m c) (r := main_arg4) (by decide) (by decide) (by decide) (by decide) (by decide) (by decide) (by decide) (by decide) (by decide) (by decide)),
      (h c main_arg5).trans (fin_kept (launchContents m c) (r := main_arg5) (by decide) (by decide) (by decide) (by decide) (by decide) (by decide) (by decide) (by decide) (by decide) (by decide)),
      (h c main_arg6).trans (fin_kept (launchContents m c) (r := main_arg6) (by decide) (by decide) (by decide) (by decide) (by decide) (by decide) (by decide) (by decide) (by decide) (by decide)),
      (h c main_arg7).trans (fin_kept (launchContents m c) (r := main_arg7) (by decide) (by decide) (by decide) (by decide) (by decide) (by decide) (by decide) (by decide) (by decide) (by decide)),
      (h c main_arg8).trans (fin_kept (launchContents m c) (r := main_arg8) (by decide) (by decide) (by decide) (by decide) (by decide) (by decide) (by decide) (by decide) (by decide) (by decide)),
      (h c main_arg9).trans (fin_kept (launchContents m c) (r := main_arg9) (by decide) (by decide) (by decide) (by decide) (by decide) (by decide) (by decide) (by decide) (by decide) (by decide)),
      (h c main_arg10).trans (fin_kept (launchContents m c) (r := main_arg10) (by decide) (by decide) (by decide) (by decide) (by decide) (by decide) (by decide) (by decide) (by decide) (by decide)),
      (h c main_arg11).trans (fin_kept (launchContents m c) (r := main_arg11) (by decide) (by decide) (by decide) (by decide) (by decide) (by decide) (by decide) (by decide) (by decide) (by decide)),
      (h c main_arg12).trans (fin_kept (launchContents m c) (r := main_arg12) (by decide) (by decide) (by decide) (by decide) (by decide) (by decide) (by decide) (by decide) (by decide) (by decide))⟩)
    (run_all m ρ)

end Cert.ReferenceIdeal.Hand

end
-- ==== Proof.RefReadLayout.lean ====
/-
  Layout operations and sums of rank-3 arrays read at an index given by coordinates.

  The broadcasts that carry a per-column parameter, a per-sample statistic or a row length across an array of samples,
  rows and columns read one entry of their operand; a sum over one or two axes of such an array, taken by the host from an
  initial value, is that value plus the plain sum over the coordinates of those axes; and a matrix product's contraction
  is the plain sum over the shared axis, both when every sample's rows meet one weight matrix and when each sample's rows
  meet that sample's own rows; the host's elementwise operations read the element.  Every lemma is over arbitrary extents and mentions no program.
-/
import Idealize.ShloMosaic.Lib.Pipeline.Value
import Idealize.ShloMosaic.Lib.ValueIdx
import Idealize.ShloMosaic.PureOps.Ideal.Laws

noncomputable section

open scoped BigOperators

namespace Cert.ReferenceIdeal.RefRead

open Idealize.ShloMosaic Idealize.ShloMosaic.ValueIdx

variable {α : Type}

/-! ## Broadcasts -/

/-- A scalar spread over any shape reads the scalar everywhere. -/
theorem bcastScalar_apply {t : Shape} (h : (⟨0, ![]⟩ : Shape).BroadcastsInDim t (![] : Fin 0 → Fin t.rank))
    (y : (⟨0, ![]⟩ : Shape).Idx → α) (j : t.Idx) : broadcastInDim t (![] : Fin 0 → Fin t.rank) h y j = y ix0 :=
  broadcastInDim_apply _ h y j ix0 (fun a => a.elim0)

/-- A vector [c] laid along the last axis of [1, 1, c]. -/
theorem bcast_c_11c_apply {c : ℕ} (h : (⟨1, ![c]⟩ : Shape).BroadcastsInDim ⟨3, ![1, 1, c]⟩ ![2])
    (x : (⟨1, ![c]⟩ : Shape).Idx → α) (u v : Fin 1) (j : Fin c) :
    broadcastInDim ⟨3, ![1, 1, c]⟩ ![2] h x (ix3 u v j) = x (ix1 j) := by
  refine broadcastInDim_apply _ h x (ix3 u v j) (ix1 j) fun ax => ?_
  match ax with
  | ⟨0, _⟩ =>
    show j.val = if c = 1 then 0 else j.val
    split
    · have := j.isLt; omega
    · rfl

/-- [1, 1, c] repeated over samples and rows. -/
theorem bcast_11c_abc_apply {a b c : ℕ} (h : (⟨3, ![1, 1, c]⟩ : Shape).BroadcastsInDim ⟨3, ![a, b, c]⟩ ![0, 1, 2])
    (x : (⟨3, ![1, 1, c]⟩ : Shape).Idx → α) (p : Fin a) (q : Fin b) (j : Fin c) :
    broadcastInDim ⟨3, ![a, b, c]⟩ ![0, 1, 2] h x (ix3 p q j) = x (ix3 (0 : Fin 1) (0 : Fin 1) j) := by
  refine broadcastInDim_apply _ h x (ix3 p q j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- [a, 1, c] repeated over the rows. -/
theorem bcast_a1c_abc_apply {a b c : ℕ} (h : (⟨3, ![a, 1, c]⟩ : Shape).BroadcastsInDim ⟨3, ![a, b, c]⟩ ![0, 1, 2])
    (x : (⟨3, ![a, 1, c]⟩ : Shape).Idx → α) (p : Fin a) (q : Fin b) (j : Fin c) :
    broadcastInDim ⟨3, ![a, b, c]⟩ ![0, 1, 2] h x (ix3 p q j) = x (ix3 p (0 : Fin 1) j) := by
  refine broadcastInDim_apply _ h x (ix3 p q j) (ix3 p (0 : Fin 1) j) fun ax => ?_
  match ax with
  | ⟨0, _⟩ =>
    show p.val = if a = 1 then 0 else p.val
    split
    · have := p.isLt; omega
    · rfl
  | ⟨1, _⟩ => rfl
  | ⟨2, _⟩ =>
    show j.val = if c = 1 then 0 else j.val
    split
    · have := j.isLt; omega
    · rfl

/-- [a, c] given a unit middle axis. -/
theorem bcast_ac_a1c_apply {a c : ℕ} (h : (⟨2, ![a, c]⟩ : Shape).BroadcastsInDim ⟨3, ![a, 1, c]⟩ ![0, 2])
    (x : (⟨2, ![a, c]⟩ : Shape).Idx → α) (p : Fin a) (u : Fin 1) (j : Fin c) :
    broadcastInDim ⟨3, ![a, 1, c]⟩ ![0, 2] h x (ix3 p u j) = x (ix2 p j) := by
  refine broadcastInDim_apply _ h x (ix3 p u j) (ix2 p j) fun ax => ?_
  match ax with
  | ⟨0, _⟩ =>
    show p.val = if a = 1 then 0 else p.val
    split
    · have := p.isLt; omega
    · rfl
  | ⟨1, _⟩ =>
    show j.val = if c = 1 then 0 else j.val
    split
    · have := j.isLt; omega
    · rfl

/-- [a, b] given a unit last axis. -/
theorem bcast_ab_ab1_apply {a b : ℕ} (h : (⟨2, ![a, b]⟩ : Shape).BroadcastsInDim ⟨3, ![a, b, 1]⟩ ![0, 1])
    (x : (⟨2, ![a, b]⟩ : Shape).Idx → α) (p : Fin a) (q : Fin b) (u : Fin 1) :
    broadcastInDim ⟨3, ![a, b, 1]⟩ ![0, 1] h x (ix3 p q u) = x (ix2 p q) := by
  refine broadcastInDim_apply _ h x (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- [a, b, 1] repeated over the columns. -/
theorem bcast_ab1_abc_apply {a b c : ℕ} (h : (⟨3, ![a, b, 1]⟩ : Shape).BroadcastsInDim ⟨3, ![a, b, c]⟩ ![0, 1, 2])
    (x : (⟨3, ![a, b, 1]⟩ : Shape).Idx → α) (p : Fin a) (q : Fin b) (j : Fin c) :
    broadcastInDim ⟨3, ![a, b, c]⟩ ![0, 1, 2] h x (ix3 p q j) = x (ix3 p q (0 : Fin 1)) := by
  refine broadcastInDim_apply _ h x (ix3 p q j) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, b] given a unit leading axis. -/
theorem bcast_ab_1ab_apply {a b : ℕ} (h : (⟨2, ![a, b]⟩ : Shape).BroadcastsInDim ⟨3, ![1, a, b]⟩ ![1, 2])
    (x : (⟨2, ![a, b]⟩ : Shape).Idx → α) (u : Fin 1) (p : Fin a) (q : Fin b) :
    broadcastInDim ⟨3, ![1, a, b]⟩ ![1, 2] h x (ix3 u p q) = x (ix2 p q) := by
  refine broadcastInDim_apply _ h x (ix3 u p q) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- [1, a, b] repeated over the samples. -/
theorem bcast_1ab_nab_apply {n a b : ℕ} (h : (⟨3, ![1, a, b]⟩ : Shape).BroadcastsInDim ⟨3, ![n, a, b]⟩ ![0, 1, 2])
    (x : (⟨3, ![1, a, b]⟩ : Shape).Idx → α) (r : Fin n) (p : Fin a) (q : Fin b) :
    broadcastInDim ⟨3, ![n, a, b]⟩ ![0, 1, 2] h x (ix3 r p q) = x (ix3 (0 : Fin 1) p q) := by
  refine broadcastInDim_apply _ h x (ix3 r p q) (ix3 (0 : Fin 1) p q) fun ax => ?_
  match ax with
  | ⟨0, _⟩ => rfl
  | ⟨1, _⟩ =>
    show p.val = if a = 1 then 0 else p.val
    split
    · have := p.isLt; omega
    · rfl
  | ⟨2, _⟩ =>
    show q.val = if b = 1 then 0 else q.val
    split
    · have := q.isLt; omega
    · rfl

/-! ## Sums over a rank-3 index set -/

/-- A rank-3 index set is the product of its three coordinate ranges … -/
def idxEquiv3 {a b c : ℕ} : (⟨3, ![a, b, c]⟩ : Shape).Idx ≃ Fin a × Fin b × Fin c where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {a b c : ℕ} (f : (⟨3, ![a, b, c]⟩ : Shape).Idx → M) :
    ∑ i, f i = ∑ p : Fin a, ∑ q : Fin b, ∑ j : Fin c, f (ix3 p q j) := by
  rw [← Equiv.sum_comp (idxEquiv3 (a := a) (b := b) (c := c)).symm f, Fintype.sum_prod_type]
  refine Finset.sum_congr rfl fun p _ => ?_
  rw [Fintype.sum_prod_type]
  rfl

/-! ## The host's sums -/

/-- The source index a sum over the rows reads for sample p, column j and row n is (p, n, j). -/
theorem lift_mid {a b c : ℕ} (h : (⟨3, ![a, b, c]⟩ : Shape).Reduces [1] ⟨2, ![a, c]⟩) (p : Fin a) (j : Fin c) (n : Fin b) :
    h.lift (ix2 p j) n = ix3 p n j := by
  funext d
  apply Fin.ext
  match d with
  | ⟨0, _⟩ => rfl
  | ⟨1, _⟩ => rfl
  | ⟨2, _⟩ => rfl

/-- The host's sum of [a, b, c] over the rows, at sample p and column j: the initial value plus the column's b entries. -/
theorem hostReduce_mid_apply {a b c : ℕ} {u : Shape} (x : FVec Ideal ⟨3, ![a, b, c]⟩ .f32) (init : u.Idx → Ideal .f32)
    (h' : (⟨3, ![a, b, c]⟩ : Shape).ReducesTo [1] ⟨2, ![a, c]⟩) (hu : 0 < u.numel)
    (h : (⟨3, ![a, b, c]⟩ : Shape).Reduces [1] ⟨2, ![a, c]⟩) (p : Fin a) (j : Fin c) :
    Host.reduceAdd x init h' hu (ix2 p j) = init (Shape.Idx.first hu) + ∑ n : Fin b, x (ix3 p n j) := by
  simp only [Host.reduceAdd, Ideal.hostReduceAdd_def]
  rw [Ideal.hostReduceAdd_single h' h]
  exact congrArg (_ + ·) (Finset.sum_congr rfl fun n _ => congrArg x (lift_mid h p j n))

/-- The source index a sum over the columns reads for sample p, row q and column j is (p, q, j). -/
theorem lift_last {a b c : ℕ} (h : (⟨3, ![a, b, c]⟩ : Shape).Reduces [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-- The host's sum of [a, b, c] over the columns, at sample p and row q: the initial value plus the row's c entries. -/
theorem hostReduce_last_apply {a b c : ℕ} {u : Shape} (x : FVec Ideal ⟨3, ![a, b, c]⟩ .f32) (init : u.Idx → Ideal .f32)
    (h' : (⟨3, ![a, b, c]⟩ : Shape).ReducesTo [2] ⟨2, ![a, b]⟩) (hu : 0 < u.numel)
    (h : (⟨3, ![a, b, c]⟩ : Shape).Reduces [2] ⟨2, ![a, b]⟩) (p : Fin a) (q : Fin b) :
    Host.reduceAdd x init h' hu (ix2 p q) = init (Shape.Idx.first hu) + ∑ j : Fin c, x (ix3 p q j) := by
  simp only [Host.reduceAdd, Ideal.hostReduceAdd_def]
  rw [Ideal.hostReduceAdd_single h' h]
  exact congrArg (_ + ·) (Finset.sum_congr rfl fun j _ => congrArg x (lift_last h p q j))

/-- Dropping the last two coordinates of (p', q, j) leaves p'. -/
theorem drop_tail_val {a b c : ℕ} (h' : (⟨3, ![a, b, c]⟩ : Shape).ReducesTo [1, 2] ⟨1, ![a]⟩) (p' : Fin a) (q : Fin b) (j : Fin c) :
    (h'.drop (ix3 p' q j) ⟨0, Nat.one_pos⟩).val = p'.val := rfl

/-- The host's sum of [a, b, c] over rows and columns, at sample p: the initial value plus the sample's b·c entries. -/
theorem hostReduce_tail_apply {a b c : ℕ} {u : Shape} (x : FVec Ideal ⟨3, ![a, b, c]⟩ .f32) (init : u.Idx → Ideal .f32)
    (h' : (⟨3, ![a, b, c]⟩ : Shape).ReducesTo [1, 2] ⟨1, ![a]⟩) (hu : 0 < u.numel) (p : Fin a) :
    Host.reduceAdd x init h' hu (ix1 p) = init (Shape.Idx.first hu) + ∑ q : Fin b, ∑ j : Fin c, x (ix3 p q j) := by
  simp only [Host.reduceAdd, Ideal.hostReduceAdd_def]
  unfold Ideal.hostReduceAdd
  refine congrArg (_ + ·) ?_
  have hd : ∀ (p' : Fin a) (q : Fin b) (j : Fin c), h'.drop (ix3 p' q j) = ix1 p ↔ p' = p := by
    intro p' q j
    constructor
    · intro e
      have e0 := congrArg Fin.val (congrFun e ⟨0, Nat.one_pos⟩)
      exact Fin.ext ((drop_tail_val h' p' q j).symm.trans e0)
    · rintro rfl
      funext d
      match d with
      | ⟨0, _⟩ => exact Fin.ext (drop_tail_val h' p' q j)
  rw [Finset.sum_filter, sum_idx3]
  rw [Finset.sum_eq_single p]
  · refine Finset.sum_congr rfl fun q _ => Finset.sum_congr rfl fun j _ => ?_
    rw [if_pos ((hd p q j).2 rfl)]
  · intro p' _ hp'
    refine Finset.sum_eq_zero fun q _ => Finset.sum_eq_zero fun j _ => ?_
    rw [if_neg (fun e => hp' ((hd p' q j).1 e))]
  · intro hp; exact absurd (Finset.mem_univ p) hp

/-! ## Matrix products -/

/-- [B, M, K] by [K, N]: every sample's rows against one matrix.  At (b, n, j) the contraction is the sum over k of the
    row's entry k times the matrix's entry (k, j). -/
theorem dot_rows_apply {B M K N : ℕ} (d : DotDims ⟨3, ![B, M, K]⟩ ⟨2, ![K, N]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (k ⟨0, by omega⟩).val)
    (hr1 : ∀ j k, (d.rhsIdx j k 1).val = (j 2).val)
    (x : FVec Ideal ⟨3, ![B, M, K]⟩ .f32) (w : FVec Ideal ⟨2, ![K, N]⟩ .f32) (b : Fin B) (n : Fin M) (j : Fin N) :
    Host.dotGeneral d none x w (ix3 b n j) = ∑ k : Fin K, x (ix3 b n k) * w (ix2 k j) := by
  refine (Ideal.dotGeneral_apply d none .single x w (ix3 b n j)).trans ?_
  rw [← Equiv.sum_comp (contrEquiv1 d K hr hs).symm]
  refine Finset.sum_congr rfl fun k _ => ?_
  have e1 : d.lhsIdx (ix3 b n j) ((contrEquiv1 d K hr hs).symm k) = ix3 b n k := by
    funext a; apply Fin.ext
    match a with
    | ⟨0, _⟩ => exact hl0 _ _
    | ⟨1, _⟩ => exact hl1 _ _
    | ⟨2, _⟩ => exact (hl2 _ _).trans (contrEquiv1_symm_val d K hr hs k)
  have e2 : d.rhsIdx (ix3 b n j) ((contrEquiv1 d K hr hs).symm k) = ix2 k j := by
    funext a; apply Fin.ext
    match a with
    | ⟨0, _⟩ => exact (hr0 _ _).trans (contrEquiv1_symm_val d K hr hs k)
    | ⟨1, _⟩ => exact hr1 _ _
  rw [e1, e2]

/-- [B, M, K] by [B, N, K] with the leading axis shared: each sample's rows against that sample's other rows.  At
    (b, s, t) the contraction is the sum over k of row s's entry k times row t's entry k. -/
theorem dot_pairs_apply {B M N K : ℕ} (d : DotDims ⟨3, ![B, M, K]⟩ ⟨3, ![B, N, K]⟩ ⟨3, ![B, M, N]⟩)
    (hr : d.contr.rank = 1) (hs : d.contr.size ⟨0, by omega⟩ = K)
    (hl0 : ∀ j k, (d.lhsIdx j k 0).val = (j 0).val)
    (hl1 : ∀ j k, (d.lhsIdx j k 1).val = (j 1).val)
    (hl2 : ∀ j k, (d.lhsIdx j k 2).val = (k ⟨0, by omega⟩).val)
    (hr0 : ∀ j k, (d.rhsIdx j k 0).val = (j 0).val)
    (hr1 : ∀ j k, (d.rhsIdx j k 1).val = (j 2).val)
    (hr2 : ∀ j k, (d.rhsIdx j k 2).val = (k ⟨0, by omega⟩).val)
    (x : FVec Ideal ⟨3, ![B, M, K]⟩ .f32) (y : FVec Ideal ⟨3, ![B, N, K]⟩ .f32) (b : Fin B) (s : Fin M) (t : Fin N) :
    Host.dotGeneral d none x y (ix3 b s t) = ∑ k : Fin K, x (ix3 b s k) * y (ix3 b t k) := by
  refine (Ideal.dotGeneral_apply d none .single x y (ix3 b s t)).trans ?_
  rw [← Equiv.sum_comp (contrEquiv1 d K hr hs).symm]
  refine Finset.sum_congr rfl fun k _ => ?_
  have e1 : d.lhsIdx (ix3 b s t) ((contrEquiv1 d K hr hs).symm k) = ix3 b s k := by
    funext a; apply Fin.ext
    match a with
    | ⟨0, _⟩ => exact hl0 _ _
    | ⟨1, _⟩ => exact hl1 _ _
    | ⟨2, _⟩ => exact (hl2 _ _).trans (contrEquiv1_symm_val d K hr hs k)
  have e2 : d.rhsIdx (ix3 b s t) ((contrEquiv1 d K hr hs).symm k) = ix3 b t k := by
    funext a; apply Fin.ext
    match a with
    | ⟨0, _⟩ => exact hr0 _ _
    | ⟨1, _⟩ => exact hr1 _ _
    | ⟨2, _⟩ => exact (hr2 _ _).trans (contrEquiv1_symm_val d K hr hs k)
  rw [e1, e2]

/-! ## The host's elementwise operations at an index, at the ideal values -/

section HostOps
variable {s : Shape} {φ : FTy}

/-- The host's quotient at an index is the quotient of the elements … -/
theorem hostDivf_apply (a b : FVec Ideal s φ) (i : s.Idx) : Host.divf a b i = Ideal.div (a i) (b i) := rfl
/-- … its reciprocal square root, square root and logarithm those of the element … -/
theorem hostRsqrt_apply (a : FVec Ideal s φ) (i : s.Idx) : Host.rsqrt a i = Ideal.rsqrt (a i) := rfl
theorem hostSqrt_apply (a : FVec Ideal s φ) (i : s.Idx) : Host.sqrt a i = Ideal.sqrt (a i) := rfl
theorem hostLog_apply (a : FVec Ideal s φ) (i : s.Idx) : Host.log a i = Ideal.log (a i) := rfl
/-- … its absolute value the larger of the element and its negation, its negation the negation. -/
theorem hostAbsf_apply (a : FVec Ideal s φ) (i : s.Idx) : Host.absf a i = max (a i) (-(a i)) := rfl
theorem hostNegf_apply (a : FVec Ideal s φ) (i : s.Idx) : Host.negf a i = -(a i) := rfl

end HostOps

end Cert.ReferenceIdeal.RefRead

end
-- ==== Proof.RefReadConsts.lean ====
/-
  The float words whose values the reading of the reference must decide: the row count 272 is the real 272, hence
  positive, and the word for 1 is 1.
-/
import Idealize.ShloMosaic.PureOps.Ideal
import Idealize.ShloMosaic.PureOps.Ideal.Laws

noncomputable section

namespace Cert.ReferenceIdeal.RefRead

open Idealize.ShloMosaic

/-- The word 0x43880000 denotes the real 272. -/
theorem ofBits_272 : Ideal.ofBits .f32 0x43880000#32 = ((272 : ℝ) : EReal) := by
  simp [Ideal.ofBits, Ideal.ieee, -EReal.coe_mul]; norm_num

/-- The word 0x3F800000 denotes 1. -/
theorem ofBits_one : Ideal.ofBits .f32 0x3F800000#32 = 1 := by
  simp [Ideal.ofBits, Ideal.ieee, -EReal.coe_mul]; norm_num

/-- The row count is above zero. -/
theorem cmp_272_pos : Ideal.cmp .ogt (Ideal.ofBits .f32 0x43880000#32) (Ideal.ofBits .f32 0x00000000#32) = 1#1 := by
  have h : (Ideal.ofBits .f32 0x00000000#32 : EReal) < Ideal.ofBits .f32 0x43880000#32 := by
    rw [Ideal.ofBits_zero_f32, ofBits_272]
    exact EReal.coe_pos.mpr (by norm_num)
  show BitVec.ofBool (decide (Ideal.ofBits .f32 0x00000000#32 < Ideal.ofBits .f32 0x43880000#32)) = 1#1
  rw [decide_eq_true h]
  rfl

/-- The i32 zero converted to a float is 0. -/
theorem sitofp_zero : (((0#32 : BitVec 32).toInt : ℝ) : EReal) = 0 := by
  simp

end Cert.ReferenceIdeal.RefRead

end
-- ==== Proof.RefReadLayers.lean ====
/-
  The reference's three affine layers and two normalisations read at a sample, a row and a column.

  At sample b, row n and column j the first layer is the row n of the sample's stacked rows (features, then bases) times
  the weight matrix plus the bias; a normalisation subtracts the column's mean over the 272 rows, scales by the reciprocal
  root of the column's biased variance plus a small constant, applies the per-column scale and shift and clamps at zero
  (the variance's guard is decided: its divisor is 272 - 0, which is positive); a later layer is again a row times a
  matrix plus a bias.  Each is the specification's formula over the sample's own rows.
-/
import proofs.«162502_j88974542504179_2_alg».proof.Proof.RefFn
import proofs.«162502_j88974542504179_2_alg».proof.Proof.LossSpec
import proofs.«162502_j88974542504179_2_alg».proof.Proof.RefReadLayout
import proofs.«162502_j88974542504179_2_alg».proof.Proof.RefReadConsts

noncomputable section

open scoped BigOperators

namespace Cert.ReferenceIdeal.RefRead

open Idealize.ShloMosaic Idealize.ShloMosaic.ValueIdx Cert.ReferenceIdeal Cert.ReferenceIdeal.Gen

/-! ## Constants and parameters spread over an array -/

/-- A scalar float word spread over any shape reads the word's value. -/
theorem kS_apply {t : Shape} (h : S_.BroadcastsInDim t (![] : Fin 0 → Fin t.rank)) (w : BitVec 32) (j : t.Idx) :
    broadcastInDim t (![] : Fin 0 → Fin t.rank) h (RefFn.k w) j = Ideal.ofBits .f32 w :=
  bcastScalar_apply h (RefFn.k w) j

/-- A per-column parameter reads its column's entry. -/
theorem col_apply (v : RefFn.A S2048) (b : Fin 32) (n : Fin 272) (j : Fin 2048) : RefFn.col v (ix3 b n j) = v (ix1 j) := by
  unfold RefFn.col
  refine (bcast_11c_abc_apply _ _ b n j).trans ?_
  exact bcast_c_11c_apply _ v 0 0 j

/-- A per-sample, per-column statistic reads the same entry on every row. -/
theorem rep_apply (y : RefFn.A S32x1x2048) (b : Fin 32) (n : Fin 272) (j : Fin 2048) :
    RefFn.rep y (ix3 b n j) = y (ix3 b (0 : Fin 1) j) := by
  unfold RefFn.rep
  exact bcast_a1c_abc_apply _ y b n j

/-- The kept sum over the rows is the plain sum of the column's 272 entries. -/
theorem rowSum_apply (x : RefFn.A S32x272x2048) (b : Fin 32) (u : Fin 1) (j : Fin 2048) :
    RefFn.rowSum x (ix3 b u j) = ∑ n : Fin 272, x (ix3 b n j) := by
  unfold RefFn.rowSum
  refine (bcast_ac_a1c_apply _ _ b u j).trans ?_
  refine (hostReduce_mid_apply x _ _ _ (by decide) b j).trans ?_
  show Ideal.ofBits .f32 0x00000000#32 + _ = _
  rw [Ideal.ofBits_zero_f32, zero_add]

/-! ## The first layer -/

/-- The stacked array at row n is the feature row n below 256 and the basis row n - 256 from there on. -/
theorem stack_apply (X : RefFn.A S32x256x768) (B : RefFn.A S32x16x768) (b : Fin 32) (n : Fin 272) (k : Fin 768) :
    concatenate S32x272x768 1 [⟨S32x256x768, X⟩, ⟨S32x16x768, B⟩] concatenates_S32x256x768_S32x16x768_S32x272x768_d1 (ix3 b n k)
      = LossSpec.rows (fun s c => X (ix3 b s c)) (fun k c => B (ix3 b k c)) n k := by
  unfold LossSpec.rows
  by_cases hn : n.val < 256
  · rw [dif_pos hn]
    refine concatenate_pair_apply_left (1 : Fin 3) X B _ (ix3 b n k) rfl (ix3 b ⟨n.val, hn⟩ k) fun a => ?_
    match a with
    | ⟨0, _⟩ => rfl
    | ⟨1, _⟩ => rfl
    | ⟨2, _⟩ => rfl
  · rw [dif_neg hn]
    have hn' : n.val - 256 < 16 := by have := n.isLt; omega
    refine concatenate_pair_apply_right (1 : Fin 3) X B _ (ix3 b n k) rfl rfl (ix3 b ⟨n.val - 256, hn'⟩ k) (fun a ha => ?_) ?_
    · match a, ha with
      | ⟨0, _⟩, _ => rfl
      | ⟨1, _⟩, ha => exact absurd rfl ha
      | ⟨2, _⟩, _ => rfl
    · show n.val - 256 + 256 = n.val
      omega

/-- The first product at (b, n, j): row n of the stacked array against column j of the weights. -/
theorem dot1_apply (x : RefFn.A S32x272x768) (w : RefFn.A S768x2048) (b : Fin 32) (n : Fin 272) (j : Fin 2048) :
    Host.dotGeneral dot_S32x272x768_S768x2048_S32x272x2048_2_0_01_1_n_n none x w (ix3 b n j)
      = ∑ k : Fin 768, x (ix3 b n k) * w (ix2 k j) :=
  dot_rows_apply _ rfl rfl (fun _ _ => rfl) (fun _ _ => rfl) (fun _ _ => rfl) (fun _ _ => rfl) (fun _ _ => rfl) x w b n j

/-- The first affine layer is the specification's, over the sample's stacked rows. -/
theorem lin1_apply (X : RefFn.A S32x256x768) (B : RefFn.A S32x16x768) (w : RefFn.A S768x2048) (b1 : RefFn.A S2048)
    (b : Fin 32) (n : Fin 272) (j : Fin 2048) :
    RefFn.lin1 X B w b1 (ix3 b n j)
      = LossSpec.lin (LossSpec.rows (fun s c => X (ix3 b s c)) (fun k c => B (ix3 b k c))) (fun k j => w (ix2 k j))
          (fun j => b1 (ix1 j)) n j := by
  unfold RefFn.lin1 LossSpec.lin
  rw [addf_apply, dot1_apply, col_apply]
  refine congrArg (· + b1 (ix1 j)) (Finset.sum_congr rfl fun k _ => ?_)
  rw [stack_apply]

/-! ## The normalisation -/

/-- The column mean. -/
theorem mean_apply (x : RefFn.A S32x272x2048) (b : Fin 32) (u : Fin 1) (j : Fin 2048) :
    RefFn.mean x (ix3 b u j) = LossSpec.mean (fun n j => x (ix3 b n j)) j := by
  unfold RefFn.mean LossSpec.mean
  rw [hostDivf_apply, rowSum_apply, kS_apply]

/-- A row minus the column means. -/
theorem center_apply (x : RefFn.A S32x272x2048) (b : Fin 32) (n : Fin 272) (j : Fin 2048) :
    RefFn.center x (ix3 b n j) = x (ix3 b n j) - LossSpec.mean (fun n j => x (ix3 b n j)) j := by
  unfold RefFn.center
  rw [subf_apply, rep_apply, mean_apply]

/-- The variance's divisor, 272 minus the converted integer zero, is 272. -/
theorem count_apply : RefFn.count ix0 = LossSpec.w272 := by
  unfold RefFn.count
  rw [subf_apply]
  show Ideal.ofBits .f32 0x43880000#32 - (((0#32 : BitVec 32).toInt : ℝ) : EReal) = _
  rw [sitofp_zero, sub_zero]

/-- The variance's guard holds: its divisor is positive. -/
theorem count_pos : cmpf .ogt RefFn.count (RefFn.k 0x00000000#32) ix0 = 1#1 := by
  rw [cmpf_apply, count_apply]
  exact cmp_272_pos

/-- The column variance. -/
theorem var_apply (x : RefFn.A S32x272x2048) (b : Fin 32) (u : Fin 1) (j : Fin 2048) :
    RefFn.var x (ix3 b u j) = LossSpec.var (fun n j => x (ix3 b n j)) j := by
  unfold RefFn.var LossSpec.var
  rw [select_apply, bcastScalar_apply bcast_S_S32x1x2048 (cmpf .ogt RefFn.count (RefFn.k 0x00000000#32)), count_pos, select_one,
    hostDivf_apply, rowSum_apply, bcastScalar_apply bcast_S_S32x1x2048 RefFn.count, count_apply]
  refine congrArg (fun t => Ideal.div t LossSpec.w272) (Finset.sum_congr rfl fun n _ => ?_)
  rw [mulf_apply, center_apply]

/-- Normalise, scale, shift, clamp: the specification's formula over the sample's rows. -/
theorem bnRelu_apply (x : RefFn.A S32x272x2048) (g be : RefFn.A S2048) (b : Fin 32) (n : Fin 272) (j : Fin 2048) :
    RefFn.bnRelu x g be (ix3 b n j)
      = LossSpec.bnRelu (fun n j => x (ix3 b n j)) (fun j => g (ix1 j)) (fun j => be (ix1 j)) n j := by
  unfold RefFn.bnRelu LossSpec.bnRelu
  rw [maximumf_apply, addf_apply, mulf_apply, mulf_apply, center_apply, rep_apply, hostRsqrt_apply, addf_apply, var_apply,
    col_apply, col_apply, kS_apply, kS_apply]

/-! ## The later layers, and the three together -/

/-- A later product at (b, n, j): row n against column j of the weights. -/
theorem dot2_apply (x : RefFn.A S32x272x2048) (w : RefFn.A S2048x2048) (b : Fin 32) (n : Fin 272) (j : Fin 2048) :
    Host.dotGeneral dot_S32x272x2048_S2048x2048_S32x272x2048_2_0_01_1_n_n none x w (ix3 b n j)
      = ∑ k : Fin 2048, x (ix3 b n k) * w (ix2 k j) :=
  dot_rows_apply _ rfl rfl (fun _ _ => rfl) (fun _ _ => rfl) (fun _ _ => rfl) (fun _ _ => rfl) (fun _ _ => rfl) x w b n j

/-- A later affine layer is the specification's, over the sample's rows. -/
theorem lin_apply (x : RefFn.A S32x272x2048) (w : RefFn.A S2048x2048) (bb : RefFn.A S2048) (b : Fin 32) (n : Fin 272) (j : Fin 2048) :
    RefFn.lin x w bb (ix3 b n j)
      = LossSpec.lin (fun n k => x (ix3 b n k)) (fun k j => w (ix2 k j)) (fun j => bb (ix1 j)) n j := by
  unfold RefFn.lin LossSpec.lin
  rw [addf_apply, dot2_apply, col_apply]

/-- The rows after the three layers are the specification's, sample by sample. -/
theorem hidden_apply (X : RefFn.A S32x256x768) (B : RefFn.A S32x16x768) (w1 : RefFn.A S768x2048) (b1 g1 be1 : RefFn.A S2048)
    (w2 : RefFn.A S2048x2048) (b2 g2 be2 : RefFn.A S2048) (w3 : RefFn.A S2048x2048) (b3 : RefFn.A S2048)
    (b : Fin 32) (n : Fin 272) (j : Fin 2048) :
    RefFn.hidden X B w1 b1 g1 be1 w2 b2 g2 be2 w3 b3 (ix3 b n j)
      = LossSpec.hidden (fun s c => X (ix3 b s c)) (fun k c => B (ix3 b k c)) (fun k j => w1 (ix2 k j)) (fun j => b1 (ix1 j))
          (fun j => g1 (ix1 j)) (fun j => be1 (ix1 j)) (fun k j => w2 (ix2 k j)) (fun j => b2 (ix1 j)) (fun j => g2 (ix1 j))
          (fun j => be2 (ix1 j)) (fun k j => w3 (ix2 k j)) (fun j => b3 (ix1 j)) n j := by
  unfold RefFn.hidden LossSpec.hidden
  rw [lin_apply]
  have e2 : (fun n k => RefFn.bnRelu (RefFn.lin (RefFn.bnRelu (RefFn.lin1 X B w1 b1) g1 be1) w2 b2) g2 be2 (ix3 b n k))
      = LossSpec.bnRelu (LossSpec.lin (LossSpec.bnRelu (LossSpec.lin (LossSpec.rows (fun s c => X (ix3 b s c)) (fun k c => B (ix3 b k c)))
          (fun k j => w1 (ix2 k j)) (fun j => b1 (ix1 j))) (fun j => g1 (ix1 j)) (fun j => be1 (ix1 j))) (fun k j => w2 (ix2 k j))
          (fun j => b2 (ix1 j))) (fun j => g2 (ix1 j)) (fun j => be2 (ix1 j)) := by
    funext n k
    rw [bnRelu_apply]
    have e1 : (fun n j => RefFn.lin (RefFn.bnRelu (RefFn.lin1 X B w1 b1) g1 be1) w2 b2 (ix3 b n j))
        = LossSpec.lin (LossSpec.bnRelu (LossSpec.lin (LossSpec.rows (fun s c => X (ix3 b s c)) (fun k c => B (ix3 b k c)))
            (fun k j => w1 (ix2 k j)) (fun j => b1 (ix1 j))) (fun j => g1 (ix1 j)) (fun j => be1 (ix1 j))) (fun k j => w2 (ix2 k j))
            (fun j => b2 (ix1 j)) := by
      funext n j
      rw [lin_apply]
      have e0 : (fun n k => RefFn.bnRelu (RefFn.lin1 X B w1 b1) g1 be1 (ix3 b n k))
          = LossSpec.bnRelu (LossSpec.lin (LossSpec.rows (fun s c => X (ix3 b s c)) (fun k c => B (ix3 b k c)))
              (fun k j => w1 (ix2 k j)) (fun j => b1 (ix1 j))) (fun j => g1 (ix1 j)) (fun j => be1 (ix1 j)) := by
        funext n k
        rw [bnRelu_apply]
        have ea : (fun n j => RefFn.lin1 X B w1 b1 (ix3 b n j))
            = LossSpec.lin (LossSpec.rows (fun s c => X (ix3 b s c)) (fun k c => B (ix3 b k c))) (fun k j => w1 (ix2 k j))
                (fun j => b1 (ix1 j)) := by
          funext n j
          exact lin1_apply X B w1 b1 b n j
        rw [ea]
      rw [e0]
    rw [e1]
  rw [e2]

end Cert.ReferenceIdeal.RefRead

end
-- ==== Proof.RefReadCos.lean ====
/-
  The reference's row split, row normalisations and cosine table read at a sample.

  The feature rows are rows 0 + s and the basis rows are rows 256 + k of the 272; a row divided by its floored length
  reads the entry over the larger of the root of the row's sum of squares and the floor; the cosine table's entry is the
  inner product of a feature row with a basis row of the same sample, clamped at zero.
-/
import proofs.«162502_j88974542504179_2_alg».proof.Proof.RefFn
import proofs.«162502_j88974542504179_2_alg».proof.Proof.LossSpec
import proofs.«162502_j88974542504179_2_alg».proof.Proof.RefReadLayout
import proofs.«162502_j88974542504179_2_alg».proof.Proof.RefReadLayers

noncomputable section

open scoped BigOperators

namespace Cert.ReferenceIdeal.RefRead

open Idealize.ShloMosaic Idealize.ShloMosaic.ValueIdx Cert.ReferenceIdeal Cert.ReferenceIdeal.Gen

/-- The feature rows are the first 256 rows. -/
theorem feat_apply (h : RefFn.A S32x272x2048) (b : Fin 32) (s : Fin 256) (j : Fin 2048) :
    RefFn.feat h (ix3 b s j) = LossSpec.featRows (fun n j => h (ix3 b n j)) s j := by
  unfold RefFn.feat LossSpec.featRows
  have hs : 0 + s.val < 272 := by have := s.isLt; omega
  refine extractStridedSlice_apply _ h _ (ix3 b s j) (ix3 b ⟨0 + s.val, hs⟩ j) fun a => ?_
  match a with
  | ⟨0, _⟩ => exact (Nat.zero_add _).symm
  | ⟨1, _⟩ => rfl
  | ⟨2, _⟩ => exact (Nat.zero_add _).symm

/-- The basis rows are the last 16 rows. -/
theorem base_apply (h : RefFn.A S32x272x2048) (b : Fin 32) (k : Fin 16) (j : Fin 2048) :
    RefFn.base h (ix3 b k j) = LossSpec.baseRows (fun n j => h (ix3 b n j)) k j := by
  unfold RefFn.base LossSpec.baseRows
  have hk : 256 + k.val < 272 := by have := k.isLt; omega
  refine extractStridedSlice_apply _ h _ (ix3 b k j) (ix3 b ⟨256 + k.val, hk⟩ j) fun a => ?_
  match a with
  | ⟨0, _⟩ => exact (Nat.zero_add _).symm
  | ⟨1, _⟩ => rfl
  | ⟨2, _⟩ => exact (Nat.zero_add _).symm

/-- A feature row over its floored length. -/
theorem unitF_apply (p : RefFn.A S32x256x2048) (b : Fin 32) (s : Fin 256) (j : Fin 2048) :
    RefFn.unitF p (ix3 b s j) = LossSpec.unit (fun s j => p (ix3 b s j)) s j := by
  unfold RefFn.unitF LossSpec.unit
  rw [hostDivf_apply]
  refine congrArg (Ideal.div (p (ix3 b s j))) ?_
  refine (bcast_ab1_abc_apply _ _ b s j).trans ?_
  rw [maximumf_apply, hostSqrt_apply, kS_apply]
  refine congrArg (fun t => max (Ideal.sqrt t) LossSpec.eps8) ?_
  refine (bcast_ab_ab1_apply _ _ b s 0).trans ?_
  refine (hostReduce_last_apply _ _ _ _ (by decide) b s).trans ?_
  show Ideal.ofBits .f32 0x00000000#32 + _ = _
  rw [Ideal.ofBits_zero_f32, zero_add]
  rfl

/-- A basis row over its floored length. -/
theorem unitB_apply (p : RefFn.A S32x16x2048) (b : Fin 32) (k : Fin 16) (j : Fin 2048) :
    RefFn.unitB p (ix3 b k j) = LossSpec.unit (fun k j => p (ix3 b k j)) k j := by
  unfold RefFn.unitB LossSpec.unit
  rw [hostDivf_apply]
  refine congrArg (Ideal.div (p (ix3 b k j))) ?_
  refine (bcast_ab1_abc_apply _ _ b k j).trans ?_
  rw [maximumf_apply, hostSqrt_apply, kS_apply]
  refine congrArg (fun t => max (Ideal.sqrt t) LossSpec.eps8) ?_
  refine (bcast_ab_ab1_apply _ _ b k 0).trans ?_
  refine (hostReduce_last_apply _ _ _ _ (by decide) b k).trans ?_
  show Ideal.ofBits .f32 0x00000000#32 + _ = _
  rw [Ideal.ofBits_zero_f32, zero_add]
  rfl

/-- The feature-by-basis product at (b, s, k): row s of the features against row k of the bases of sample b. -/
theorem dotFB_apply (u : RefFn.A S32x256x2048) (v : RefFn.A S32x16x2048) (b : Fin 32) (s : Fin 256) (k : Fin 16) :
    Host.dotGeneral dot_S32x256x2048_S32x16x2048_S32x256x16_2_2_1_1_0_0 none u v (ix3 b s k)
      = ∑ h : Fin 2048, u (ix3 b s h) * v (ix3 b k h) :=
  dot_pairs_apply _ rfl rfl (fun _ _ => rfl) (fun _ _ => rfl) (fun _ _ => rfl) (fun _ _ => rfl) (fun _ _ => rfl)
    (fun _ _ => rfl) u v b s k

/-- The basis-by-basis product at (b, i, j). -/
theorem dotBB_apply (u v : RefFn.A S32x16x2048) (b : Fin 32) (i j : Fin 16) :
    Host.dotGeneral dot_S32x16x2048_S32x16x2048_S32x16x16_2_2_1_1_0_0 none u v (ix3 b i j)
      = ∑ h : Fin 2048, u (ix3 b i h) * v (ix3 b j h) :=
  dot_pairs_apply _ rfl rfl (fun _ _ => rfl) (fun _ _ => rfl) (fun _ _ => rfl) (fun _ _ => rfl) (fun _ _ => rfl)
    (fun _ _ => rfl) u v b i j

/-- The clamped cosine table. -/
theorem cosT_apply (u : RefFn.A S32x256x2048) (v : RefFn.A S32x16x2048) (b : Fin 32) (s : Fin 256) (k : Fin 16) :
    RefFn.cosT u v (ix3 b s k) = LossSpec.cosRelu (fun s h => u (ix3 b s h)) (fun k h => v (ix3 b k h)) s k := by
  unfold RefFn.cosT LossSpec.cosRelu
  rw [maximumf_apply, kS_apply, dotFB_apply]

end Cert.ReferenceIdeal.RefRead

end
-- ==== Proof.RefReadLoss.lean ====
/-
  The reference's three per-sample losses read at a sample.

  A comparison of a label with zero turned into a float is the indicator 0 or 1; the sum over a sample's table is the
  double sum over its rows and columns; the positive-label and zero-label losses are the specification's quotients of such
  sums; the table that keeps the pairs above the diagonal is decided entry by entry (the signed comparison of two
  coordinates below 16), and the regulariser is the sum of the kept clamped inner products squared over 120.
-/
import proofs.«162502_j88974542504179_2_alg».proof.Proof.RefFn
import proofs.«162502_j88974542504179_2_alg».proof.Proof.LossSpec
import proofs.«162502_j88974542504179_2_alg».proof.Proof.RefReadLayout
import proofs.«162502_j88974542504179_2_alg».proof.Proof.RefReadConsts
import proofs.«162502_j88974542504179_2_alg».proof.Proof.RefReadLayers
import proofs.«162502_j88974542504179_2_alg».proof.Proof.RefReadCos

noncomputable section

open scoped BigOperators

namespace Cert.ReferenceIdeal.RefRead

open Idealize.ShloMosaic Idealize.ShloMosaic.ValueIdx Cert.ReferenceIdeal Cert.ReferenceIdeal.Gen

/-! ## Indicators and table sums -/

/-- The indicator of a label's comparison with zero. -/
theorem ind_apply (p : CmpFPredicate) (L : RefFn.A S32x256x16) (b : Fin 32) (s : Fin 256) (k : Fin 16) :
    RefFn.ind p L (ix3 b s k) = LossSpec.ind p (L (ix3 b s k)) := by
  unfold RefFn.ind LossSpec.ind
  have e : broadcastInDim S32x256x16 ![] bcast_S_S32x256x16 (RefFn.k 0x00000000#32) (ix3 b s k) = LossSpec.z0 := kS_apply _ _ _
  show (((Ideal.cmp p (L (ix3 b s k)) (broadcastInDim S32x256x16 ![] bcast_S_S32x256x16 (RefFn.k 0x00000000#32) (ix3 b s k))).toNat : ℝ) : EReal) = _
  rw [e]

/-- The sum over a sample's table is the double sum over its rows and columns. -/
theorem tabSum_apply (x : RefFn.A S32x256x16) (b : Fin 32) :
    RefFn.tabSum x (ix1 b) = ∑ s : Fin 256, ∑ k : Fin 16, x (ix3 b s k) := by
  unfold RefFn.tabSum
  refine (hostReduce_tail_apply x _ _ _ b).trans ?_
  show Ideal.ofBits .f32 0x00000000#32 + _ = _
  rw [Ideal.ofBits_zero_f32, zero_add]

/-! ## The positive-label and zero-label losses -/

theorem posPer_apply (L p : RefFn.A S32x256x16) (b : Fin 32) :
    RefFn.posPer L p (ix1 b) = LossSpec.pos (fun s k => L (ix3 b s k)) (fun s k => p (ix3 b s k)) := by
  unfold RefFn.posPer LossSpec.pos
  rw [hostDivf_apply, hostNegf_apply, addf_apply, tabSum_apply, tabSum_apply, kS_apply]
  refine congrArg₂ Ideal.div
    (congrArg Neg.neg (Finset.sum_congr rfl fun s _ => Finset.sum_congr rfl fun k _ => ?_))
    (congrArg (· + LossSpec.eps6) (Finset.sum_congr rfl fun s _ => Finset.sum_congr rfl fun k _ => ?_))
  · rw [mulf_apply, ind_apply, hostLog_apply, addf_apply, subf_apply, kS_apply, kS_apply, hostAbsf_apply, subf_apply]
  · rw [ind_apply]

theorem negPer_apply (L p : RefFn.A S32x256x16) (b : Fin 32) :
    RefFn.negPer L p (ix1 b) = LossSpec.neg (fun s k => L (ix3 b s k)) (fun s k => p (ix3 b s k)) := by
  unfold RefFn.negPer LossSpec.neg
  rw [hostDivf_apply, addf_apply, tabSum_apply, tabSum_apply, kS_apply]
  refine congrArg₂ Ideal.div
    (Finset.sum_congr rfl fun s _ => Finset.sum_congr rfl fun k _ => ?_)
    (congrArg (· + LossSpec.eps6) (Finset.sum_congr rfl fun s _ => Finset.sum_congr rfl fun k _ => ?_))
  · rw [mulf_apply, ind_apply, mulf_apply]
  · rw [ind_apply]

/-! ## The regulariser -/

/-- For coordinates below 16, "i + 0 is at least j" as signed 32-bit words holds exactly when i is not below j. -/
theorem sge_small : ∀ i j : Fin 16,
    IntOp.cmpi .sge (IntOp.addi (BitVec.ofNat 32 i.val) 0#32) (BitVec.ofNat 32 j.val) = if i.val < j.val then 0#1 else 1#1 := by
  decide +kernel

/-- The table that keeps the pairs above the diagonal: 1 there, 0 elsewhere. -/
theorem upper_apply (i j : Fin 16) : RefFn.upper (ix2 i j) = LossSpec.upper i j := by
  unfold RefFn.upper LossSpec.upper
  rw [select_apply, kS_apply, kS_apply]
  have e : broadcastInDim S16x16 ![] bcast_S_S16x16 (constantI S_ 32 0#32) (ix2 i j) = 0#32 := bcastScalar_apply _ _ _
  show Scalar.select (IntOp.cmpi .sge (IntOp.addi (BitVec.ofNat 32 i.val)
      (broadcastInDim S16x16 ![] bcast_S_S16x16 (constantI S_ 32 0#32) (ix2 i j))) (BitVec.ofNat 32 j.val)) _ _ = _
  rw [e, sge_small i j]
  by_cases h : i.val < j.val
  · rw [if_pos h, if_pos h, select_zero, ofBits_one]
  · rw [if_neg h, if_neg h, select_one, Ideal.ofBits_zero_f32]

/-- That table spread over the samples. -/
theorem upperB_apply (b : Fin 32) (i j : Fin 16) :
    broadcastInDim S32x16x16 ![0, 1, 2] bcast_S1x16x16_S32x16x16_0_1_2
        (broadcastInDim S1x16x16 ![1, 2] bcast_S16x16_S1x16x16_1_2 RefFn.upper) (ix3 b i j) = LossSpec.upper i j := by
  refine (bcast_1ab_nab_apply _ _ b i j).trans ?_
  refine (bcast_ab_1ab_apply _ _ 0 i j).trans ?_
  exact upper_apply i j

/-- A kept clamped inner product of two basis rows. -/
theorem keptCos_apply (v : RefFn.A S32x16x2048) (b : Fin 32) (i j : Fin 16) :
    mulf (maximumf (Host.dotGeneral dot_S32x16x2048_S32x16x2048_S32x16x16_2_2_1_1_0_0 none v v)
          (broadcastInDim S32x16x16 ![] bcast_S_S32x16x16 (RefFn.k 0x00000000#32)))
        (broadcastInDim S32x16x16 ![0, 1, 2] bcast_S1x16x16_S32x16x16_0_1_2
          (broadcastInDim S1x16x16 ![1, 2] bcast_S16x16_S1x16x16_1_2 RefFn.upper)) (ix3 b i j)
      = LossSpec.cosRelu (fun k h => v (ix3 b k h)) (fun k h => v (ix3 b k h)) i j * LossSpec.upper i j := by
  unfold LossSpec.cosRelu
  rw [mulf_apply, upperB_apply, maximumf_apply, kS_apply, dotBB_apply]

theorem regPer_apply (v : RefFn.A S32x16x2048) (b : Fin 32) :
    RefFn.regPer v (ix1 b) = LossSpec.reg (fun k h => v (ix3 b k h)) := by
  unfold RefFn.regPer LossSpec.reg
  rw [hostDivf_apply, kS_apply]
  refine congrArg (fun t => Ideal.div t LossSpec.w120) ?_
  refine (hostReduce_tail_apply _ _ _ _ b).trans ?_
  show Ideal.ofBits .f32 0x00000000#32 + _ = _
  rw [Ideal.ofBits_zero_f32, zero_add]
  refine Finset.sum_congr rfl fun i _ => Finset.sum_congr rfl fun j _ => ?_
  rw [mulf_apply, keptCos_apply]

end Cert.ReferenceIdeal.RefRead

end
-- ==== Proof.RefRead.lean ====
/-
  The reference's three per-sample losses are the specification's.

  Sample by sample: the rows after the three layers are the specification's hidden rows of the sample's own features and
  bases; their split, the two row normalisations and the clamped cosine table follow entry by entry; and each loss is the
  specification's formula of the sample's labels and table.
-/
import proofs.«162502_j88974542504179_2_alg».proof.Proof.RefFn
import proofs.«162502_j88974542504179_2_alg».proof.Proof.LossSpec
import proofs.«162502_j88974542504179_2_alg».proof.Proof.RefReadLayers
import proofs.«162502_j88974542504179_2_alg».proof.Proof.RefReadCos
import proofs.«162502_j88974542504179_2_alg».proof.Proof.RefReadLoss

noncomputable section

open scoped BigOperators

namespace Cert.ReferenceIdeal.RefRead

open Idealize.ShloMosaic Idealize.ShloMosaic.ValueIdx Cert.ReferenceIdeal Cert.ReferenceIdeal.Gen

/-- The unit basis rows of sample b are the specification's, from the sample's hidden rows. -/
theorem unitBase_apply (H : RefFn.A S32x272x2048) (b : Fin 32) (h : Fin 272 → Fin 2048 → EReal)
    (hH : ∀ n j, H (ix3 b n j) = h n j) (k : Fin 16) (j : Fin 2048) :
    RefFn.unitB (RefFn.base H) (ix3 b k j) = LossSpec.unit (LossSpec.baseRows h) k j := by
  rw [unitB_apply]
  have e : (fun k j => RefFn.base H (ix3 b k j)) = LossSpec.baseRows h := by
    funext k j
    rw [base_apply]
    have eh : (fun n j => H (ix3 b n j)) = h := by funext n j; exact hH n j
    rw [eh]
  rw [e]

/-- The unit feature rows of sample b likewise. -/
theorem unitFeat_apply (H : RefFn.A S32x272x2048) (b : Fin 32) (h : Fin 272 → Fin 2048 → EReal)
    (hH : ∀ n j, H (ix3 b n j) = h n j) (s : Fin 256) (j : Fin 2048) :
    RefFn.unitF (RefFn.feat H) (ix3 b s j) = LossSpec.unit (LossSpec.featRows h) s j := by
  rw [unitF_apply]
  have e : (fun s j => RefFn.feat H (ix3 b s j)) = LossSpec.featRows h := by
    funext s j
    rw [feat_apply]
    have eh : (fun n j => H (ix3 b n j)) = h := by funext n j; exact hH n j
    rw [eh]
  rw [e]

/-- The cosine table of sample b is the specification's. -/
theorem table_apply (H : RefFn.A S32x272x2048) (b : Fin 32) (h : Fin 272 → Fin 2048 → EReal)
    (hH : ∀ n j, H (ix3 b n j) = h n j) (s : Fin 256) (k : Fin 16) :
    RefFn.cosT (RefFn.unitF (RefFn.feat H)) (RefFn.unitB (RefFn.base H)) (ix3 b s k)
      = LossSpec.cosRelu (LossSpec.unit (LossSpec.featRows h)) (LossSpec.unit (LossSpec.baseRows h)) s k := by
  rw [cosT_apply]
  have eu : (fun s j => RefFn.unitF (RefFn.feat H) (ix3 b s j)) = LossSpec.unit (LossSpec.featRows h) := by
    funext s j; exact unitFeat_apply H b h hH s j
  have ev : (fun k j => RefFn.unitB (RefFn.base H) (ix3 b k j)) = LossSpec.unit (LossSpec.baseRows h) := by
    funext k j; exact unitBase_apply H b h hH k j
  rw [eu, ev]

/-- The reference's per-sample losses at sample b are the specification's three losses of that sample's rows and labels. -/
theorem losses_eq (X : RefFn.A S32x256x768) (B : RefFn.A S32x16x768) (L : RefFn.A S32x256x16) (w1 : RefFn.A S768x2048)
    (b1 g1 be1 : RefFn.A S2048) (w2 : RefFn.A S2048x2048) (b2 g2 be2 : RefFn.A S2048) (w3 : RefFn.A S2048x2048)
    (b3 : RefFn.A S2048) (b : Fin 32) :
    let H := RefFn.hidden X B w1 b1 g1 be1 w2 b2 g2 be2 w3 b3
    let VB := RefFn.unitB (RefFn.base H)
    let P := RefFn.cosT (RefFn.unitF (RefFn.feat H)) VB
    let S := Cert.LossSpec.losses (fun s c => X (ValueIdx.ix3 b s c)) (fun k c => B (ValueIdx.ix3 b k c))
      (fun s k => L (ValueIdx.ix3 b s k)) (fun k j => w1 (ValueIdx.ix2 k j)) (fun j => b1 (ValueIdx.ix1 j))
      (fun j => g1 (ValueIdx.ix1 j)) (fun j => be1 (ValueIdx.ix1 j)) (fun k j => w2 (ValueIdx.ix2 k j))
      (fun j => b2 (ValueIdx.ix1 j)) (fun j => g2 (ValueIdx.ix1 j)) (fun j => be2 (ValueIdx.ix1 j))
      (fun k j => w3 (ValueIdx.ix2 k j)) (fun j => b3 (ValueIdx.ix1 j))
    RefFn.posPer L P (ValueIdx.ix1 b) = S 0 ∧ RefFn.negPer L P (ValueIdx.ix1 b) = S 1 ∧ RefFn.regPer VB (ValueIdx.ix1 b) = S 2 := by
  intro H VB P S
  have hH := fun n j => hidden_apply X B w1 b1 g1 be1 w2 b2 g2 be2 w3 b3 b n j
  have hP : (fun s k => P (ix3 b s k)) = _ := funext fun s => funext fun k => table_apply H b _ hH s k
  have hV : (fun k j => VB (ix3 b k j)) = _ := funext fun k => funext fun j => unitBase_apply H b _ hH k j
  refine ⟨?_, ?_, ?_⟩
  · rw [posPer_apply, hP]; rfl
  · rw [negPer_apply, hP]; rfl
  · rw [regPer_apply, hV]; rfl

end Cert.ReferenceIdeal.RefRead

end
-- ==== Proof.Bridge.lean ====
/-
  The two programs meet.  The reference's per-sample losses, read at sample b, and the kernel's result array, read at
  (b / 2, b % 2, q), are the same three formulas of the same sample of the same arrays; both programs then average
  over the 32 samples by the same host operations.
-/
import proofs.«162502_j88974542504179_2_alg».proof.Proof.KRun
import proofs.«162502_j88974542504179_2_alg».proof.Proof.RefRun
import proofs.«162502_j88974542504179_2_alg».proof.Proof.RefRead

set_option maxRecDepth 16384

noncomputable section

namespace Cert.Bridge

open Idealize.ShloMosaic Idealize.ShloMosaic.TcCoe Idealize.ShloMosaic.ValueIdx
open Idealize.SL Idealize.SL.Sem

/-- The reference's three per-sample loss arrays are the specification's losses, sample by sample. -/
theorem ref_cols (m' : (ℓ : Loc Cert.ReferenceIdeal.nD Cert.ReferenceIdeal.τ Cert.ReferenceIdeal.sig) → Buf (Elt Ideal) ℓ)
    (c : Dev Cert.ReferenceIdeal.nD) (q : Fin 3) :
    (match q with
      | 0 => Cert.ReferenceIdeal.RefFn.posPer (m' ((c.tc : Thread Cert.ReferenceIdeal.nD Cert.ReferenceIdeal.τ).loc Cert.ReferenceIdeal.main_arg2)) (Cert.ReferenceIdeal.Hand.P m' c)
      | 1 => Cert.ReferenceIdeal.RefFn.negPer (m' ((c.tc : Thread Cert.ReferenceIdeal.nD Cert.ReferenceIdeal.τ).loc Cert.ReferenceIdeal.main_arg2)) (Cert.ReferenceIdeal.Hand.P m' c)
      | 2 => Cert.ReferenceIdeal.RefFn.regPer (Cert.ReferenceIdeal.Hand.VB m' c))
    = fun i => Cert.LossSpec.perSample
        (shapeCast Cert.ReferenceIdeal.S32x256x768 (m' ((c.tc : Thread Cert.ReferenceIdeal.nD Cert.ReferenceIdeal.τ).loc Cert.ReferenceIdeal.main_arg0)) Cert.ReferenceIdeal.Gen.shapeCasts_S8192x768_S32x256x768)
        (shapeCast Cert.ReferenceIdeal.S32x16x768 (m' ((c.tc : Thread Cert.ReferenceIdeal.nD Cert.ReferenceIdeal.τ).loc Cert.ReferenceIdeal.main_arg1)) Cert.ReferenceIdeal.Gen.shapeCasts_S512x768_S32x16x768)
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (i 0) q := by
  have key := fun b : Fin 32 => Cert.ReferenceIdeal.RefRead.losses_eq
    (shapeCast Cert.ReferenceIdeal.S32x256x768 (m' ((c.tc : Thread Cert.ReferenceIdeal.nD Cert.ReferenceIdeal.τ).loc Cert.ReferenceIdeal.main_arg0)) Cert.ReferenceIdeal.Gen.shapeCasts_S8192x768_S32x256x768)
    (shapeCast Cert.ReferenceIdeal.S32x16x768 (m' ((c.tc : Thread Cert.ReferenceIdeal.nD Cert.ReferenceIdeal.τ).loc Cert.ReferenceIdeal.main_arg1)) Cert.ReferenceIdeal.Gen.shapeCasts_S512x768_S32x16x768)
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12)) b
  funext i
  have hi : i = ix1 (i 0) := @eq_ix1 32 i
  match q with
  | 0 => exact (congrArg _ hi).trans (key (i 0)).1
  | 1 => exact (congrArg _ hi).trans (key (i 0)).2.1
  | 2 => exact (congrArg _ hi).trans (key (i 0)).2.2

end Cert.Bridge

end
-- ==== Proof.lean ====
/-
  The certificate: the kernel (16 grid points of two samples each, three affine layers with two row normalisations,
  unit rows, clamped cosines against labels, three losses per sample, averaged by host lines after the region) and the
  reference (the same arithmetic on all 32 samples at once) end, at the extended reals, with the same three numbers.
  Both are read against one scalar specification of a sample's three losses (LossSpec): the kernel's body block by
  block (KRead), its result array and host lines (KBlocks … KRun), the reference's run (RefRun) and its arithmetic at
  an index (RefRead); the two sides meet sample by sample (Bridge) and share the final mean over the samples.  The two
  sides are the same formulas up to the order of finite sums, 0 + x = x, 0 - x = -x, x - 0 = x and the values of three
  float words (zero, one, and 272 being positive), none of which needs a finite operand, so the precondition is never
  opened.  The ideal pass rewrote no operation of the kernel, so the fourth conjunct is `True`.
-/
import proofs.«162502_j88974542504179_2_alg».proof.Defs
import proofs.«162502_j88974542504179_2_alg».proof.Proof.Gen.Kernel
import proofs.«162502_j88974542504179_2_alg».proof.Proof.Gen.Kernel.Frame
import proofs.«162502_j88974542504179_2_alg».proof.Proof.Gen.KernelIdeal
import proofs.«162502_j88974542504179_2_alg».proof.Proof.Gen.KernelIdeal.Frame
import proofs.«162502_j88974542504179_2_alg».proof.Proof.Gen.ReferenceIdeal
import proofs.«162502_j88974542504179_2_alg».proof.Proof.Gen.Pre_finite_inputs
import proofs.«162502_j88974542504179_2_alg».proof.Proof.KRead
import proofs.«162502_j88974542504179_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => (h c).2.2.2) (Cert.ReferenceIdeal.Hand.run m ρ)

/-- The kernel's body computes the specification's losses block by block. -/
theorem hout : Cert.KernelIdeal.KFinal.OutEq := fun x0 x1 x2 x3 x4 x5 x6 x7 x8 x9 x10 x11 x12 g q =>
  Cert.KernelIdeal.KRead.out_eq x0 x1 x2 x3 x4 x5 x6 x7 x8 x9 x10 x11 x12 g q

/-- Loss q of every sample, kernel side, is the reference's per-sample loss array when the arguments agree. -/
theorem cols_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (q : Fin 3) :
    (fun i => Cert.LossSpec.perSample
        (shapeCast Cert.ReferenceIdeal.S32x256x768 (m' ((c.tc : Thread Cert.ReferenceIdeal.nD Cert.ReferenceIdeal.τ).loc Cert.ReferenceIdeal.main_arg0)) Cert.ReferenceIdeal.Gen.shapeCasts_S8192x768_S32x256x768)
        (shapeCast Cert.ReferenceIdeal.S32x16x768 (m' ((c.tc : Thread Cert.ReferenceIdeal.nD Cert.ReferenceIdeal.τ).loc Cert.ReferenceIdeal.main_arg1)) Cert.ReferenceIdeal.Gen.shapeCasts_S512x768_S32x16x768)
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
        (i 0) q : Cert.ReferenceIdeal.S32.Idx → EReal)
      = Cert.KernelIdeal.KFinal.lossCol m c q.val := by
  obtain ⟨a0, a1, a2, a3, a4, a5, a6, a7, a8, a9, a10, a11, a12⟩ := hagree
  funext i
  have hi : (i 0).val < 32 := (i 0).isLt
  unfold Cert.KernelIdeal.KFinal.lossCol Cert.KernelIdeal.KFinal.PS
  rw [dif_pos ⟨hi, q.isLt⟩, Cert.KernelIdeal.KFinal.V_main_v0, Cert.KernelIdeal.KFinal.V_main_v1,
    Cert.KernelIdeal.Gen.V_main_arg2, Cert.KernelIdeal.Gen.V_main_arg3, Cert.KernelIdeal.Gen.V_main_arg4, Cert.KernelIdeal.Gen.V_main_arg5,
    Cert.KernelIdeal.Gen.V_main_arg6, Cert.KernelIdeal.Gen.V_main_arg7, Cert.KernelIdeal.Gen.V_main_arg8, Cert.KernelIdeal.Gen.V_main_arg9,
    Cert.KernelIdeal.Gen.V_main_arg10, Cert.KernelIdeal.Gen.V_main_arg11, Cert.KernelIdeal.Gen.V_main_arg12,
    a0, a1, a2, a3, a4, a5, a6, a7, a8, a9, a10, a11, a12]
  rfl

/-- At the extended reals both programs end with the means over the 32 samples of the three losses. -/
theorem algebraic : Cert.algebraic_KernelIdeal_ReferenceIdeal := by
  intro m ρ m' ρ' _ hagree
  refine ⟨fun c => Cert.KernelIdeal.KFinal.meanB (Cert.KernelIdeal.KFinal.lossCol m c 0),
    fun c => Cert.KernelIdeal.KFinal.meanB (Cert.KernelIdeal.KFinal.lossCol m c 1),
    fun c => Cert.KernelIdeal.KFinal.meanB (Cert.KernelIdeal.KFinal.lossCol m c 2),
    Cert.KernelIdeal.KFinal.run m ρ hout, ?_⟩
  refine (θ_run Cert.ReferenceIdeal.defs _ _).mono (fun r h c => ?_) (Cert.ReferenceIdeal.Hand.run m' ρ')
  obtain ⟨h0, h1, h2, hargs⟩ := h c
  refine ⟨h0.trans ?_, h1.trans ?_, h2.trans ?_, hargs⟩
  · exact congrArg Cert.KernelIdeal.KFinal.meanB ((Cert.Bridge.ref_cols m' c 0).trans (cols_agree m m' c (hagree c) 0))
  · exact congrArg Cert.KernelIdeal.KFinal.meanB ((Cert.Bridge.ref_cols m' c 1).trans (cols_agree m m' c (hagree c) 1))
  · exact congrArg Cert.KernelIdeal.KFinal.meanB ((Cert.Bridge.ref_cols m' c 2).trans (cols_agree m m' c (hagree c) 2))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
